-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x144 : Shape := ⟨2, ![50000, 144]⟩
abbrev S2x400000 : Shape := ⟨2, ![2, 400000]⟩
abbrev S400000 : Shape := ⟨1, ![400000]⟩
abbrev S256x144 : Shape := ⟨2, ![256, 144]⟩
abbrev S256 : Shape := ⟨1, ![256]⟩
abbrev S512x256 : Shape := ⟨2, ![512, 256]⟩
abbrev S512 : Shape := ⟨1, ![512]⟩
abbrev S256x512 : Shape := ⟨2, ![256, 512]⟩
abbrev S128x256 : Shape := ⟨2, ![128, 256]⟩
abbrev S128 : Shape := ⟨1, ![128]⟩
abbrev S_ : Shape := ⟨0, ![]⟩

class Facts : Prop where
  bcast_S_S50000x144 : S_.BroadcastsInDim S50000x144 (![] : Fin 0 → Fin S50000x144.rank)
  reducesTo_S50000x144_S_d0_1 : S50000x144.ReducesTo [0, 1] S_
  h_S_ : 0 < S_.numel
  bcast_S_S400000 : S_.BroadcastsInDim S400000 (![] : Fin 0 → Fin S400000.rank)
  reducesTo_S400000_S_d0 : S400000.ReducesTo [0] S_
  bcast_S_S256x144 : S_.BroadcastsInDim S256x144 (![] : Fin 0 → Fin S256x144.rank)
  reducesTo_S256x144_S_d0_1 : S256x144.ReducesTo [0, 1] S_
  bcast_S_S256 : S_.BroadcastsInDim S256 (![] : Fin 0 → Fin S256.rank)
  reducesTo_S256_S_d0 : S256.ReducesTo [0] S_
  bcast_S_S512x256 : S_.BroadcastsInDim S512x256 (![] : Fin 0 → Fin S512x256.rank)
  reducesTo_S512x256_S_d0_1 : S512x256.ReducesTo [0, 1] S_
  bcast_S_S512 : S_.BroadcastsInDim S512 (![] : Fin 0 → Fin S512.rank)
  reducesTo_S512_S_d0 : S512.ReducesTo [0] S_
  bcast_S_S256x512 : S_.BroadcastsInDim S256x512 (![] : Fin 0 → Fin S256x512.rank)
  reducesTo_S256x512_S_d0_1 : S256x512.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_arg15 : FVec F S256 .f32) (main_arg16 : FVec F S256 .f32) (main_arg17 : FVec F S256 .f32) (main_v63 : IVec S_ 1) (main_v67 : IVec S_ 1) : IVec S_ 1 :=
  let main_v68 : IVec S_ 1 := andi main_v63 main_v67
  let main_v69 : FVec F S256 .f32 := Host.absf main_arg15
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256 .f32 := Host.absf main_arg16
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256 .f32 := Host.absf main_arg17
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  main_v83

def fn_part3 {F : FTy → Type} [FloatOps F] (main_arg12 : FVec F S128x256 .f32) (main_arg13 : FVec F S128 .f32) (main_arg14 : FVec F S128x256 .f32) (main_arg15 : FVec F S256 .f32) (main_arg16 : FVec F S256 .f32) (main_arg17 : FVec F S256 .f32) (main_v48 : IVec S_ 1) (main_v49 : FVec F S256x512 .f32) (main_v50 : FVec F S256x512 .f32) : IVec S_ 1 :=
  let main_v51 : IVec S256x512 1 := cmpf .olt main_v49 main_v50
  let main_c_19 : IVec S_ 1 := constantI S_ 1 1#1
  let main_v52 : IVec S_ 1 := (fun x v => Host.reduce IntOp.andi x v reducesTo_S256x512_S_d0_1 h_S_) main_v51 main_c_19
  let main_v53 : IVec S_ 1 := andi main_v48 main_v52
  let main_v54 : FVec F S128x256 .f32 := Host.absf main_arg12
  let main_cst_20 : FVec F S_ .f32 := constant S_ .f32 0x7F800000#32
  let main_v55 : FVec F S128x256 .f32 := broadcastInDim S128x256 ![] bcast_S_S128x256 main_cst_20
  let main_v56 : IVec S128x256 1 := cmpf .olt main_v54 main_v55
  let main_c_21 : IVec S_ 1 := constantI S_ 1 1#1
  let main_v57 : IVec S_ 1 := (fun x v => Host.reduce IntOp.andi x v reducesTo_S128x256_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x256 .f32 := Host.absf main_arg14
  let main_cst_24 : FVec F S_ .f32 := constant S_ .f32 0x7F800000#32
  let main_v65 : FVec F S128x256 .f32 := broadcastInDim S128x256 ![] bcast_S_S128x256 main_cst_24
  let main_v66 : IVec S128x256 1 := cmpf .olt main_v64 main_v65
  let main_c_25 : IVec S_ 1 := constantI S_ 1 1#1
  let main_v67 : IVec S_ 1 := (fun x v => Host.reduce IntOp.andi x v reducesTo_S128x256_S_d0_1 h_S_) main_v66 main_c_25
  fn_part4 (F := F) main_arg15 main_arg16 main_arg17 main_v63 main_v67

def fn_part2 {F : FTy → Type} [FloatOps F] (main_arg8 : FVec F S512x256 .f32) (main_arg9 : FVec F S256x512 .f32) (main_arg10 : FVec F S256 .f32) (main_arg11 : FVec F S256x512 .f32) (main_arg12 : FVec F S128x256 .f32) (main_arg13 : FVec F S128 .f32) (main_arg14 : FVec F S128x256 .f32) (main_arg15 : FVec F S256 .f32) (main_arg16 : FVec F S256 .f32) (main_arg17 : FVec F S256 .f32) (main_v33 : IVec S_ 1) : IVec S_ 1 :=
  let main_v34 : FVec F S512x256 .f32 := Host.absf main_arg8
  let main_cst_12 : FVec F S_ .f32 := constant S_ .f32 0x7F800000#32
  let main_v35 : FVec F S512x256 .f32 := broadcastInDim S512x256 ![] bcast_S_S512x256 main_cst_12
  let main_v36 : IVec S512x256 1 := cmpf .olt main_v34 main_v35
  let main_c_13 : IVec S_ 1 := constantI S_ 1 1#1
  let main_v37 : IVec S_ 1 := (fun x v => Host.reduce IntOp.andi x v reducesTo_S512x256_S_d0_1 h_S_) main_v36 main_c_13
  let main_v38 : IVec S_ 1 := andi main_v33 main_v37
  let main_v39 : FVec F S256x512 .f32 := Host.absf main_arg9
  let main_cst_14 : FVec F S_ .f32 := constant S_ .f32 0x7F800000#32
  let main_v40 : FVec F S256x512 .f32 := broadcastInDim S256x512 ![] bcast_S_S256x512 main_cst_14
  let main_v41 : IVec S256x512 1 := cmpf .olt main_v39 main_v40
  let main_c_15 : IVec S_ 1 := constantI S_ 1 1#1
  let main_v42 : IVec S_ 1 := (fun x v => Host.reduce IntOp.andi x v reducesTo_S256x512_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x512 .f32 := Host.absf main_arg11
  let main_cst_18 : FVec F S_ .f32 := constant S_ .f32 0x7F800000#32
  let main_v50 : FVec F S256x512 .f32 := broadcastInDim S256x512 ![] bcast_S_S256x512 main_cst_18
  fn_part3 (F := F) main_arg12 main_arg13 main_arg14 main_arg15 main_arg16 main_arg17 main_v48 main_v49 main_v50

def fn_part1 {F : FTy → Type} [FloatOps F] (main_arg5 : FVec F S256x144 .f32) (main_arg6 : FVec F S512x256 .f32) (main_arg7 : FVec F S512 .f32) (main_arg8 : FVec F S512x256 .f32) (main_arg9 : FVec F S256x512 .f32) (main_arg10 : FVec F S256 .f32) (main_arg11 : FVec F S256x512 .f32) (main_arg12 : FVec F S128x256 .f32) (main_arg13 : FVec F S128 .f32) (main_arg14 : FVec F S128x256 .f32) (main_arg15 : FVec F S256 .f32) (main_arg16 : FVec F S256 .f32) (main_arg17 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x144 .f32 := Host.absf main_arg5
  let main_cst_6 : FVec F S_ .f32 := constant S_ .f32 0x7F800000#32
  let main_v20 : FVec F S256x144 .f32 := broadcastInDim S256x144 ![] bcast_S_S256x144 main_cst_6
  let main_v21 : IVec S256x144 1 := cmpf .olt main_v19 main_v20
  let main_c_7 : IVec S_ 1 := constantI S_ 1 1#1
  let main_v22 : IVec S_ 1 := (fun x v => Host.reduce IntOp.andi x v reducesTo_S256x144_S_d0_1 h_S_) main_v21 main_c_7
  let main_v23 : IVec S_ 1 := andi main_v18 main_v22
  let main_v24 : FVec F S512x256 .f32 := Host.absf main_arg6
  let main_cst_8 : FVec F S_ .f32 := constant S_ .f32 0x7F800000#32
  let main_v25 : FVec F S512x256 .f32 := broadcastInDim S512x256 ![] bcast_S_S512x256 main_cst_8
  let main_v26 : IVec S512x256 1 := cmpf .olt main_v24 main_v25
  let main_c_9 : IVec S_ 1 := constantI S_ 1 1#1
  let main_v27 : IVec S_ 1 := (fun x v => Host.reduce IntOp.andi x v reducesTo_S512x256_S_d0_1 h_S_) main_v26 main_c_9
  let main_v28 : IVec S_ 1 := andi main_v23 main_v27
  let main_v29 : FVec F S512 .f32 := Host.absf main_arg7
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_v33

def fn {F : FTy → Type} [FloatOps F] (main_arg0 : FVec F S50000x144 .f32) (main_arg1 : IVec S2x400000 32) (main_arg2 : FVec F S400000 .f32) (main_arg3 : FVec F S256x144 .f32) (main_arg4 : FVec F S256 .f32) (main_arg5 : FVec F S256x144 .f32) (main_arg6 : FVec F S512x256 .f32) (main_arg7 : FVec F S512 .f32) (main_arg8 : FVec F S512x256 .f32) (main_arg9 : FVec F S256x512 .f32) (main_arg10 : FVec F S256 .f32) (main_arg11 : FVec F S256x512 .f32) (main_arg12 : FVec F S128x256 .f32) (main_arg13 : FVec F S128 .f32) (main_arg14 : FVec F S128x256 .f32) (main_arg15 : FVec F S256 .f32) (main_arg16 : FVec F S256 .f32) (main_arg17 : FVec F S256 .f32) : IVec S_ 1 :=
  let main_v0 : FVec F S50000x144 .f32 := Host.absf main_arg0
  let main_cst : FVec F S_ .f32 := constant S_ .f32 0x7F800000#32
  let main_v1 : FVec F S50000x144 .f32 := broadcastInDim S50000x144 ![] bcast_S_S50000x144 main_cst
  let main_v2 : IVec S50000x144 1 := cmpf .olt main_v0 main_v1
  let main_c : IVec S_ 1 := constantI S_ 1 1#1
  let main_v3 : IVec S_ 1 := (fun x v => Host.reduce IntOp.andi x v reducesTo_S50000x144_S_d0_1 h_S_) main_v2 main_c
  let main_v4 : FVec F S400000 .f32 := Host.absf main_arg2
  let main_cst_0 : FVec F S_ .f32 := constant S_ .f32 0x7F800000#32
  let main_v5 : FVec F S400000 .f32 := broadcastInDim S400000 ![] bcast_S_S400000 main_cst_0
  let main_v6 : IVec S400000 1 := cmpf .olt main_v4 main_v5
  let main_c_1 : IVec S_ 1 := constantI S_ 1 1#1
  let main_v7 : IVec S_ 1 := (fun x v => Host.reduce IntOp.andi x v reducesTo_S400000_S_d0 h_S_) main_v6 main_c_1
  let main_v8 : IVec S_ 1 := andi main_v3 main_v7
  let main_v9 : FVec F S256x144 .f32 := Host.absf main_arg3
  let main_cst_2 : FVec F S_ .f32 := constant S_ .f32 0x7F800000#32
  let main_v10 : FVec F S256x144 .f32 := broadcastInDim S256x144 ![] bcast_S_S256x144 main_cst_2
  let main_v11 : IVec S256x144 1 := cmpf .olt main_v9 main_v10
  let main_c_3 : IVec S_ 1 := constantI S_ 1 1#1
  let main_v12 : IVec S_ 1 := (fun x v => Host.reduce IntOp.andi x v reducesTo_S256x144_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_arg11 main_arg12 main_arg13 main_arg14 main_arg15 main_arg16 main_arg17 main_v13 main_v16
-- ==== Kernel.lean ====
abbrev S50000x144 : Shape := ⟨2, ![50000, 144]⟩
abbrev S2x400000 : Shape := ⟨2, ![2, 400000]⟩
abbrev S400000 : Shape := ⟨1, ![400000]⟩
abbrev S256x144 : Shape := ⟨2, ![256, 144]⟩
abbrev S256 : Shape := ⟨1, ![256]⟩
abbrev S512x256 : Shape := ⟨2, ![512, 256]⟩
abbrev S512 : Shape := ⟨1, ![512]⟩
abbrev S256x512 : Shape := ⟨2, ![256, 512]⟩
abbrev S128x256 : Shape := ⟨2, ![128, 256]⟩
abbrev S128 : Shape := ⟨1, ![128]⟩
abbrev S1x400000 : Shape := ⟨2, ![1, 400000]⟩
abbrev S_ : Shape := ⟨0, ![]⟩
abbrev S400000x1 : Shape := ⟨2, ![400000, 1]⟩
abbrev S400000x144 : Shape := ⟨2, ![400000, 144]⟩
abbrev S144x256 : Shape := ⟨2, ![144, 256]⟩
abbrev S1x256 : Shape := ⟨2, ![1, 256]⟩
abbrev S50000x256 : Shape := ⟨2, ![50000, 256]⟩
abbrev S2000x144 : Shape := ⟨2, ![2000, 144]⟩
abbrev S2000x256 : Shape := ⟨2, ![2000, 256]⟩
abbrev S400000x256 : Shape := ⟨2, ![400000, 256]⟩
abbrev S1x512 : Shape := ⟨2, ![1, 512]⟩
abbrev S50000x512 : Shape := ⟨2, ![50000, 512]⟩
abbrev S2000x512 : Shape := ⟨2, ![2000, 512]⟩
abbrev S2000x128 : Shape := ⟨2, ![2000, 128]⟩
abbrev S1x128 : Shape := ⟨2, ![1, 128]⟩
abbrev S256x128 : Shape := ⟨2, ![256, 128]⟩
abbrev S50000x128 : Shape := ⟨2, ![50000, 128]⟩
abbrev S400000x128 : Shape := ⟨2, ![400000, 128]⟩

abbrev nBuf : Space → Nat
  | .hbm => 132
  | .vmem => 56
  | .smem => 0
  | _ => 0

abbrev hbmTy0_0 (i : Nat) : BufTy := match i % 128 with
  | 0 => ⟨S50000x144, .f32⟩
  | 1 => ⟨S2x400000, .i32⟩
  | 2 => ⟨S400000, .f32⟩
  | 3 => ⟨S256x144, .f32⟩
  | 4 => ⟨S256, .f32⟩
  | 5 => ⟨S256x144, .f32⟩
  | 6 => ⟨S512x256, .f32⟩
  | 7 => ⟨S512, .f32⟩
  | 8 => ⟨S512x256, .f32⟩
  | 9 => ⟨S256x512, .f32⟩
  | 10 => ⟨S256, .f32⟩
  | 11 => ⟨S256x512, .f32⟩
  | 12 => ⟨S128x256, .f32⟩
  | 13 => ⟨S128, .f32⟩
  | 14 => ⟨S128x256, .f32⟩
  | 15 => ⟨S256, .f32⟩
  | 16 => ⟨S256, .f32⟩
  | 17 => ⟨S256, .f32⟩
  | 18 => ⟨S1x400000, .i32⟩
  | 19 => ⟨S400000, .i32⟩
  | 20 => ⟨S1x400000, .i32⟩
  | 21 => ⟨S400000, .i32⟩
  | 22 => ⟨S_, .i32⟩
  | 23 => ⟨S400000, .i32⟩
  | 24 => ⟨S400000, .i1⟩
  | 25 => ⟨S_, .i32⟩
  | 26 => ⟨S400000, .i32⟩
  | 27 => ⟨S400000, .i32⟩
  | 28 => ⟨S400000, .i32⟩
  | 29 => ⟨S400000x1, .i32⟩
  | 30 => ⟨S400000x144, .f32⟩
  | 31 => ⟨S400000x1, .f32⟩
  | 32 => ⟨S400000x144, .f32⟩
  | 33 => ⟨S400000x144, .f32⟩
  | 34 => ⟨S_, .f32⟩
  | 35 => ⟨S50000x144, .f32⟩
  | 36 => ⟨S400000x1, .i32⟩
  | 37 => ⟨S50000x144, .f32⟩
  | 38 => ⟨S144x256, .f32⟩
  | 39 => ⟨S144x256, .f32⟩
  | 40 => ⟨S1x256, .f32⟩
  | 41 => ⟨S50000x256, .f32⟩
  | 42 => ⟨S_, .i32⟩
  | 43 => ⟨S400000, .i32⟩
  | 44 => ⟨S400000, .i1⟩
  | 45 => ⟨S_, .i32⟩
  | 46 => ⟨S400000, .i32⟩
  | 47 => ⟨S400000, .i32⟩
  | 48 => ⟨S400000, .i32⟩
  | 49 => ⟨S400000x1, .i32⟩
  | 50 => ⟨S400000x256, .f32⟩
  | 51 => ⟨S400000x1, .f32⟩
  | 52 => ⟨S400000x256, .f32⟩
  | 53 => ⟨S400000x256, .f32⟩
  | 54 => ⟨S_, .f32⟩
  | 55 => ⟨S50000x256, .f32⟩
  | 56 => ⟨S400000x1, .i32⟩
  | 57 => ⟨S50000x256, .f32⟩
  | 58 => ⟨S256x512, .f32⟩
  | 59 => ⟨S256x512, .f32⟩
  | 60 => ⟨S1x512, .f32⟩
  | 61 => ⟨S50000x512, .f32⟩
  | 62 => ⟨S512x256, .f32⟩
  | 63 => ⟨S50000x256, .f32⟩
  | 64 => ⟨S_, .i32⟩
  | 65 => ⟨S400000, .i32⟩
  | 66 => ⟨S400000, .i1⟩
  | 67 => ⟨S_, .i32⟩
  | 68 => ⟨S400000, .i32⟩
  | 69 => ⟨S400000, .i32⟩
  | 70 => ⟨S400000, .i32⟩
  | 71 => ⟨S400000x1, .i32⟩
  | 72 => ⟨S400000x256, .f32⟩
  | 73 => ⟨S400000x1, .f32⟩
  | 74 => ⟨S400000x256, .f32⟩
  | 75 => ⟨S400000x256, .f32⟩
  | 76 => ⟨S_, .f32⟩
  | 77 => ⟨S50000x256, .f32⟩
  | 78 => ⟨S400000x1, .i32⟩
  | 79 => ⟨S50000x256, .f32⟩
  | 80 => ⟨S512x256, .f32⟩
  | 81 => ⟨S1x256, .f32⟩
  | 82 => ⟨S50000x256, .f32⟩
  | 83 => ⟨S1x256, .f32⟩
  | 84 => ⟨S1x256, .f32⟩
  | 85 => ⟨S_, .f32⟩
  | 86 => ⟨S1x256, .f32⟩
  | 87 => ⟨S1x256, .f32⟩
  | 88 => ⟨S_, .f32⟩
  | 89 => ⟨S1x256, .f32⟩
  | 90 => ⟨S1x256, .f32⟩
  | 91 => ⟨S1x256, .f32⟩
  | 92 => ⟨S1x256, .f32⟩
  | 93 => ⟨S1x256, .f32⟩
  | 94 => ⟨S1x256, .f32⟩
  | 95 => ⟨S_, .f32⟩
  | 96 => ⟨S1x256, .f32⟩
  | 97 => ⟨S1x256, .f32⟩
  | 98 => ⟨S1x256, .f32⟩
  | 99 => ⟨S1x256, .f32⟩
  | 100 => ⟨S1x256, .f32⟩
  | 101 => ⟨S1x256, .f32⟩
  | 102 => ⟨S_, .f32⟩
  | 103 => ⟨S1x256, .f32⟩
  | 104 => ⟨S1x256, .f32⟩
  | 105 => ⟨S1x256, .f32⟩
  | 106 => ⟨S1x256, .f32⟩
  | 107 => ⟨S1x256, .f32⟩
  | 108 => ⟨S1x256, .f32⟩
  | 109 => ⟨S1x256, .f32⟩
  | 110 => ⟨S50000x256, .f32⟩
  | 111 => ⟨S256x128, .f32⟩
  | 112 => ⟨S50000x128, .f32⟩
  | 113 => ⟨S_, .i32⟩
  | 114 => ⟨S400000, .i32⟩
  | 115 => ⟨S400000, .i1⟩
  | 116 => ⟨S_, .i32⟩
  | 117 => ⟨S400000, .i32⟩
  | 118 => ⟨S400000, .i32⟩
  | 119 => ⟨S400000, .i32⟩
  | 120 => ⟨S400000x1, .i32⟩
  | 121 => ⟨S400000x128, .f32⟩
  | 122 => ⟨S400000x1, .f32⟩
  | 123 => ⟨S400000x128, .f32⟩
  | 124 => ⟨S400000x128, .f32⟩
  | 125 => ⟨S_, .f32⟩
  | 126 => ⟨S50000x128, .f32⟩
  | 127 => ⟨S400000x1, .i32⟩
  | _ => ⟨S50000x144, .f32⟩

abbrev hbmTy0_1 (i : Nat) : BufTy := match i % 128 with
  | 0 => ⟨S50000x128, .f32⟩
  | 1 => ⟨S256x128, .f32⟩
  | 2 => ⟨S1x128, .f32⟩
  | 3 => ⟨S50000x128, .f32⟩
  | _ => ⟨S50000x144, .f32⟩

abbrev hbmTy (i : Nat) : BufTy := match i / 128 with
  | 0 => hbmTy0_0 i
  | 1 => hbmTy0_1 i
  | _ => ⟨S50000x144, .f32⟩

abbrev bufTy : (tb : Table) → Fin (tcTables nBuf tb) → BufTy
  | .hbm, ⟨i, _⟩ => hbmTy i
  | .local _ .vmem, ⟨0, _⟩ => ⟨S2000x144, .f32⟩
  | .local _ .vmem, ⟨1, _⟩ => ⟨S2000x144, .f32⟩
  | .local _ .vmem, ⟨2, _⟩ => ⟨S2000x144, .f32⟩
  | .local _ .vmem, ⟨3, _⟩ => ⟨S2000x144, .f32⟩
  | .local _ .vmem, ⟨4, _⟩ => ⟨S144x256, .f32⟩
  | .local _ .vmem, ⟨5, _⟩ => ⟨S144x256, .f32⟩
  | .local _ .vmem, ⟨6, _⟩ => ⟨S1x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x512, .f32⟩
  | .local _ .vmem, ⟨14, _⟩ => ⟨S256x512, .f32⟩
  | .local _ .vmem, ⟨15, _⟩ => ⟨S1x512, .f32⟩
  | .local _ .vmem, ⟨16, _⟩ => ⟨S2000x512, .f32⟩
  | .local _ .vmem, ⟨17, _⟩ => ⟨S2000x512, .f32⟩
  | .local _ .vmem, ⟨18, _⟩ => ⟨S2000x512, .f32⟩
  | .local _ .vmem, ⟨19, _⟩ => ⟨S2000x512, .f32⟩
  | .local _ .vmem, ⟨20, _⟩ => ⟨S512x256, .f32⟩
  | .local _ .vmem, ⟨21, _⟩ => ⟨S2000x256, .f32⟩
  | .local _ .vmem, ⟨22, _⟩ => ⟨S2000x256, .f32⟩
  | .local _ .vmem, ⟨23, _⟩ => ⟨S2000x256, .f32⟩
  | .local _ .vmem, ⟨24, _⟩ => ⟨S2000x256, .f32⟩
  | .local _ .vmem, ⟨25, _⟩ => ⟨S2000x512, .f32⟩
  | .local _ .vmem, ⟨26, _⟩ => ⟨S2000x512, .f32⟩
  | .local _ .vmem, ⟨27, _⟩ => ⟨S512x256, .f32⟩
  | .local _ .vmem, ⟨28, _⟩ => ⟨S1x256, .f32⟩
  | .local _ .vmem, ⟨29, _⟩ => ⟨S2000x256, .f32⟩
  | .local _ .vmem, ⟨30, _⟩ => ⟨S2000x256, .f32⟩
  | .local _ .vmem, ⟨31, _⟩ => ⟨S2000x128, .f32⟩
  | .local _ .vmem, ⟨32, _⟩ => ⟨S2000x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S2000x256, .f32⟩
  | .local _ .vmem, ⟨38, _⟩ => ⟨S2000x256, .f32⟩
  | .local _ .vmem, ⟨39, _⟩ => ⟨S1x256, .f32⟩
  | .local _ .vmem, ⟨40, _⟩ => ⟨S1x256, .f32⟩
  | .local _ .vmem, ⟨41, _⟩ => ⟨S2000x256, .f32⟩
  | .local _ .vmem, ⟨42, _⟩ => ⟨S2000x256, .f32⟩
  | .local _ .vmem, ⟨43, _⟩ => ⟨S2000x256, .f32⟩
  | .local _ .vmem, ⟨44, _⟩ => ⟨S2000x256, .f32⟩
  | .local _ .vmem, ⟨45, _⟩ => ⟨S256x128, .f32⟩
  | .local _ .vmem, ⟨46, _⟩ => ⟨S2000x128, .f32⟩
  | .local _ .vmem, ⟨47, _⟩ => ⟨S2000x128, .f32⟩
  | .local _ .vmem, ⟨48, _⟩ => ⟨S2000x128, .f32⟩
  | .local _ .vmem, ⟨49, _⟩ => ⟨S2000x128, .f32⟩
  | .local _ .vmem, ⟨50, _⟩ => ⟨S2000x256, .f32⟩
  | .local _ .vmem, ⟨51, _⟩ => ⟨S2000x256, .f32⟩
  | .local _ .vmem, ⟨52, _⟩ => ⟨S256x128, .f32⟩
  | .local _ .vmem, ⟨53, _⟩ => ⟨S1x128, .f32⟩
  | .local _ .vmem, ⟨54, _⟩ => ⟨S2000x128, .f32⟩
  | .local _ .vmem, ⟨55, _⟩ => ⟨S2000x128, .f32⟩
  | _, _ => ⟨S50000x144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_c_1 : Ref sig .tc := ⟨.hbm, 42, rfl⟩
abbrev main_v21 : Ref sig .tc := ⟨.hbm, 43, rfl⟩
abbrev main_v22 : Ref sig .tc := ⟨.hbm, 44, rfl⟩
abbrev main_c_2 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_3 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_c_4 : Ref sig .tc := ⟨.hbm, 64, rfl⟩
abbrev main_v40 : Ref sig .tc := ⟨.hbm, 65, rfl⟩
abbrev main_v41 : Ref sig .tc := ⟨.hbm, 66, rfl⟩
abbrev main_c_5 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_6 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56_0 : Ref sig .tc := ⟨.hbm, 83, rfl⟩
abbrev main_v56_1 : Ref sig .tc := ⟨.hbm, 84, rfl⟩
abbrev main_cst_7 : Ref sig .tc := ⟨.hbm, 85, rfl⟩
abbrev main_v57 : Ref sig .tc := ⟨.hbm, 86, rfl⟩
abbrev main_v58 : Ref sig .tc := ⟨.hbm, 87, rfl⟩
abbrev main_cst_8 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_9 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_cst_10 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_c_11 : Ref sig .tc := ⟨.hbm, 113, rfl⟩
abbrev main_v81 : Ref sig .tc := ⟨.hbm, 114, rfl⟩
abbrev main_v82 : Ref sig .tc := ⟨.hbm, 115, rfl⟩
abbrev main_c_12 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_cst_13 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg2_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg4_1 : Ref sig .tc := ⟨.vmem, 30, rfl⟩
abbrev cc4_stg0_0 : Ref sig .tc := ⟨.vmem, 31, rfl⟩
abbrev cc4_stg0_1 : Ref sig .tc := ⟨.vmem, 32, rfl⟩
abbrev cc4_stg1_0 : Ref sig .tc := ⟨.vmem, 33, rfl⟩
abbrev cc4_stg1_1 : Ref sig .tc := ⟨.vmem, 34, rfl⟩
abbrev cc4_stg2_0 : Ref sig .tc := ⟨.vmem, 35, rfl⟩
abbrev cc4_stg2_1 : Ref sig .tc := ⟨.vmem, 36, rfl⟩
abbrev cc5_stg0_0 : Ref sig .tc := ⟨.vmem, 37, rfl⟩
abbrev cc5_stg0_1 : Ref sig .tc := ⟨.vmem, 38, rfl⟩
abbrev cc5_stg1_0 : Ref sig .tc := ⟨.vmem, 39, rfl⟩
abbrev cc5_stg2_0 : Ref sig .tc := ⟨.vmem, 40, rfl⟩
abbrev cc5_stg3_0 : Ref sig .tc := ⟨.vmem, 41, rfl⟩
abbrev cc5_stg3_1 : Ref sig .tc := ⟨.vmem, 42, rfl⟩
abbrev cc6_stg0_0 : Ref sig .tc := ⟨.vmem, 43, rfl⟩
abbrev cc6_stg0_1 : Ref sig .tc := ⟨.vmem, 44, rfl⟩
abbrev cc6_stg1_0 : Ref sig .tc := ⟨.vmem, 45, rfl⟩
abbrev cc6_stg2_0 : Ref sig .tc := ⟨.vmem, 46, rfl⟩
abbrev cc6_stg2_1 : Ref sig .tc := ⟨.vmem, 47, rfl⟩
abbrev cc7_stg0_0 : Ref sig .tc := ⟨.vmem, 48, rfl⟩
abbrev cc7_stg0_1 : Ref sig .tc := ⟨.vmem, 49, rfl⟩
abbrev cc7_stg1_0 : Ref sig .tc := ⟨.vmem, 50, rfl⟩
abbrev cc7_stg1_1 : Ref sig .tc := ⟨.vmem, 51, rfl⟩
abbrev cc7_stg2_0 : Ref sig .tc := ⟨.vmem, 52, rfl⟩
abbrev cc7_stg3_0 : Ref sig .tc := ⟨.vmem, 53, rfl⟩
abbrev cc7_stg4_0 : Ref sig .tc := ⟨.vmem, 54, rfl⟩
abbrev cc7_stg4_1 : Ref sig .tc := ⟨.vmem, 55, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem2_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem4_0 : DmaSem sig := 29
abbrev cc3_sem4_1 : DmaSem sig := 30
abbrev cc4_sem0_0 : DmaSem sig := 31
abbrev cc4_sem0_1 : DmaSem sig := 32
abbrev cc4_sem1_0 : DmaSem sig := 33
abbrev cc4_sem1_1 : DmaSem sig := 34
abbrev cc4_sem2_0 : DmaSem sig := 35
abbrev cc4_sem2_1 : DmaSem sig := 36
abbrev cc5_sem0_0 : DmaSem sig := 37
abbrev cc5_sem0_1 : DmaSem sig := 38
abbrev cc5_sem1_0 : DmaSem sig := 39
abbrev cc5_sem2_0 : DmaSem sig := 40
abbrev cc5_sem3_0 : DmaSem sig := 41
abbrev cc5_sem3_1 : DmaSem sig := 42
abbrev cc6_sem0_0 : DmaSem sig := 43
abbrev cc6_sem0_1 : DmaSem sig := 44
abbrev cc6_sem1_0 : DmaSem sig := 45
abbrev cc6_sem2_0 : DmaSem sig := 46
abbrev cc6_sem2_1 : DmaSem sig := 47
abbrev cc7_sem0_0 : DmaSem sig := 48
abbrev cc7_sem0_1 : DmaSem sig := 49
abbrev cc7_sem1_0 : DmaSem sig := 50
abbrev cc7_sem1_1 : DmaSem sig := 51
abbrev cc7_sem2_0 : DmaSem sig := 52
abbrev cc7_sem3_0 : DmaSem sig := 53
abbrev cc7_sem4_0 : DmaSem sig := 54
abbrev cc7_sem4_1 : DmaSem sig := 55

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S144x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S144x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S512x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨2, ![2, 25], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S1x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x256 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S256x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S2000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x256 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S256x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S2000x128 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  bcast_S400000x1_S400000x144_0_1 : S400000x1.BroadcastsInDim S400000x144 (![0, 1] : Fin 2 → Fin S400000x144.rank)
  bcast_S_S50000x144 : S_.BroadcastsInDim S50000x144 (![] : Fin 0 → Fin S50000x144.rank)
  transposes_S256x144_S144x256_1_0 : S256x144.Transposes [1, 0] S144x256
  shapeCasts_S256_S1x256 : S256.ShapeCasts S1x256
  inb_S2000x144_S2000x144_0_0 : ∀ a, (![0, 0] : Fin 2 → Nat) a + S2000x144.size a ≤ S2000x144.size a
  h_S2000x144 : 0 < S2000x144.numel
  shapeCasts_S2000x144_S2000x144 : S2000x144.ShapeCasts S2000x144
  inb_S144x256_S144x256_0_0 : ∀ a, (![0, 0] : Fin 2 → Nat) a + S144x256.size a ≤ S144x256.size a
  h_S144x256 : 0 < S144x256.numel
  shapeCasts_S144x256_S144x256 : S144x256.ShapeCasts S144x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S400000x1_S400000x256_0_1 : S400000x1.BroadcastsInDim S400000x256 (![0, 1] : Fin 2 → Fin S400000x256.rank)
  bcast_S_S50000x256 : S_.BroadcastsInDim S50000x256 (![] : Fin 0 → Fin S50000x256.rank)
  transposes_S512x256_S256x512_1_0 : S512x256.Transposes [1, 0] S256x512
  shapeCasts_S512_S1x512 : S512.ShapeCasts S1x512
  shapeCasts_S2000x256_S2000x256 : S2000x256.ShapeCasts S2000x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S2000x512_S2000x512_0_0 : ∀ a, (![0, 0] : Fin 2 → Nat) a + S2000x512.size a ≤ S2000x512.size a
  h_S2000x512 : 0 < S2000x512.numel
  transposes_S256x512_S512x256_1_0 : S256x512.Transposes [1, 0] S512x256
  shapeCasts_S2000x512_S2000x512 : S2000x512.ShapeCasts S2000x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x128_S1x128_0_0 : ∀ a, (![0, 0] : Fin 2 → Nat) a + S1x128.size a ≤ S1x128.size a
  h_S1x128 : 0 < S1x128.numel
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  shapeCasts_S1x128_S1x128 : S1x128.ShapeCasts S1x128
  reduces_S2000x128_S128 : S2000x128.Reduces [0] S128
  shapeCasts_S128_S1x128 : S128.ShapeCasts S1x128
  bcast_S_S1x256 : S_.BroadcastsInDim S1x256 (![] : Fin 0 → Fin S1x256.rank)
  transposes_S128x256_S256x128_1_0 : S128x256.Transposes [1, 0] S256x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  bcast_S400000x1_S400000x128_0_1 : S400000x1.BroadcastsInDim S400000x128 (![0, 1] : Fin 2 → Fin S400000x128.rank)
  bcast_S_S50000x128 : S_.BroadcastsInDim S50000x128 (![] : Fin 0 → Fin S50000x128.rank)
  broadcasts_S1x128_S2000x128 : S1x128.Broadcasts S2000x128
  gather_S50000x144_S400000x1_S400000x144_1_0_n_n_0_1_1144_wf : GatherDims.WF S50000x144 S400000x1 S400000x144 [1] [0] [] [0] [] 1 ![1, 144]
  scatter_S50000x144_S400000x1_S400000x144_1_0_0_1_wf : ScatterDims.WF S50000x144 S400000x1 S400000x144 [1] [0] [0] 1
  dot_S2000x144_S144x256_S2000x256_1_0_0_1_n_n_wf : DotDims.WF S2000x144 S144x256 S2000x256 [1] [0] [0] [1] [] []
  gather_S50000x256_S400000x1_S400000x256_1_0_n_n_0_1_1256_wf : GatherDims.WF S50000x256 S400000x1 S400000x256 [1] [0] [] [0] [] 1 ![1, 256]
  scatter_S50000x256_S400000x1_S400000x256_1_0_0_1_wf : ScatterDims.WF S50000x256 S400000x1 S400000x256 [1] [0] [0] 1
  dot_S2000x256_S256x512_S2000x512_1_0_0_1_n_n_wf : DotDims.WF S2000x256 S256x512 S2000x512 [1] [0] [0] [1] [] []
  dot_S2000x512_S512x256_S2000x256_1_0_0_1_n_n_wf : DotDims.WF S2000x512 S512x256 S2000x256 [1] [0] [0] [1] [] []
  dot_S2000x256_S256x128_S2000x128_1_0_0_1_n_n_wf : DotDims.WF S2000x256 S256x128 S2000x128 [1] [0] [0] [1] [] []
  gather_S50000x128_S400000x1_S400000x128_1_0_n_n_0_1_1128_wf : GatherDims.WF S50000x128 S400000x1 S400000x128 [1] [0] [] [0] [] 1 ![1, 128]
  scatter_S50000x128_S400000x1_S400000x128_1_0_0_1_wf : ScatterDims.WF S50000x128 S400000x1 S400000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x144.size a ≤ S50000x144.size a
  hwx0_0 : ∀ i : grid0.Coords, EltTy.bits .f32 = 32 ∨ (Rect.block (s := S50000x144) S2000x144.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x144.size a ≤ S50000x144.size a
  hwx0_1 : ∀ i : grid0.Coords, EltTy.bits .f32 = 32 ∨ (Rect.block (s := S50000x144) S2000x144.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S144x256.size a ≤ S144x256.size a
  hwx0_2 : ∀ i : grid0.Coords, EltTy.bits .f32 = 32 ∨ (Rect.block (s := S144x256) S144x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S144x256.size a ≤ S144x256.size a
  hwx0_3 : ∀ i : grid0.Coords, EltTy.bits .f32 = 32 ∨ (Rect.block (s := S144x256) S144x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x512.size a ≤ S256x512.size a
  hwx1_2 : ∀ i : grid1.Coords, EltTy.bits .f32 = 32 ∨ (Rect.block (s := S256x512) S256x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x512.size a ≤ S256x512.size a
  hwx1_3 : ∀ i : grid1.Coords, EltTy.bits .f32 = 32 ∨ (Rect.block (s := S256x512) S256x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x512.size a ≤ S50000x512.size a
  hwx1_5 : ∀ i : grid1.Coords, EltTy.bits .f32 = 32 ∨ (Rect.block (s := S50000x512) S2000x512.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x512.size a ≤ S50000x512.size a
  hwx2_0 : ∀ i : grid2.Coords, EltTy.bits .f32 = 32 ∨ (Rect.block (s := S50000x512) S2000x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x256.size a ≤ S512x256.size a
  hwx2_1 : ∀ i : grid2.Coords, EltTy.bits .f32 = 32 ∨ (Rect.block (s := S512x256) S512x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S50000x256.size a
  hwx2_2 : ∀ i : grid2.Coords, EltTy.bits .f32 = 32 ∨ (Rect.block (s := S50000x256) S2000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x512.size a ≤ S50000x512.size a
  hwx3_1 : ∀ i : grid3.Coords, EltTy.bits .f32 = 32 ∨ (Rect.block (s := S50000x512) S2000x512.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S512x256.size a ≤ S512x256.size a
  hwx3_2 : ∀ i : grid3.Coords, EltTy.bits .f32 = 32 ∨ (Rect.block (s := S512x256) S512x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x256.size a ≤ S50000x256.size a
  hwx3_4 : ∀ i : grid3.Coords, EltTy.bits .f32 = 32 ∨ (Rect.block (s := S50000x256) S2000x256.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x256.size a
  hwx4_0 : ∀ i : grid4.Coords, EltTy.bits .f32 = 32 ∨ (Rect.block (s := S50000x256) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x256.size a
  hwx4_1 : ∀ i : grid4.Coords, EltTy.bits .f32 = 32 ∨ (Rect.block (s := S1x256) S1x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x256.size a
  hwx4_2 : ∀ i : grid4.Coords, EltTy.bits .f32 = 32 ∨ (Rect.block (s := S1x256) S1x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S50000x256.size a
  hwx5_0 : ∀ i : grid5.Coords, EltTy.bits .f32 = 32 ∨ (Rect.block (s := S50000x256) S2000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x256.size a ≤ S1x256.size a
  hwx5_1 : ∀ i : grid5.Coords, EltTy.bits .f32 = 32 ∨ (Rect.block (s := S1x256) S1x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x256.size a ≤ S50000x256.size a
  hwx5_3 : ∀ i : grid5.Coords, EltTy.bits .f32 = 32 ∨ (Rect.block (s := S50000x256) S2000x256.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x256.size a ≤ S50000x256.size a
  hwx6_0 : ∀ i : grid6.Coords, EltTy.bits .f32 = 32 ∨ (Rect.block (s := S50000x256) S2000x256.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S256x128.size a ≤ S256x128.size a
  hwx6_1 : ∀ i : grid6.Coords, EltTy.bits .f32 = 32 ∨ (Rect.block (s := S256x128) S256x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x128.size a ≤ S50000x128.size a
  hwx6_2 : ∀ i : grid6.Coords, EltTy.bits .f32 = 32 ∨ (Rect.block (s := S50000x128) S2000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x128.size a ≤ S50000x128.size a
  hwx7_0 : ∀ i : grid7.Coords, EltTy.bits .f32 = 32 ∨ (Rect.block (s := S50000x128) S2000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x256.size a ≤ S50000x256.size a
  hwx7_1 : ∀ i : grid7.Coords, EltTy.bits .f32 = 32 ∨ (Rect.block (s := S50000x256) S2000x256.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S256x128.size a ≤ S256x128.size a
  hwx7_2 : ∀ i : grid7.Coords, EltTy.bits .f32 = 32 ∨ (Rect.block (s := S256x128) S256x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S2000x128.size a ≤ S50000x128.size a
  hwx7_4 : ∀ i : grid7.Coords, EltTy.bits .f32 = 32 ∨ (Rect.block (s := S50000x128) S2000x128.size (cc7_transform_4 i) (hinb7_4 i)).WholeWords (EltTy.packing .f32)

variable [Facts₀]

def gather_S50000x144_S400000x1_S400000x144_1_0_n_n_0_1_1144 : GatherDims S50000x144 S400000x1 S400000x144 where
  offsetDims := [1]
  collapsedSliceDims := [0]
  operandBatchingDims := []
  startIndicesBatchingDims := []
  startIndexMap := [0]
  indexVectorDim := 1
  sliceSizes := ![1, 144]
  wf := gather_S50000x144_S400000x1_S400000x144_1_0_n_n_0_1_1144_wf
def scatter_S50000x144_S400000x1_S400000x144_1_0_0_1 : ScatterDims S50000x144 S400000x1 S400000x144 where
  updateWindowDims := [1]
  insertedWindowDims := [0]
  scatterDimsToOperandDims := [0]
  indexVectorDim := 1
  wf := scatter_S50000x144_S400000x1_S400000x144_1_0_0_1_wf
def dot_S2000x144_S144x256_S2000x256_1_0_0_1_n_n : DotDims S2000x144 S144x256 S2000x256 where
  lhsContracting := [1]
  rhsContracting := [0]
  lhsNonContracting := [0]
  rhsNonContracting := [1]
  lhsBatch := []
  rhsBatch := []
  wf := dot_S2000x144_S144x256_S2000x256_1_0_0_1_n_n_wf
def gather_S50000x256_S400000x1_S400000x256_1_0_n_n_0_1_1256 : GatherDims S50000x256 S400000x1 S400000x256 where
  offsetDims := [1]
  collapsedSliceDims := [0]
  operandBatchingDims := []
  startIndicesBatchingDims := []
  startIndexMap := [0]
  indexVectorDim := 1
  sliceSizes := ![1, 256]
  wf := gather_S50000x256_S400000x1_S400000x256_1_0_n_n_0_1_1256_wf
def scatter_S50000x256_S400000x1_S400000x256_1_0_0_1 : ScatterDims S50000x256 S400000x1 S400000x256 where
  updateWindowDims := [1]
  insertedWindowDims := [0]
  scatterDimsToOperandDims := [0]
  indexVectorDim := 1
  wf := scatter_S50000x256_S400000x1_S400000x256_1_0_0_1_wf
def dot_S2000x256_S256x512_S2000x512_1_0_0_1_n_n : DotDims S2000x256 S256x512 S2000x512 where
  lhsContracting := [1]
  rhsContracting := [0]
  lhsNonContracting := [0]
  rhsNonContracting := [1]
  lhsBatch := []
  rhsBatch := []
  wf := dot_S2000x256_S256x512_S2000x512_1_0_0_1_n_n_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf

abbrev win0_0 : Pipeline.Window sig grid0 :=
  Pipeline.Window.ofSpec (Memref.whole main_arg0) S2000x144.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S2000x144.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S144x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S144x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v20) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v34) S256x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S256x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S2000x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v37) S2000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v38) S512x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v39) S2000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v52) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v37) S2000x512.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v53) S512x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v54) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v55) S2000x256.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v55) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v56_0) S1x128.size cc4_transform_1 reads4_1 true false 2 stage4_1 sem4_1
    hrank4 hreads4_1 hinb4_1 nbuf4_1 (Memref.isWhole_whole _) hwx4_1 hstage4_1

abbrev win4_2 : Pipeline.Window sig grid4 :=
  Pipeline.Window.ofSpec (Memref.whole main_v56_1) S1x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v55) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v74) S1x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v77) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v78) S2000x256.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v78) S2000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v79) S256x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v80) S2000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v93) S2000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v78) S2000x256.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v94) S256x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v95) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v96) S2000x128.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

class Facts : Prop extends Facts₀ where

variable [Facts]
-- ==== ReferenceIdeal.lean ====
abbrev S50000x144 : Shape := ⟨2, ![50000, 144]⟩
abbrev S2x400000 : Shape := ⟨2, ![2, 400000]⟩
abbrev S400000 : Shape := ⟨1, ![400000]⟩
abbrev S256x144 : Shape := ⟨2, ![256, 144]⟩
abbrev S256 : Shape := ⟨1, ![256]⟩
abbrev S512x256 : Shape := ⟨2, ![512, 256]⟩
abbrev S512 : Shape := ⟨1, ![512]⟩
abbrev S256x512 : Shape := ⟨2, ![256, 512]⟩
abbrev S128x256 : Shape := ⟨2, ![128, 256]⟩
abbrev S128 : Shape := ⟨1, ![128]⟩
abbrev S1x400000 : Shape := ⟨2, ![1, 400000]⟩
abbrev S_ : Shape := ⟨0, ![]⟩
abbrev S400000x1 : Shape := ⟨2, ![400000, 1]⟩
abbrev S400000x144 : Shape := ⟨2, ![400000, 144]⟩
abbrev S144x256 : Shape := ⟨2, ![144, 256]⟩
abbrev S50000x256 : Shape := ⟨2, ![50000, 256]⟩
abbrev S1x256 : Shape := ⟨2, ![1, 256]⟩
abbrev S400000x256 : Shape := ⟨2, ![400000, 256]⟩
abbrev S50000x512 : Shape := ⟨2, ![50000, 512]⟩
abbrev S1x512 : Shape := ⟨2, ![1, 512]⟩
abbrev S400000x512 : Shape := ⟨2, ![400000, 512]⟩
abbrev S256x128 : Shape := ⟨2, ![256, 128]⟩
abbrev S50000x128 : Shape := ⟨2, ![50000, 128]⟩
abbrev S1x128 : Shape := ⟨2, ![1, 128]⟩

abbrev nBuf : Space → Nat
  | .hbm => 156
  | .vmem => 0
  | .smem => 0
  | _ => 0

abbrev hbmTy0_0 (i : Nat) : BufTy := match i % 128 with
  | 0 => ⟨S50000x144, .f32⟩
  | 1 => ⟨S2x400000, .i32⟩
  | 2 => ⟨S400000, .f32⟩
  | 3 => ⟨S256x144, .f32⟩
  | 4 => ⟨S256, .f32⟩
  | 5 => ⟨S256x144, .f32⟩
  | 6 => ⟨S512x256, .f32⟩
  | 7 => ⟨S512, .f32⟩
  | 8 => ⟨S512x256, .f32⟩
  | 9 => ⟨S256x512, .f32⟩
  | 10 => ⟨S256, .f32⟩
  | 11 => ⟨S256x512, .f32⟩
  | 12 => ⟨S128x256, .f32⟩
  | 13 => ⟨S128, .f32⟩
  | 14 => ⟨S128x256, .f32⟩
  | 15 => ⟨S256, .f32⟩
  | 16 => ⟨S256, .f32⟩
  | 17 => ⟨S256, .f32⟩
  | 18 => ⟨S1x400000, .i32⟩
  | 19 => ⟨S400000, .i32⟩
  | 20 => ⟨S1x400000, .i32⟩
  | 21 => ⟨S400000, .i32⟩
  | 22 => ⟨S_, .i32⟩
  | 23 => ⟨S400000, .i32⟩
  | 24 => ⟨S400000, .i1⟩
  | 25 => ⟨S_, .i32⟩
  | 26 => ⟨S400000, .i32⟩
  | 27 => ⟨S400000, .i32⟩
  | 28 => ⟨S400000, .i32⟩
  | 29 => ⟨S400000x1, .i32⟩
  | 30 => ⟨S400000x144, .f32⟩
  | 31 => ⟨S400000x1, .f32⟩
  | 32 => ⟨S400000x144, .f32⟩
  | 33 => ⟨S400000x144, .f32⟩
  | 34 => ⟨S_, .f32⟩
  | 35 => ⟨S50000x144, .f32⟩
  | 36 => ⟨S400000x1, .i32⟩
  | 37 => ⟨S50000x144, .f32⟩
  | 38 => ⟨S144x256, .f32⟩
  | 39 => ⟨S50000x256, .f32⟩
  | 40 => ⟨S1x256, .f32⟩
  | 41 => ⟨S50000x256, .f32⟩
  | 42 => ⟨S50000x256, .f32⟩
  | 43 => ⟨S144x256, .f32⟩
  | 44 => ⟨S50000x256, .f32⟩
  | 45 => ⟨S50000x256, .f32⟩
  | 46 => ⟨S_, .f32⟩
  | 47 => ⟨S50000x256, .f32⟩
  | 48 => ⟨S50000x256, .f32⟩
  | 49 => ⟨S_, .i32⟩
  | 50 => ⟨S400000, .i32⟩
  | 51 => ⟨S400000, .i1⟩
  | 52 => ⟨S_, .i32⟩
  | 53 => ⟨S400000, .i32⟩
  | 54 => ⟨S400000, .i32⟩
  | 55 => ⟨S400000, .i32⟩
  | 56 => ⟨S400000x1, .i32⟩
  | 57 => ⟨S400000x256, .f32⟩
  | 58 => ⟨S400000x1, .f32⟩
  | 59 => ⟨S400000x256, .f32⟩
  | 60 => ⟨S400000x256, .f32⟩
  | 61 => ⟨S_, .f32⟩
  | 62 => ⟨S50000x256, .f32⟩
  | 63 => ⟨S400000x1, .i32⟩
  | 64 => ⟨S50000x256, .f32⟩
  | 65 => ⟨S256x512, .f32⟩
  | 66 => ⟨S50000x512, .f32⟩
  | 67 => ⟨S1x512, .f32⟩
  | 68 => ⟨S50000x512, .f32⟩
  | 69 => ⟨S50000x512, .f32⟩
  | 70 => ⟨S256x512, .f32⟩
  | 71 => ⟨S50000x512, .f32⟩
  | 72 => ⟨S50000x512, .f32⟩
  | 73 => ⟨S_, .f32⟩
  | 74 => ⟨S50000x512, .f32⟩
  | 75 => ⟨S50000x512, .f32⟩
  | 76 => ⟨S_, .i32⟩
  | 77 => ⟨S400000, .i32⟩
  | 78 => ⟨S400000, .i1⟩
  | 79 => ⟨S_, .i32⟩
  | 80 => ⟨S400000, .i32⟩
  | 81 => ⟨S400000, .i32⟩
  | 82 => ⟨S400000, .i32⟩
  | 83 => ⟨S400000x1, .i32⟩
  | 84 => ⟨S400000x512, .f32⟩
  | 85 => ⟨S400000x1, .f32⟩
  | 86 => ⟨S400000x512, .f32⟩
  | 87 => ⟨S400000x512, .f32⟩
  | 88 => ⟨S_, .f32⟩
  | 89 => ⟨S50000x512, .f32⟩
  | 90 => ⟨S400000x1, .i32⟩
  | 91 => ⟨S50000x512, .f32⟩
  | 92 => ⟨S512x256, .f32⟩
  | 93 => ⟨S50000x256, .f32⟩
  | 94 => ⟨S1x256, .f32⟩
  | 95 => ⟨S50000x256, .f32⟩
  | 96 => ⟨S50000x256, .f32⟩
  | 97 => ⟨S512x256, .f32⟩
  | 98 => ⟨S50000x256, .f32⟩
  | 99 => ⟨S50000x256, .f32⟩
  | 100 => ⟨S_, .f32⟩
  | 101 => ⟨S256, .f32⟩
  | 102 => ⟨S1x256, .f32⟩
  | 103 => ⟨S_, .f32⟩
  | 104 => ⟨S1x256, .f32⟩
  | 105 => ⟨S1x256, .f32⟩
  | 106 => ⟨S1x256, .f32⟩
  | 107 => ⟨S1x256, .f32⟩
  | 108 => ⟨S50000x256, .f32⟩
  | 109 => ⟨S50000x256, .f32⟩
  | 110 => ⟨S50000x256, .f32⟩
  | 111 => ⟨S_, .f32⟩
  | 112 => ⟨S256, .f32⟩
  | 113 => ⟨S1x256, .f32⟩
  | 114 => ⟨S_, .f32⟩
  | 115 => ⟨S1x256, .f32⟩
  | 116 => ⟨S1x256, .f32⟩
  | 117 => ⟨S_, .f32⟩
  | 118 => ⟨S1x256, .f32⟩
  | 119 => ⟨S1x256, .f32⟩
  | 120 => ⟨S1x256, .f32⟩
  | 121 => ⟨S50000x256, .f32⟩
  | 122 => ⟨S50000x256, .f32⟩
  | 123 => ⟨S1x256, .f32⟩
  | 124 => ⟨S50000x256, .f32⟩
  | 125 => ⟨S50000x256, .f32⟩
  | 126 => ⟨S1x256, .f32⟩
  | 127 => ⟨S50000x256, .f32⟩
  | _ => ⟨S50000x144, .f32⟩

abbrev hbmTy0_1 (i : Nat) : BufTy := match i % 128 with
  | 0 => ⟨S50000x256, .f32⟩
  | 1 => ⟨S_, .f32⟩
  | 2 => ⟨S50000x256, .f32⟩
  | 3 => ⟨S50000x256, .f32⟩
  | 4 => ⟨S_, .i32⟩
  | 5 => ⟨S400000, .i32⟩
  | 6 => ⟨S400000, .i1⟩
  | 7 => ⟨S_, .i32⟩
  | 8 => ⟨S400000, .i32⟩
  | 9 => ⟨S400000, .i32⟩
  | 10 => ⟨S400000, .i32⟩
  | 11 => ⟨S400000x1, .i32⟩
  | 12 => ⟨S400000x256, .f32⟩
  | 13 => ⟨S400000x1, .f32⟩
  | 14 => ⟨S400000x256, .f32⟩
  | 15 => ⟨S400000x256, .f32⟩
  | 16 => ⟨S_, .f32⟩
  | 17 => ⟨S50000x256, .f32⟩
  | 18 => ⟨S400000x1, .i32⟩
  | 19 => ⟨S50000x256, .f32⟩
  | 20 => ⟨S256x128, .f32⟩
  | 21 => ⟨S50000x128, .f32⟩
  | 22 => ⟨S1x128, .f32⟩
  | 23 => ⟨S50000x128, .f32⟩
  | 24 => ⟨S50000x128, .f32⟩
  | 25 => ⟨S256x128, .f32⟩
  | 26 => ⟨S50000x128, .f32⟩
  | 27 => ⟨S50000x128, .f32⟩
  | _ => ⟨S50000x144, .f32⟩

abbrev hbmTy (i : Nat) : BufTy := match i / 128 with
  | 0 => hbmTy0_0 i
  | 1 => hbmTy0_1 i
  | _ => ⟨S50000x144, .f32⟩

abbrev bufTy : (tb : Table) → Fin (tcTables nBuf tb) → BufTy
  | .hbm, ⟨i, _⟩ => hbmTy i
  | _, _ => ⟨S50000x144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_call0_cst : Ref sig .tc := ⟨.hbm, 46, rfl⟩
abbrev main_call0_v0 : Ref sig .tc := ⟨.hbm, 47, rfl⟩
abbrev main_v25 : Ref sig .tc := ⟨.hbm, 48, rfl⟩
abbrev main_c_1 : Ref sig .tc := ⟨.hbm, 49, rfl⟩
abbrev main_v26 : Ref sig .tc := ⟨.hbm, 50, rfl⟩
abbrev main_v27 : Ref sig .tc := ⟨.hbm, 51, rfl⟩
abbrev main_c_2 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_3 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_call1_cst : Ref sig .tc := ⟨.hbm, 73, rfl⟩
abbrev main_call1_v0 : Ref sig .tc := ⟨.hbm, 74, rfl⟩
abbrev main_v47 : Ref sig .tc := ⟨.hbm, 75, rfl⟩
abbrev main_c_4 : Ref sig .tc := ⟨.hbm, 76, rfl⟩
abbrev main_v48 : Ref sig .tc := ⟨.hbm, 77, rfl⟩
abbrev main_v49 : Ref sig .tc := ⟨.hbm, 78, rfl⟩
abbrev main_c_5 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_6 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_cst_7 : Ref sig .tc := ⟨.hbm, 100, rfl⟩
abbrev main_v69 : Ref sig .tc := ⟨.hbm, 101, rfl⟩
abbrev main_v70 : Ref sig .tc := ⟨.hbm, 102, rfl⟩
abbrev main_cst_8 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_cst_9 : Ref sig .tc := ⟨.hbm, 111, rfl⟩
abbrev main_v78 : Ref sig .tc := ⟨.hbm, 112, rfl⟩
abbrev main_v79 : Ref sig .tc := ⟨.hbm, 113, rfl⟩
abbrev main_cst_10 : Ref sig .tc := ⟨.hbm, 114, rfl⟩
abbrev main_v80 : Ref sig .tc := ⟨.hbm, 115, rfl⟩
abbrev main_v81 : Ref sig .tc := ⟨.hbm, 116, rfl⟩
abbrev main_cst_11 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_call2_cst : Ref sig .tc := ⟨.hbm, 129, rfl⟩
abbrev main_call2_v0 : Ref sig .tc := ⟨.hbm, 130, rfl⟩
abbrev main_v93 : Ref sig .tc := ⟨.hbm, 131, rfl⟩
abbrev main_c_12 : Ref sig .tc := ⟨.hbm, 132, rfl⟩
abbrev main_v94 : Ref sig .tc := ⟨.hbm, 133, rfl⟩
abbrev main_v95 : Ref sig .tc := ⟨.hbm, 134, rfl⟩
abbrev main_c_13 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_cst_14 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  bcast_S400000x1_S400000x144_0_1 : S400000x1.BroadcastsInDim S400000x144 (![0, 1] : Fin 2 → Fin S400000x144.rank)
  bcast_S_S50000x144 : S_.BroadcastsInDim S50000x144 (![] : Fin 0 → Fin S50000x144.rank)
  transposes_S256x144_S144x256_1_0 : S256x144.Transposes [1, 0] S144x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S400000x1_S400000x256_0_1 : S400000x1.BroadcastsInDim S400000x256 (![0, 1] : Fin 2 → Fin S400000x256.rank)
  transposes_S512x256_S256x512_1_0 : S512x256.Transposes [1, 0] S256x512
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  bcast_S_S50000x512 : S_.BroadcastsInDim S50000x512 (![] : Fin 0 → Fin S50000x512.rank)
  bcast_S400000x1_S400000x512_0_1 : S400000x1.BroadcastsInDim S400000x512 (![0, 1] : Fin 2 → Fin S400000x512.rank)
  transposes_S256x512_S512x256_1_0 : S256x512.Transposes [1, 0] S512x256
  reducesTo_S50000x256_S256_d0 : S50000x256.ReducesTo [0] S256
  h_S_ : 0 < S_.numel
  bcast_S_S1x256 : S_.BroadcastsInDim S1x256 (![] : Fin 0 → Fin S1x256.rank)
  transposes_S128x256_S256x128_1_0 : S128x256.Transposes [1, 0] S256x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x144_S400000x1_S400000x144_1_0_n_n_0_1_1144_wf : GatherDims.WF S50000x144 S400000x1 S400000x144 [1] [0] [] [0] [] 1 ![1, 144]
  scatter_S50000x144_S400000x1_S400000x144_1_0_0_1_wf : ScatterDims.WF S50000x144 S400000x1 S400000x144 [1] [0] [0] 1
  dot_S50000x144_S144x256_S50000x256_1_0_0_1_n_n_wf : DotDims.WF S50000x144 S144x256 S50000x256 [1] [0] [0] [1] [] []
  gather_S50000x256_S400000x1_S400000x256_1_0_n_n_0_1_1256_wf : GatherDims.WF S50000x256 S400000x1 S400000x256 [1] [0] [] [0] [] 1 ![1, 256]
  scatter_S50000x256_S400000x1_S400000x256_1_0_0_1_wf : ScatterDims.WF S50000x256 S400000x1 S400000x256 [1] [0] [0] 1
  dot_S50000x256_S256x512_S50000x512_1_0_0_1_n_n_wf : DotDims.WF S50000x256 S256x512 S50000x512 [1] [0] [0] [1] [] []
  gather_S50000x512_S400000x1_S400000x512_1_0_n_n_0_1_1512_wf : GatherDims.WF S50000x512 S400000x1 S400000x512 [1] [0] [] [0] [] 1 ![1, 512]
  scatter_S50000x512_S400000x1_S400000x512_1_0_0_1_wf : ScatterDims.WF S50000x512 S400000x1 S400000x512 [1] [0] [0] 1
  dot_S50000x512_S512x256_S50000x256_1_0_0_1_n_n_wf : DotDims.WF S50000x512 S512x256 S50000x256 [1] [0] [0] [1] [] []
  dot_S50000x256_S256x128_S50000x128_1_0_0_1_n_n_wf : DotDims.WF S50000x256 S256x128 S50000x128 [1] [0] [0] [1] [] []

variable [Facts₀]

def gather_S50000x144_S400000x1_S400000x144_1_0_n_n_0_1_1144 : GatherDims S50000x144 S400000x1 S400000x144 where
  offsetDims := [1]
  collapsedSliceDims := [0]
  operandBatchingDims := []
  startIndicesBatchingDims := []
  startIndexMap := [0]
  indexVectorDim := 1
  sliceSizes := ![1, 144]
  wf := gather_S50000x144_S400000x1_S400000x144_1_0_n_n_0_1_1144_wf
def scatter_S50000x144_S400000x1_S400000x144_1_0_0_1 : ScatterDims S50000x144 S400000x1 S400000x144 where
  updateWindowDims := [1]
  insertedWindowDims := [0]
  scatterDimsToOperandDims := [0]
  indexVectorDim := 1
  wf := scatter_S50000x144_S400000x1_S400000x144_1_0_0_1_wf
def dot_S50000x144_S144x256_S50000x256_1_0_0_1_n_n : DotDims S50000x144 S144x256 S50000x256 where
  lhsContracting := [1]
  rhsContracting := [0]
  lhsNonContracting := [0]
  rhsNonContracting := [1]
  lhsBatch := []
  rhsBatch := []
  wf := dot_S50000x144_S144x256_S50000x256_1_0_0_1_n_n_wf
def gather_S50000x256_S400000x1_S400000x256_1_0_n_n_0_1_1256 : GatherDims S50000x256 S400000x1 S400000x256 where
  offsetDims := [1]
  collapsedSliceDims := [0]
  operandBatchingDims := []
  startIndicesBatchingDims := []
  startIndexMap := [0]
  indexVectorDim := 1
  sliceSizes := ![1, 256]
  wf := gather_S50000x256_S400000x1_S400000x256_1_0_n_n_0_1_1256_wf
def scatter_S50000x256_S400000x1_S400000x256_1_0_0_1 : ScatterDims S50000x256 S400000x1 S400000x256 where
  updateWindowDims := [1]
  insertedWindowDims := [0]
  scatterDimsToOperandDims := [0]
  indexVectorDim := 1
  wf := scatter_S50000x256_S400000x1_S400000x256_1_0_0_1_wf
def dot_S50000x256_S256x512_S50000x512_1_0_0_1_n_n : DotDims S50000x256 S256x512 S50000x512 where
  lhsContracting := [1]
  rhsContracting := [0]
  lhsNonContracting := [0]
  rhsNonContracting := [1]
  lhsBatch := []
  rhsBatch := []
  wf := dot_S50000x256_S256x512_S50000x512_1_0_0_1_n_n_wf
def gather_S50000x512_S400000x1_S400000x512_1_0_n_n_0_1_1512 : GatherDims S50000x512 S400000x1 S400000x512 where
  offsetDims := [1]
  collapsedSliceDims := [0]
  operandBatchingDims := []
  startIndicesBatchingDims := []
  startIndexMap := [0]
  indexVectorDim := 1
  sliceSizes := ![1, 512]
  wf := gather_S50000x512_S400000x1_S400000x512_1_0_n_n_0_1_1512_wf
def scatter_S50000x512_S400000x1_S400000x512_1_0_0_1 : ScatterDims S50000x512 S400000x1 S400000x512 where
  updateWindowDims := [1]
  insertedWindowDims := [0]
  scatterDimsToOperandDims := [0]
  indexVectorDim := 1
  wf := scatter_S50000x512_S400000x1_S400000x512_1_0_0_1_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.KernelRun.lean ====
/-
  The idealized kernel program runs, and its result array ends at what the last of its fifteen segments leaves there.

  Every weakly fair execution terminates without a fault; in the final state each argument array is as launched and the
  result array holds the last boundary's contents of its buffer: the contents after the last region's write-backs, which
  the later modules compute segment by segment as a function of the arguments.
-/
import proofs.«136480_j970662609200_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run: termination without a fault, the result array at the last boundary's contents, the arguments unchanged. -/
theorem run_result : θ_run defs (onTc (τ := τ) (main (F := F))) ⟨m, fun _ => 0, ρ⟩ (fun r => ∀ c : Dev nD,
      r.2.mem ((c.tc : Thread nD τ).loc main_v96) = W15 m ρ c (Proc.devRef .tc main_v96)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v96 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c),
       (h c _ (mem_uc main_arg11 (by decide))).trans (W15_main_arg11 m ρ c),
       (h c _ (mem_uc main_arg12 (by decide))).trans (W15_main_arg12 m ρ c),
       (h c _ (mem_uc main_arg13 (by decide))).trans (W15_main_arg13 m ρ c),
       (h c _ (mem_uc main_arg14 (by decide))).trans (W15_main_arg14 m ρ c),
       (h c _ (mem_uc main_arg15 (by decide))).trans (W15_main_arg15 m ρ c),
       (h c _ (mem_uc main_arg16 (by decide))).trans (W15_main_arg16 m ρ c),
       (h c _ (mem_uc main_arg17 (by decide))).trans (W15_main_arg17 m ρ c)⟩)

end Cert.KernelIdeal.RunValue

end
-- ==== Proof.Spec.lean ====
/-
  The two formulas this certificate compares, as functions on the extended reals, entry by entry.

  A graph of 50000 nodes and 400000 weighted edges is given by `src e` (the node edge `e` reads) and `into n` (the edges
  that arrive at node `n`).  One graph convolution of node features `h` is

      (A h) · W_relᵀ + b + h · W_rootᵀ,        (A h)[n, k] = ∑_{e ∈ into n} h[src e, k] · w_e .

  The network is four convolutions, a rectifier after the first two, and between the third and the fourth a normalisation
  over the node axis followed by a rectifier.  The reference computes exactly this.  The kernel computes the third and the
  fourth convolution with the relational weights applied BEFORE the aggregation, A (h · W_relᵀ) in place of (A h) · W_relᵀ,
  adds the bias last, and normalises through the per-feature sums ∑ h and ∑ h² folded into one affine map
  h ↦ h · scale + shift.
-/
import Idealize.ShloMosaic.PureOps.Ideal
import Idealize.ShloMosaic.PureOps.Ideal.Laws

noncomputable section

open scoped BigOperators

namespace Cert.Spec

open Idealize.ShloMosaic

/-- Which node an edge reads, and which edges arrive at a node. -/
structure Graph where
  src : Fin 400000 → Fin 50000
  into : Fin 50000 → Finset (Fin 400000)

/-- The arrays the network is a function of: node features, edge weights, and per layer the relational weights, the bias
    and the root weights (a weight matrix is indexed output feature first); then the normalisation's weight, bias and
    mean scale. -/
structure Params where
  x : Fin 50000 → Fin 144 → EReal
  w : Fin 400000 → EReal
  Wrel1 : Fin 256 → Fin 144 → EReal
  b1 : Fin 256 → EReal
  Wroot1 : Fin 256 → Fin 144 → EReal
  Wrel2 : Fin 512 → Fin 256 → EReal
  b2 : Fin 512 → EReal
  Wroot2 : Fin 512 → Fin 256 → EReal
  Wrel3 : Fin 256 → Fin 512 → EReal
  b3 : Fin 256 → EReal
  Wroot3 : Fin 256 → Fin 512 → EReal
  Wrel4 : Fin 128 → Fin 256 → EReal
  b4 : Fin 128 → EReal
  Wroot4 : Fin 128 → Fin 256 → EReal
  gw : Fin 256 → EReal
  gb : Fin 256 → EReal
  ms : Fin 256 → EReal

/-- Every entry of every array is a real number (neither infinity). -/
def Params.IsReal (P : Params) : Prop :=
  (∀ n k, ∃ r : ℝ, P.x n k = (r : EReal)) ∧ (∀ e, ∃ r : ℝ, P.w e = (r : EReal))
  ∧ (∀ o k, ∃ r : ℝ, P.Wrel1 o k = (r : EReal)) ∧ (∀ o, ∃ r : ℝ, P.b1 o = (r : EReal)) ∧ (∀ o k, ∃ r : ℝ, P.Wroot1 o k = (r : EReal))
  ∧ (∀ o k, ∃ r : ℝ, P.Wrel2 o k = (r : EReal)) ∧ (∀ o, ∃ r : ℝ, P.b2 o = (r : EReal)) ∧ (∀ o k, ∃ r : ℝ, P.Wroot2 o k = (r : EReal))
  ∧ (∀ o k, ∃ r : ℝ, P.Wrel3 o k = (r : EReal)) ∧ (∀ o, ∃ r : ℝ, P.b3 o = (r : EReal)) ∧ (∀ o k, ∃ r : ℝ, P.Wroot3 o k = (r : EReal))
  ∧ (∀ o k, ∃ r : ℝ, P.Wrel4 o k = (r : EReal)) ∧ (∀ o, ∃ r : ℝ, P.b4 o = (r : EReal)) ∧ (∀ o k, ∃ r : ℝ, P.Wroot4 o k = (r : EReal))
  ∧ (∀ k, ∃ r : ℝ, P.gw k = (r : EReal)) ∧ (∀ k, ∃ r : ℝ, P.gb k = (r : EReal)) ∧ (∀ k, ∃ r : ℝ, P.ms k = (r : EReal))

/-! ## The constants, as the words both programs print -/

/-- The number of nodes, 50000, as a float. -/
def nodes : EReal := Ideal.ofBits .f32 0x47435000#32
/-- The normalisation's epsilon: the float nearest to 1e-5. -/
def eps : EReal := Ideal.ofBits .f32 0x3727C5AC#32
/-- The float 2. -/
def two : EReal := Ideal.ofBits .f32 0x40000000#32

/-! ## The operators -/

section Ops
variable (G : Graph) (w : Fin 400000 → EReal)

/-- The weighted sum over the edges arriving at a node of the features of the node each edge reads. -/
def agg {C : Nat} (h : Fin 50000 → Fin C → EReal) : Fin 50000 → Fin C → EReal :=
  fun n k => ∑ e ∈ G.into n, h (G.src e) k * w e

/-- Node features times the transpose of a weight matrix. -/
def lin {Ci Co : Nat} (W : Fin Co → Fin Ci → EReal) (h : Fin 50000 → Fin Ci → EReal) : Fin 50000 → Fin Co → EReal :=
  fun n o => ∑ k : Fin Ci, h n k * W o k

/-- The rectifier. -/
def relu {C : Nat} (h : Fin 50000 → Fin C → EReal) : Fin 50000 → Fin C → EReal := fun n k => max (h n k) 0

/-- A convolution as the reference writes it: aggregate, relational weights, bias, then the root term. -/
def convRef {Ci Co : Nat} (Wrel : Fin Co → Fin Ci → EReal) (b : Fin Co → EReal) (Wroot : Fin Co → Fin Ci → EReal)
    (h : Fin 50000 → Fin Ci → EReal) : Fin 50000 → Fin Co → EReal :=
  fun n o => (lin Wrel (agg G w h) n o + b o) + lin Wroot h n o

/-- The kernel's convolution with the aggregation first: both products, then the bias. -/
def convPost {Ci Co : Nat} (Wrel : Fin Co → Fin Ci → EReal) (b : Fin Co → EReal) (Wroot : Fin Co → Fin Ci → EReal)
    (h : Fin 50000 → Fin Ci → EReal) : Fin 50000 → Fin Co → EReal :=
  fun n o => (lin Wrel (agg G w h) n o + lin Wroot h n o) + b o

/-- The kernel's convolution with the relational weights first: they are applied, the result aggregated, the root term and
    then the bias added. -/
def convPre {Ci Co : Nat} (Wrel : Fin Co → Fin Ci → EReal) (b : Fin Co → EReal) (Wroot : Fin Co → Fin Ci → EReal)
    (h : Fin 50000 → Fin Ci → EReal) : Fin 50000 → Fin Co → EReal :=
  fun n o => (agg G w (lin Wrel h) n o + lin Wroot h n o) + b o

end Ops

/-! ## The normalisation, both ways -/

section Norm
variable (gw gb ms : Fin 256 → EReal) (h : Fin 50000 → Fin 256 → EReal)

/-- The mean of a feature over the nodes. -/
def mean (k : Fin 256) : EReal := Ideal.div (∑ n : Fin 50000, h n k) nodes
/-- The features centred by the scaled mean. -/
def centred (n : Fin 50000) (k : Fin 256) : EReal := h n k - ms k * mean h k
/-- The mean of the squared centred features. -/
def variance (k : Fin 256) : EReal := Ideal.div (∑ n : Fin 50000, centred ms h n k * centred ms h n k) nodes
/-- The reference's normalisation: centred, divided by the deviation, scaled and shifted. -/
def normRef (n : Fin 50000) (k : Fin 256) : EReal :=
  Ideal.div (centred ms h n k) (Ideal.sqrt (variance ms h k + eps)) * gw k + gb k

/-- The mean of the squares. -/
def meanSq (k : Fin 256) : EReal := Ideal.div (∑ n : Fin 50000, h n k * h n k) nodes
/-- The kernel's variance, from the two means. -/
def varianceK (k : Fin 256) : EReal := meanSq h k - (mean h k * mean h k) * (two * ms k - ms k * ms k)
/-- The kernel's multiplier. -/
def scale (k : Fin 256) : EReal := Ideal.div (gw k) (Ideal.sqrt (varianceK ms h k + eps))
/-- The kernel's offset. -/
def shift (k : Fin 256) : EReal := gb k - (ms k * mean h k) * scale gw ms h k
/-- The kernel's normalisation and rectifier in one affine step. -/
def normReluK (n : Fin 50000) (k : Fin 256) : EReal := max (h n k * scale gw ms h k + shift gw gb ms h k) 0

end Norm

/-! ## The two networks -/

/-- What the reference computes. -/
def refNet (G : Graph) (P : Params) : Fin 50000 → Fin 128 → EReal :=
  let h1 := relu (convRef G P.w P.Wrel1 P.b1 P.Wroot1 P.x)
  let h2 := relu (convRef G P.w P.Wrel2 P.b2 P.Wroot2 h1)
  let h3 := convRef G P.w P.Wrel3 P.b3 P.Wroot3 h2
  let h4 := relu (normRef P.gw P.gb P.ms h3)
  convRef G P.w P.Wrel4 P.b4 P.Wroot4 h4

/-- What the kernel computes. -/
def kerNet (G : Graph) (P : Params) : Fin 50000 → Fin 128 → EReal :=
  let h1 := relu (convPost G P.w P.Wrel1 P.b1 P.Wroot1 P.x)
  let h2 := relu (convPost G P.w P.Wrel2 P.b2 P.Wroot2 h1)
  let h3 := convPre G P.w P.Wrel3 P.b3 P.Wroot3 h2
  let h4 := normReluK P.gw P.gb P.ms h3
  convPre G P.w P.Wrel4 P.b4 P.Wroot4 h4

end Cert.Spec

end
-- ==== Proof.LibRowOps.lean ====
/-
  Row gather and row scatter-add, read at an index.

  `x[idx]` of a matrix `x : [N, C]` at a vector of `E` row numbers lowers to a gather whose start indices are an
  `[E, 1]` array: row `e` of the result is row `idx[e, 0]` of `x`, the row number read as a signed integer and clamped
  into `[0, N - 1]`. A segment sum of `E` rows into `N` buckets lowers to a scatter with an `add` body over the same
  kind of index array: element `(n, k)` of the result is the operand's plus the sum of `upd[e, k]` over the rows `e`
  whose row number, read signed and NOT clamped, is exactly `n` (a row number outside `[0, N)` contributes nothing).
  Both are stated for any extents, over dimension numbers given as a generic record, and for the scatter at the
  exact instance, where the accumulation is a finite sum of extended reals.
-/
import Idealize.ShloMosaic.PureOps.Ideal
import Idealize.ShloMosaic.Lib.ValueIdx

noncomputable section

open scoped BigOperators

namespace Cert.LibRowOps

open Idealize.ShloMosaic Idealize.ShloMosaic.ValueIdx

/-- The position `[e, 0]` of the `[E, 1]` array of row numbers that row `e` of an `[E, C]` array reads. -/
abbrev rowPos {E C : Nat} (y : (⟨2, ![E, C]⟩ : Shape).Idx) : (⟨2, ![E, 1]⟩ : Shape).Idx :=
  fun a => match a with | ⟨0, _⟩ => ⟨(y 0).val, idx2_lt0 y⟩ | ⟨1, _⟩ => ⟨0, Nat.one_pos⟩

/-! ## The gather -/

section Gather
variable {α : Type}

/-- The dimension numbers of a row gather: operand `[N, C]`, start indices `[E, 1]`, result `[E, C]`. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER AT `(e, k)`: the operand at row `idx[e, 0]`, read signed and clamped into `[0, N - 1]`, column `k`. -/
theorem rowGather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (y : (⟨2, ![E, C]⟩ : Shape).Idx) :
    Host.gather (rowGatherDims N E C wf) x idx y
      = x (ix2 ⟨min (idx (rowPos y)).toInt.toNat (N - 1), by omega⟩ (y 1)) := by
  unfold Host.gather
  congr 1
  funext a
  refine Fin.ext ?_
  match a with
  | ⟨0, _⟩ =>
    show (rowGatherDims N E C wf).start y idx 0 + (rowGatherDims N E C wf).batchCoord y 0
      + (rowGatherDims N E C wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx y ⟨List.idxOf (0 : Fin 2) (rowGatherDims N E C wf).startIndexMap,
        List.idxOf_lt_length_iff.2 (List.mem_singleton.mpr rfl)⟩ = rowPos y := by
      funext b; refine Fin.ext ?_
      match b with
      | ⟨0, _⟩ => rfl
      | ⟨1, _⟩ => rfl
    rw [hsi]
    rfl
  | ⟨1, _⟩ =>
    show (rowGatherDims N E C wf).start y idx 1 + (rowGatherDims N E C wf).batchCoord y 1
      + (rowGatherDims N E C wf).offCoord y 1 = (y 1).val
    rw [GatherDims.batchCoord_eq_zero _ _ _ List.not_mem_nil]
    have hs : (rowGatherDims N E C wf).start y idx 1 = 0 := by
      unfold GatherDims.start
      rw [dif_neg (show (1 : Fin 2) ∉ ([0] : List (Fin 2)) by decide)]
    have ho : (rowGatherDims N E C wf).offCoord y 1 = (y 1).val := by
      unfold GatherDims.offCoord
      rw [dif_pos ((GatherDims.mem_sKept _ _).mpr ⟨(show (1 : Fin 2) ∉ ([0] : List (Fin 2)) by decide), List.not_mem_nil⟩)]
      rfl
    rw [hs, ho]; omega

end Gather

/-! ## The scatter-add -/

section Scatter

/-- The dimension numbers of a row scatter: operand `[N, C]`, scatter indices `[E, 1]`, updates `[E, C]`. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

/-- On the row axis an update starts at its row number, read signed. -/
theorem rowScatter_start0 (j : (⟨2, ![E, C]⟩ : Shape).Idx) (idx : IVec ⟨2, ![E, 1]⟩ w) :
    (rowScatterDims N E C wf).start j idx 0 = (idx (rowPos j)).toInt := by
  unfold ScatterDims.start
  rw [dif_pos (show (0 : Fin 2) ∈ (rowScatterDims N E C wf).scatterDimsToOperandDims from List.mem_singleton.mpr rfl)]
  have hsi : (rowScatterDims N E C wf).siIdx j ⟨List.idxOf (0 : Fin 2) (rowScatterDims N E C wf).scatterDimsToOperandDims,
      List.idxOf_lt_length_iff.2 (List.mem_singleton.mpr rfl)⟩ = rowPos j := by
    funext b; refine Fin.ext ?_
    match b with
    | ⟨0, _⟩ => rfl
    | ⟨1, _⟩ => rfl
  rw [hsi]

/-- On the column axis an update starts at zero. -/
theorem rowScatter_start1 (j : (⟨2, ![E, C]⟩ : Shape).Idx) (idx : IVec ⟨2, ![E, 1]⟩ w) :
    (rowScatterDims N E C wf).start j idx 1 = 0 := by
  unfold ScatterDims.start
  rw [dif_neg (show (1 : Fin 2) ∉ ([0] : List (Fin 2)) by decide)]

/-- The row axis is inserted: no window coordinate. -/
theorem rowScatter_window0 (j : (⟨2, ![E, C]⟩ : Shape).Idx) : (rowScatterDims N E C wf).window j 0 = 0 := by
  unfold ScatterDims.window
  rw [dif_neg (by simp [ScatterDims.sKept, Shape.kept])]

/-- The column axis carries the update's column. -/
theorem rowScatter_window1 (j : (⟨2, ![E, C]⟩ : Shape).Idx) : (rowScatterDims N E C wf).window j 1 = (j 1).val := by
  unfold ScatterDims.window
  rw [dif_pos (by simp [ScatterDims.sKept, Shape.kept])]
  rfl

/-- WHERE AN UPDATE LANDS: update `(e, c)` lands on `(n, k)` exactly when row `e`'s number, read signed, is `n`
    and `c = k`. -/
theorem rowScatter_resultIdx_eq_some (j : (⟨2, ![E, C]⟩ : Shape).Idx) (idx : IVec ⟨2, ![E, 1]⟩ w)
    (i : (⟨2, ![N, C]⟩ : Shape).Idx) :
    (rowScatterDims N E C wf).resultIdx? j idx = some i
      ↔ (idx (rowPos j)).toInt = ((i 0).val : Int) ∧ (j 1).val = (i 1).val := by
  have h0 : (rowScatterDims N E C wf).start j idx 0 + ((rowScatterDims N E C wf).window j 0 : Int) = (idx (rowPos j)).toInt := by
    rw [rowScatter_start0, rowScatter_window0]; simp
  have h1 : (rowScatterDims N E C wf).start j idx 1 + ((rowScatterDims N E C wf).window j 1 : Int) = ((j 1).val : Int) := by
    rw [rowScatter_start1, rowScatter_window1]; simp
  have hi0 := idx2_lt0 i
  have hi1 := idx2_lt1 i
  have hj1 := idx2_lt1 j
  unfold ScatterDims.resultIdx?
  constructor
  · intro h
    split at h
    · rename_i hb
      have e := Option.some.inj h
      have e0 : ((rowScatterDims N E C wf).start j idx 0 + ((rowScatterDims N E C wf).window j 0 : Int)).toNat = (i 0).val :=
        congrArg Fin.val (congrFun e 0)
      have e1 : ((rowScatterDims N E C wf).start j idx 1 + ((rowScatterDims N E C wf).window j 1 : Int)).toNat = (i 1).val :=
        congrArg Fin.val (congrFun e 1)
      have b0 := (hb 0).1
      rw [h0] at e0 b0
      rw [h1] at e1
      constructor <;> omega
    · exact absurd h (by simp)
  · rintro ⟨e0, e1⟩
    have hb : ∀ a, 0 ≤ (rowScatterDims N E C wf).start j idx a + ((rowScatterDims N E C wf).window j a : Int)
        ∧ (rowScatterDims N E C wf).start j idx a + ((rowScatterDims N E C wf).window j a : Int) < ((⟨2, ![N, C]⟩ : Shape).size a : Int) := by
      intro a
      match a with
      | ⟨0, _⟩ =>
        show 0 ≤ (rowScatterDims N E C wf).start j idx 0 + ((rowScatterDims N E C wf).window j 0 : Int)
          ∧ (rowScatterDims N E C wf).start j idx 0 + ((rowScatterDims N E C wf).window j 0 : Int) < (N : Int)
        rw [h0, e0]; omega
      | ⟨1, _⟩ =>
        show 0 ≤ (rowScatterDims N E C wf).start j idx 1 + ((rowScatterDims N E C wf).window j 1 : Int)
          ∧ (rowScatterDims N E C wf).start j idx 1 + ((rowScatterDims N E C wf).window j 1 : Int) < (C : Int)
        rw [h1]; omega
    rw [dif_pos hb]
    congr 1
    funext a
    refine Fin.ext ?_
    match a with
    | ⟨0, _⟩ =>
      show ((rowScatterDims N E C wf).start j idx 0 + ((rowScatterDims N E C wf).window j 0 : Int)).toNat = (i 0).val
      rw [h0, e0]; simp
    | ⟨1, _⟩ =>
      show ((rowScatterDims N E C wf).start j idx 1 + ((rowScatterDims N E C wf).window j 1 : Int)).toNat = (i 1).val
      rw [h1]; omega

/-- The row-number position of update `(e, c)` is `[e, 0]`, whatever the column. -/
theorem rowPos_ix2 (e : Fin E) (c : Fin C) : rowPos (ix2 e c) = ix2 e (0 : Fin 1) := by
  funext a
  match a with
  | ⟨0, _⟩ => rfl
  | ⟨1, _⟩ => rfl

/-- THE ROW SCATTER-ADD AT `(n, k)`, exactly: the operand's element plus the sum of `upd[e, k]` over the rows `e`
    whose number, read signed, is `n`. -/
theorem rowScatterAdd_apply (x : (⟨2, ![N, C]⟩ : Shape).Idx → EReal) (idx : IVec ⟨2, ![E, 1]⟩ w)
    (upd : (⟨2, ![E, C]⟩ : Shape).Idx → EReal) (n : Fin N) (k : Fin C) :
    Ideal.hostScatterAdd (rowScatterDims N E C wf) x idx upd (ix2 n k)
      = x (ix2 n k)
        + ∑ e ∈ Finset.univ.filter (fun e : Fin E => (idx (ix2 e (0 : Fin 1))).toInt = (n.val : Int)), upd (ix2 e k) := by
  unfold Ideal.hostScatterAdd
  congr 1
  rw [Finset.sum_filter, sum_idx2, Finset.sum_filter]
  refine Finset.sum_congr rfl fun e _ => ?_
  have key : ∀ c : Fin C, (rowScatterDims N E C wf).resultIdx? (ix2 e c) idx = some (ix2 n k)
      ↔ (idx (ix2 e (0 : Fin 1))).toInt = (n.val : Int) ∧ c.val = k.val := fun c => by
    rw [rowScatter_resultIdx_eq_some, rowPos_ix2]
    exact Iff.rfl
  by_cases hQ : (idx (ix2 e (0 : Fin 1))).toInt = (n.val : Int)
  · rw [if_pos hQ, Finset.sum_eq_single k]
    · rw [if_pos ((key k).mpr ⟨hQ, rfl⟩)]
    · intro c _ hc
      rw [if_neg fun h => hc (Fin.ext ((key c).mp h).2)]
    · intro h; exact absurd (Finset.mem_univ k) h
  · rw [if_neg hQ]
    exact Finset.sum_eq_zero fun c _ => if_neg fun h => hQ ((key c).mp h).1

end Scatter

/-! ## The two reads in the form a certificate uses -/

/-- The row of an `N`-row matrix that row number `idx[e, 0]` names once read signed and clamped into `[0, N - 1]`. -/
def clampedRow {N E w : Nat} (hN : 0 < N) (idx : IVec ⟨2, ![E, 1]⟩ w) (e : Fin E) : Fin N :=
  ⟨min (idx (ix2 e (0 : Fin 1))).toInt.toNat (N - 1), by omega⟩

/-- The rows `e` whose number `idx[e, 0]`, read signed and not clamped, is exactly `n`. -/
def rowsInto {N E w : Nat} (idx : IVec ⟨2, ![E, 1]⟩ w) (n : Fin N) : Finset (Fin E) :=
  Finset.univ.filter fun e : Fin E => (idx (ix2 e (0 : Fin 1))).toInt = (n.val : Int)

/-- A gather whose dimension numbers are a row gather's, at `(e, k)`: the operand at the clamped row, column `k`. -/
theorem gather_rows {α : Type} {N E C w : Nat} (hN : 0 < N)
    (wf : GatherDims.WF ⟨2, ![N, C]⟩ ⟨2, ![E, 1]⟩ ⟨2, ![E, C]⟩ [1] [0] [] [0] [] 1 ![1, C])
    (d : GatherDims ⟨2, ![N, C]⟩ ⟨2, ![E, 1]⟩ ⟨2, ![E, C]⟩) (hd : d = rowGatherDims N E C wf)
    (x : (⟨2, ![N, C]⟩ : Shape).Idx → α) (idx : IVec ⟨2, ![E, 1]⟩ w) (e : Fin E) (k : Fin C) :
    Host.gather d x idx (ix2 e k) = x (ix2 (clampedRow hN idx e) k) := by
  subst hd
  rw [rowGather_apply hN]
  refine congrArg x ?_
  funext a
  apply Fin.ext
  match a with
  | ⟨0, _⟩ =>
    show min (idx (rowPos (ix2 e k))).toInt.toNat (N - 1) = min (idx (ix2 e (0 : Fin 1))).toInt.toNat (N - 1)
    rw [rowPos_ix2]
  | ⟨1, _⟩ => rfl

/-- A float scatter-add whose dimension numbers are a row scatter's, at the exact instance and at `(n, k)`: the
    operand's element plus the sum of `upd[e, k]` over the rows into `n`. -/
theorem scatterAdd_rows {N E C w : Nat} {φ : FTy}
    (wf : ScatterDims.WF ⟨2, ![N, C]⟩ ⟨2, ![E, 1]⟩ ⟨2, ![E, C]⟩ [1] [0] [0] 1)
    (d : ScatterDims ⟨2, ![N, C]⟩ ⟨2, ![E, 1]⟩ ⟨2, ![E, C]⟩) (hd : d = rowScatterDims N E C wf)
    (x : (⟨2, ![N, C]⟩ : Shape).Idx → EReal) (idx : IVec ⟨2, ![E, 1]⟩ w) (upd : (⟨2, ![E, C]⟩ : Shape).Idx → EReal)
    (n : Fin N) (k : Fin C) :
    Host.scatterAdd (F := Ideal) (φ := φ) d x idx upd (ix2 n k) = x (ix2 n k) + ∑ e ∈ rowsInto idx n, upd (ix2 e k) := by
  subst hd
  exact rowScatterAdd_apply wf x idx upd n k

end Cert.LibRowOps
-- ==== Proof.Args.lean ====
/-
  The argument arrays of the two programs as the graph and the parameters of the network.

  Both programs prepare the same two arrays of row numbers from the edge list: the first row (a negative number wrapped
  once by the number of nodes) is what each edge reads, the second row where it arrives.  A gather reads the row number
  clamped into the array; a scatter drops an edge whose arrival row is outside the array.
-/
import proofs.«136480_j970662609200_2_alg».proof.Proof.Gen.ReferenceIdeal.Read
import proofs.«136480_j970662609200_2_alg».proof.Proof.Spec
import proofs.«136480_j970662609200_2_alg».proof.Proof.LibRowOps

noncomputable section

namespace Cert.Args

open Idealize.ShloMosaic Idealize.ShloMosaic.ValueIdx Cert.ReferenceIdeal

/-- The row numbers each edge reads, as the `[400000, 1]` array both programs gather by. -/
def srcIdx (x1 : (⟨S2x400000, .i32⟩ : BufTy).Contents (Elt Ideal)) : IVec ⟨2, ![400000, 1]⟩ 32 :=
  Cert.ReferenceIdeal.Read.val_main_v9 (F := Ideal) x1

/-- The row numbers each edge arrives at, as the `[400000, 1]` array both programs scatter by. -/
def dstIdx (x1 : (⟨S2x400000, .i32⟩ : BufTy).Contents (Elt Ideal)) : IVec ⟨2, ![400000, 1]⟩ 32 :=
  Cert.ReferenceIdeal.Read.val_main_v15 (F := Ideal) x1

/-- The graph the edge list describes. -/
def graphOf (x1 : (⟨S2x400000, .i32⟩ : BufTy).Contents (Elt Ideal)) : Cert.Spec.Graph where
  src := Cert.LibRowOps.clampedRow (N := 50000) (by norm_num) (srcIdx x1)
  into := Cert.LibRowOps.rowsInto (N := 50000) (dstIdx x1)

/-- The float arguments as the network's parameters, entry by entry. -/
def paramsOf (x0 : (⟨S50000x144, .f32⟩ : BufTy).Contents (Elt Ideal)) (x2 : (⟨S400000, .f32⟩ : BufTy).Contents (Elt Ideal))
    (x3 : (⟨S256x144, .f32⟩ : BufTy).Contents (Elt Ideal)) (x4 : (⟨S256, .f32⟩ : BufTy).Contents (Elt Ideal)) (x5 : (⟨S256x144, .f32⟩ : BufTy).Contents (Elt Ideal))
    (x6 : (⟨S512x256, .f32⟩ : BufTy).Contents (Elt Ideal)) (x7 : (⟨S512, .f32⟩ : BufTy).Contents (Elt Ideal)) (x8 : (⟨S512x256, .f32⟩ : BufTy).Contents (Elt Ideal))
    (x9 : (⟨S256x512, .f32⟩ : BufTy).Contents (Elt Ideal)) (x10 : (⟨S256, .f32⟩ : BufTy).Contents (Elt Ideal)) (x11 : (⟨S256x512, .f32⟩ : BufTy).Contents (Elt Ideal))
    (x12 : (⟨S128x256, .f32⟩ : BufTy).Contents (Elt Ideal)) (x13 : (⟨S128, .f32⟩ : BufTy).Contents (Elt Ideal)) (x14 : (⟨S128x256, .f32⟩ : BufTy).Contents (Elt Ideal))
    (x15 x16 x17 : (⟨S256, .f32⟩ : BufTy).Contents (Elt Ideal)) : Cert.Spec.Params where
  x := fun n k => x0 (ix2 n k)
  w := fun e => x2 (ix1 e)
  Wrel1 := fun o k => x3 (ix2 o k)
  b1 := fun o => x4 (ix1 o)
  Wroot1 := fun o k => x5 (ix2 o k)
  Wrel2 := fun o k => x6 (ix2 o k)
  b2 := fun o => x7 (ix1 o)
  Wroot2 := fun o k => x8 (ix2 o k)
  Wrel3 := fun o k => x9 (ix2 o k)
  b3 := fun o => x10 (ix1 o)
  Wroot3 := fun o k => x11 (ix2 o k)
  Wrel4 := fun o k => x12 (ix2 o k)
  b4 := fun o => x13 (ix1 o)
  Wroot4 := fun o k => x14 (ix2 o k)
  gw := fun k => x15 (ix1 k)
  gb := fun k => x16 (ix1 k)
  ms := fun k => x17 (ix1 k)

end Cert.Args

end
-- ==== Proof.Hops.lean ====
/-
  Walking a buffer's contents back through the segments of the kernel program.

  The contents at a segment boundary are a fold through the segments: a host stretch changes only the buffers its
  operations write, a region changes only its output arrays.  So a buffer written early and read late holds at the later
  boundary what it held at the earlier one.  The rules below state one step back through each region for a buffer that is
  none of its arrays, and for the three activations a later region reads through an input window; a host stretch is
  walked by the library's result rules.
-/
import proofs.«136480_j970662609200_2_alg».proof.Proof.Gen.KernelIdeal.Frame
import Idealize.ShloMosaic.Lib.StableHlo.Run

set_option maxRecDepth 16384

noncomputable section

namespace Cert.KernelIdeal.Hops

open Cert.KernelIdeal Cert.KernelIdeal.Gen
open Idealize.ShloMosaic Idealize.ShloMosaic.TcCoe Idealize.ShloMosaic.StableHlo
open Idealize.SL.Sem

variable {F : FTy → Type} [FloatOps F]
variable (m : (ℓ : Loc nD τ sig) → Buf (Elt F) ℓ) (ρ : Dev nD → PrngReg) (c : Dev nD)

/-! ## One step back through a region, at a buffer that is none of its arrays -/

theorem keep2 (b : Ref sig .tc) (hb : ∀ w, Pipeline.arrRef spec0 w ≠ b) :
    W2 m ρ c (no_index (Proc.devRef .tc b)) = W1 m ρ c (Proc.devRef .tc b) := W2_of_ne m ρ c b hb
theorem keep4 (b : Ref sig .tc) (hb : ∀ w, Pipeline.arrRef spec1 w ≠ b) :
    W4 m ρ c (no_index (Proc.devRef .tc b)) = W3 m ρ c (Proc.devRef .tc b) := W4_of_ne m ρ c b hb
theorem keep6 (b : Ref sig .tc) (hb : ∀ w, Pipeline.arrRef spec2 w ≠ b) :
    W6 m ρ c (no_index (Proc.devRef .tc b)) = W5 m ρ c (Proc.devRef .tc b) := W6_of_ne m ρ c b hb
theorem keep8 (b : Ref sig .tc) (hb : ∀ w, Pipeline.arrRef spec3 w ≠ b) :
    W8 m ρ c (no_index (Proc.devRef .tc b)) = W7 m ρ c (Proc.devRef .tc b) := W8_of_ne m ρ c b hb
theorem keep9 (b : Ref sig .tc) (hb : ∀ w, Pipeline.arrRef spec4 w ≠ b) :
    W9 m ρ c (no_index (Proc.devRef .tc b)) = W8 m ρ c (Proc.devRef .tc b) := W9_of_ne m ρ c b hb
theorem keep11 (b : Ref sig .tc) (hb : ∀ w, Pipeline.arrRef spec5 w ≠ b) :
    W11 m ρ c (no_index (Proc.devRef .tc b)) = W10 m ρ c (Proc.devRef .tc b) := W11_of_ne m ρ c b hb
theorem keep13 (b : Ref sig .tc) (hb : ∀ w, Pipeline.arrRef spec6 w ≠ b) :
    W13 m ρ c (no_index (Proc.devRef .tc b)) = W12 m ρ c (Proc.devRef .tc b) := W13_of_ne m ρ c b hb
theorem keep15 (b : Ref sig .tc) (hb : ∀ w, Pipeline.arrRef spec7 w ≠ b) :
    W15 m ρ c (no_index (Proc.devRef .tc b)) = W14 m ρ c (Proc.devRef .tc b) := W15_of_ne m ρ c b hb

/-! ## One step back through a region that reads the buffer through an input window: an input array is never written -/

theorem in6_v37 : W6 m ρ c (no_index (Proc.devRef .tc main_v37)) = W5 m ρ c (Proc.devRef .tc main_v37) :=
  (W6_arr m ρ c 0).trans (((dat2 (V5 m ρ) c).arrAt_in 0 rfl _).trans (A_eq2 (V5 m ρ) c 0))
theorem in9_v55 : W9 m ρ c (no_index (Proc.devRef .tc main_v55)) = W8 m ρ c (Proc.devRef .tc main_v55) :=
  (W9_arr m ρ c 0).trans (((dat4 (V8 m ρ) c).arrAt_in 0 rfl _).trans (A_eq4 (V8 m ρ) c 0))
theorem in13_v78 : W13 m ρ c (no_index (Proc.devRef .tc main_v78)) = W12 m ρ c (Proc.devRef .tc main_v78) :=
  (W13_arr m ρ c 0).trans (((dat6 (V12 m ρ) c).arrAt_in 0 rfl _).trans (A_eq6 (V12 m ρ) c 0))

end Cert.KernelIdeal.Hops

/-- Walk every boundary's contents in the goal back to where each buffer was written: the host stretches by the result
    rules, the regions by the rules above, the references' inequalities decided. -/
macro "walk_back" : tactic =>
  `(tactic| (simp (disch := decide) only [
      Cert.KernelIdeal.Gen.V1, Cert.KernelIdeal.Gen.V3, Cert.KernelIdeal.Gen.V5, Cert.KernelIdeal.Gen.V7, Cert.KernelIdeal.Gen.V8,
      Cert.KernelIdeal.Gen.V10, Cert.KernelIdeal.Gen.V12, Cert.KernelIdeal.Gen.V14,
      Cert.KernelIdeal.Gen.W1, Cert.KernelIdeal.Gen.W3, Cert.KernelIdeal.Gen.W5, Cert.KernelIdeal.Gen.W7,
      Cert.KernelIdeal.Gen.W10, Cert.KernelIdeal.Gen.W12, Cert.KernelIdeal.Gen.W14,
      Cert.KernelIdeal.Gen.hostOps0, Cert.KernelIdeal.Gen.hostOps1, Cert.KernelIdeal.Gen.hostOps2, Cert.KernelIdeal.Gen.hostOps3,
      Cert.KernelIdeal.Gen.hostOps5, Cert.KernelIdeal.Gen.hostOps6, Cert.KernelIdeal.Gen.hostOps7,
      Cert.KernelIdeal.Hops.keep2, Cert.KernelIdeal.Hops.keep4, Cert.KernelIdeal.Hops.keep6, Cert.KernelIdeal.Hops.keep8,
      Cert.KernelIdeal.Hops.keep9, Cert.KernelIdeal.Hops.keep11, Cert.KernelIdeal.Hops.keep13, Cert.KernelIdeal.Hops.keep15,
      Cert.KernelIdeal.Hops.in6_v37, Cert.KernelIdeal.Hops.in9_v55, Cert.KernelIdeal.Hops.in13_v78,
      Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Idealize.ShloMosaic.StableHlo.binaryIndexed_result', Idealize.ShloMosaic.StableHlo.unaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.binaryIndexed_result_ne', Idealize.ShloMosaic.StableHlo.unaryIndexed_result_ne']))

end
-- ==== Proof.HostReads.lean ====
/-
  The host operations around the aggregation, read at an index, for any extents.

  An edge weight is broadcast from a vector of `E` numbers to an `[E, 1]` column and then along the `C` columns of an
  `[E, C]` array; a weight matrix is transposed; a bias vector is reshaped to a `[1, C]` row; the accumulator of the
  scatter is a splat of zero.  With the row gather and the row scatter-add read at an index, the aggregate both programs
  compute is, entry by entry, the weighted sum over the edges arriving at a node of the features of the node each edge reads.
-/
import Idealize.ShloMosaic.PureOps.Ideal
import Idealize.ShloMosaic.PureOps.Ideal.Laws
import Idealize.ShloMosaic.Lib.ValueIdx
import Idealize.ShloMosaic.Lib.Pipeline.Value
import proofs.«136480_j970662609200_2_alg».proof.Proof.LibRowOps

noncomputable section

open scoped BigOperators

namespace Cert.HostReads

open Idealize.ShloMosaic Idealize.ShloMosaic.ValueIdx

variable {α : Type}

/-- A vector of `E` numbers broadcast to a column and then along `C` columns holds entry `e` in all of row `e`. -/
theorem rowBroadcast_apply {E C : Nat} (hE : E ≠ 1)
    (h1 : (⟨1, ![E]⟩ : Shape).BroadcastsInDim ⟨2, ![E, 1]⟩ ![0])
    (h2 : (⟨2, ![E, 1]⟩ : Shape).BroadcastsInDim ⟨2, ![E, C]⟩ ![0, 1])
    (x : (⟨1, ![E]⟩ : Shape).Idx → α) (e : Fin E) (k : Fin C) :
    broadcastInDim ⟨2, ![E, C]⟩ ![0, 1] h2 (broadcastInDim ⟨2, ![E, 1]⟩ ![0] h1 x) (ix2 e k) = x (ix1 e) := by
  rw [broadcastInDim_apply ![0, 1] h2 _ (ix2 e k) (ix2 e (0 : Fin 1)) (fun a => match a with
    | ⟨0, _⟩ => by show e.val = if E = 1 then 0 else e.val; rw [if_neg hE]
    | ⟨1, _⟩ => by show 0 = if (1 : Nat) = 1 then 0 else k.val; rw [if_pos rfl])]
  exact broadcastInDim_apply ![0] h1 x (ix2 e (0 : Fin 1)) (ix1 e) (fun a => match a with
    | ⟨0, _⟩ => by show e.val = if E = 1 then 0 else e.val; rw [if_neg hE])

/-- The transpose of an `[A, B]` matrix at `(k, o)` is the matrix at `(o, k)`. -/
theorem transpose2_apply {A B : Nat} (h : (⟨2, ![A, B]⟩ : Shape).Transposes [1, 0] ⟨2, ![B, A]⟩)
    (x : (⟨2, ![A, B]⟩ : Shape).Idx → α) (k : Fin B) (o : Fin A) :
    transpose ⟨2, ![B, A]⟩ [1, 0] x h (ix2 k o) = x (ix2 o k) :=
  transpose_apply [1, 0] x h (ix2 k o) (ix2 o k) (fun b => match b with
    | ⟨0, _⟩ => rfl
    | ⟨1, _⟩ => rfl)

/-- A vector of `C` numbers reshaped to a `[1, C]` row holds entry `o` at `(0, o)`. -/
theorem rowReshape_apply {C : Nat} (h : (⟨1, ![C]⟩ : Shape).ShapeCasts ⟨2, ![1, C]⟩)
    (x : (⟨1, ![C]⟩ : Shape).Idx → α) (o : Fin C) :
    shapeCast ⟨2, ![1, C]⟩ x h (ix2 (0 : Fin 1) o) = x (ix1 o) := by
  refine shapeCast_apply x h (ix2 (0 : Fin 1) o) (ix1 o) ?_
  rw [Shape.rowMajor_val_two]
  show ((⟨1, ![C]⟩ : Shape).rowMajor (ix1 o)).val = 0 * C + o.val
  rw [Shape.rowMajor_val_one]
  show o.val = 0 * C + o.val
  omega

/-- A splat of the zero word is zero everywhere, read exactly. -/
theorem zeroSplat_apply {s : Shape} (h : (⟨0, ![]⟩ : Shape).BroadcastsInDim s (![] : Fin 0 → Fin s.rank)) (i : s.Idx) :
    broadcastInDim s ![] h (constant (F := Ideal) ⟨0, ![]⟩ .f32 0x00000000#32) i = (0 : EReal) := by
  rw [broadcastInDim_apply (![] : Fin 0 → Fin s.rank) h _ i ix0 (fun a => a.elim0)]
  show Ideal.ofBits .f32 0x00000000#32 = 0
  exact Ideal.ofBits_zero_f32

/-- THE AGGREGATE AT `(n, k)`: a row gather of the features by the rows the edges read, each gathered row scaled by its
    edge's weight, scatter-added onto zero by the rows the edges arrive at, is the weighted sum over the edges arriving at
    `n` of the features, column `k`, of the node each edge reads. -/
theorem aggregate_apply {N E C : Nat} (hN : 0 < N) (hE : E ≠ 1)
    (wfg : GatherDims.WF ⟨2, ![N, C]⟩ ⟨2, ![E, 1]⟩ ⟨2, ![E, C]⟩ [1] [0] [] [0] [] 1 ![1, C])
    (dg : GatherDims ⟨2, ![N, C]⟩ ⟨2, ![E, 1]⟩ ⟨2, ![E, C]⟩) (hdg : dg = Cert.LibRowOps.rowGatherDims N E C wfg)
    (wfs : ScatterDims.WF ⟨2, ![N, C]⟩ ⟨2, ![E, 1]⟩ ⟨2, ![E, C]⟩ [1] [0] [0] 1)
    (ds : ScatterDims ⟨2, ![N, C]⟩ ⟨2, ![E, 1]⟩ ⟨2, ![E, C]⟩) (hds : ds = Cert.LibRowOps.rowScatterDims N E C wfs)
    (hz : (⟨0, ![]⟩ : Shape).BroadcastsInDim ⟨2, ![N, C]⟩ (![] : Fin 0 → Fin 2))
    (h1 : (⟨1, ![E]⟩ : Shape).BroadcastsInDim ⟨2, ![E, 1]⟩ ![0])
    (h2 : (⟨2, ![E, 1]⟩ : Shape).BroadcastsInDim ⟨2, ![E, C]⟩ ![0, 1])
    (h : FVec Ideal ⟨2, ![N, C]⟩ .f32) (src dst : IVec ⟨2, ![E, 1]⟩ 32) (w : FVec Ideal ⟨1, ![E]⟩ .f32)
    (n : Fin N) (k : Fin C) :
    Host.scatterAdd (F := Ideal) (φ := .f32) ds (broadcastInDim ⟨2, ![N, C]⟩ ![] hz (constant (F := Ideal) ⟨0, ![]⟩ .f32 0x00000000#32)) dst
        (mulf (F := Ideal) (s := ⟨2, ![E, C]⟩) (φ := .f32) (Host.gather dg h src) (broadcastInDim ⟨2, ![E, C]⟩ ![0, 1] h2 (broadcastInDim ⟨2, ![E, 1]⟩ ![0] h1 w)))
        (ix2 n k)
      = ∑ e ∈ Cert.LibRowOps.rowsInto dst n, h (ix2 (Cert.LibRowOps.clampedRow hN src e) k) * w (ix1 e) := by
  rw [Cert.LibRowOps.scatterAdd_rows wfs ds hds, zeroSplat_apply, zero_add]
  refine Finset.sum_congr rfl fun e _ => ?_
  show FloatOps.mulf (Host.gather dg h src (ix2 e k)) (broadcastInDim ⟨2, ![E, C]⟩ ![0, 1] h2 (broadcastInDim ⟨2, ![E, 1]⟩ ![0] h1 w) (ix2 e k)) = _
  rw [Cert.LibRowOps.gather_rows hN wfg dg hdg, rowBroadcast_apply hE]
  rfl

end Cert.HostReads

end
-- ==== Proof.ChainBase.lean ====
/-
  The activations of the kernel program at its segment boundaries, and the graph and parameters they are functions of.

  Each array below is what a region leaves in its output buffer: the first two layers' activations, the third layer's
  features after the relational weights, the third layer's result, its two per-feature sums, the normalised and rectified
  activations, the fourth layer's features after the relational weights, and the result.
-/
import proofs.«136480_j970662609200_2_alg».proof.Proof.Gen.KernelIdeal.Frame
import proofs.«136480_j970662609200_2_alg».proof.Proof.Args
import proofs.«136480_j970662609200_2_alg».proof.Proof.Hops
import proofs.«136480_j970662609200_2_alg».proof.Proof.HostReads

set_option maxRecDepth 16384

noncomputable section

namespace Cert.KernelIdeal.Chain

open Cert.KernelIdeal Cert.KernelIdeal.Gen
open Idealize.ShloMosaic Idealize.ShloMosaic.TcCoe Idealize.ShloMosaic.StableHlo Idealize.ShloMosaic.ValueIdx
open Idealize.SL.Sem

variable (m : (ℓ : Loc nD τ sig) → Buf (Elt Ideal) ℓ) (ρ : Dev nD → PrngReg) (c : Dev nD)

/-- An array of two axes as a function of its two coordinates. -/
abbrev cur2 {a b : Nat} (A : (⟨2, ![a, b]⟩ : Shape).Idx → EReal) : Fin a → Fin b → EReal := fun n k => A (ix2 n k)

/-- The graph the edge list argument describes. -/
abbrev Gr : Cert.Spec.Graph := Cert.Args.graphOf (m ((c : Thread nD τ).loc main_arg1))

/-- The float arguments as the network's parameters. -/
abbrev Pa : Cert.Spec.Params :=
  Cert.Args.paramsOf (m ((c : Thread nD τ).loc main_arg0)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))
    (m ((c : Thread nD τ).loc main_arg10)) (m ((c : Thread nD τ).loc main_arg11)) (m ((c : Thread nD τ).loc main_arg12))
    (m ((c : Thread nD τ).loc main_arg13)) (m ((c : Thread nD τ).loc main_arg14)) (m ((c : Thread nD τ).loc main_arg15))
    (m ((c : Thread nD τ).loc main_arg16)) (m ((c : Thread nD τ).loc main_arg17))

/-- The first layer's activations: region 0's output. -/
abbrev H1 : S50000x256.Idx → EReal := W2 (F := Ideal) m ρ c (Proc.devRef .tc main_v20)
/-- The second layer's activations: region 1's output. -/
abbrev H2 : S50000x512.Idx → EReal := W4 (F := Ideal) m ρ c (Proc.devRef .tc main_v37)
/-- The second layer's activations times the third layer's relational weights: region 2's output. -/
abbrev Y3 : S50000x256.Idx → EReal := W6 (F := Ideal) m ρ c (Proc.devRef .tc main_v39)
/-- The third layer's result: region 3's output. -/
abbrev H3 : S50000x256.Idx → EReal := W8 (F := Ideal) m ρ c (Proc.devRef .tc main_v55)
/-- The per-feature sums of the third layer's result and of its squares: region 4's two outputs. -/
abbrev S1 : S1x256.Idx → EReal := W9 (F := Ideal) m ρ c (Proc.devRef .tc main_v56_0)
abbrev S2 : S1x256.Idx → EReal := W9 (F := Ideal) m ρ c (Proc.devRef .tc main_v56_1)
/-- The normalised, rectified activations: region 5's output. -/
abbrev H4 : S50000x256.Idx → EReal := W11 (F := Ideal) m ρ c (Proc.devRef .tc main_v78)
/-- Those activations times the fourth layer's relational weights: region 6's output. -/
abbrev Y4 : S50000x128.Idx → EReal := W13 (F := Ideal) m ρ c (Proc.devRef .tc main_v80)
/-- The result: region 7's output. -/
abbrev Out : S50000x128.Idx → EReal := W15 (F := Ideal) m ρ c (Proc.devRef .tc main_v96)

end Cert.KernelIdeal.Chain

end
-- ==== Proof.LibDot.lean ====
/-
  A matrix product with no batch axis, rows × contraction times contraction × columns, read at an entry: the sum over
  the contracted axis of the left operand's row entry times the right operand's column entry. Stated for any extents
  and for any two operand arrays over a commutative semiring's carrier, so that it serves a device's matrix unit and a
  host's dot product alike once each is written as a sum over the contraction index.
-/
import Idealize.ShloMosaic.PureOps.Ideal.Laws
import Idealize.ShloMosaic.Lib.ValueIdx

open scoped BigOperators

namespace Cert.LibDot

open Idealize.ShloMosaic Idealize.ShloMosaic.ValueIdx

/-- The left operand's index at output entry `j` and contraction position `k` is `(j 0, k)`. -/
theorem plain_lhsIdx {M K N : Nat} (j : (⟨2, ![M, N]⟩ : Shape).Idx) (k : Fin K) :
    (DotDims.plain M K N).lhsIdx j ((contrEquiv1 (DotDims.plain M K N) K rfl rfl).symm k) = ix2 (j 0) k := by
  funext a
  apply Fin.ext
  match a with
  | ⟨0, _⟩ => rfl
  | ⟨1, _⟩ =>
    show ((DotDims.plain M K N).lhsIdx j _ (1 : Fin 2)).val = k.val
    rw [DotDims.lhsIdx_val_of_single (DotDims.plain M K N) (cl := (1 : Fin 2)) rfl]
    exact contrEquiv1_symm_val (DotDims.plain M K N) K rfl rfl k

/-- The right operand's index at output entry `j` and contraction position `k` is `(k, j 1)`. -/
theorem plain_rhsIdx {M K N : Nat} (j : (⟨2, ![M, N]⟩ : Shape).Idx) (k : Fin K) :
    (DotDims.plain M K N).rhsIdx j ((contrEquiv1 (DotDims.plain M K N) K rfl rfl).symm k) = ix2 k (j 1) := by
  funext a
  apply Fin.ext
  match a with
  | ⟨0, _⟩ =>
    show ((DotDims.plain M K N).rhsIdx j _ (0 : Fin 2)).val = k.val
    rw [DotDims.rhsIdx_val_of_single (DotDims.plain M K N) (cr := (0 : Fin 2)) rfl]
    exact contrEquiv1_symm_val (DotDims.plain M K N) K rfl rfl k
  | ⟨1, _⟩ => rfl

/-- THE PLAIN PRODUCT'S SUM over the contraction shape is the sum over `Fin K` of row entry times column entry. -/
theorem plain_sum {R : Type*} [AddCommMonoid R] [Mul R] {M K N : Nat}
    (L : (⟨2, ![M, K]⟩ : Shape).Idx → R) (Rt : (⟨2, ![K, N]⟩ : Shape).Idx → R) (j : (⟨2, ![M, N]⟩ : Shape).Idx) :
    ∑ k : (DotDims.plain M K N).contr.Idx, L ((DotDims.plain M K N).lhsIdx j k) * Rt ((DotDims.plain M K N).rhsIdx j k)
      = ∑ k : Fin K, L (ix2 (j 0) k) * Rt (ix2 k (j 1)) := by
  rw [← Equiv.sum_comp (contrEquiv1 (DotDims.plain M K N) K rfl rfl).symm]
  refine Finset.sum_congr rfl fun k _ => ?_
  exact congr (congrArg _ (congrArg L (plain_lhsIdx j k))) (congrArg Rt (plain_rhsIdx j k))

/-- A matrix unit's product into the zero accumulator, at the exact instance and at entry `(p, q)`. -/
theorem matmul_zero_plain {M K N : Nat} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  subst hd
  rw [Ideal.matmul_constant_zero_apply]
  exact plain_sum (R := EReal) lhs rhs (ix2 p q)

/-- A host's dot product with no batch axis, at the exact instance and at entry `(p, q)`. -/
theorem dotGeneral_plain {M K N : Nat} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ k : Fin K, lhs (ix2 p k) * rhs (ix2 k q) := by
  subst hd
  rw [Ideal.dotGeneral_apply]
  exact plain_sum (R := EReal) lhs rhs (ix2 p q)

end Cert.LibDot
-- ==== Proof.Region0.lean ====
/-
  The first convolution's region: what its output array holds after the region, entry by entry.

  Each grid point loads 2000 rows of the node features and of the aggregated features and the whole of the two weight
  matrices and of the bias row, and stores, for its 2000 rows, the rectifier of
  (aggregated · relational weights + features · root weights) + bias.  The 25 points' row blocks tile the 50000 rows,
  so after the region the output array holds that formula of the input arrays at every entry.
-/
import proofs.«136480_j970662609200_2_alg».proof.Proof.Gen.KernelIdeal.Frame
import Idealize.ShloMosaic.Lib.ValueIdx
import Idealize.ShloMosaic.Lib.Pipeline.Value
import Idealize.ShloMosaic.PureOps.Ideal.Laws
import proofs.«136480_j970662609200_2_alg».proof.Proof.LibDot

noncomputable section

open scoped BigOperators

namespace Cert.KernelIdeal.Reg0

open Cert.KernelIdeal Cert.KernelIdeal.Gen Idealize.ShloMosaic Idealize.ShloMosaic.TcCoe Idealize.SL.Sem
open Idealize.ShloMosaic.ValueIdx
open Idealize.ShloMosaic.Pipeline (Dat)

/-! ## The stored value at an entry of the block -/

/-- The value a grid point stores, at row `p` and column `q` of its block: the two products' sums over the 144
    input features, the bias of column `q`, and the rectifier. -/
theorem pay_apply (x0 x1 : Vec Ideal S2000x144 .f32) (x2 x3 : Vec Ideal S144x256 .f32) (x4 : Vec Ideal S1x256 .f32)
    (p : Fin 2000) (q : Fin 256) :
    k0_pay1 (F := Ideal) x0 x1 x2 x3 x4 (ix2 p q)
      = max ((∑ k : Fin 144, x1 (ix2 p k) * x2 (ix2 k q) + ∑ k : Fin 144, x0 (ix2 p k) * x3 (ix2 k q))
          + x4 (ix2 0 q)) 0 := by
  unfold k0_pay1
  simp only [shapeCast_self]
  show max (((FloatOps.matmul (F := Ideal) dot_S2000x144_S144x256_S2000x256_1_0_0_1_n_n (some .fp32) x1 x2
        (constant S2000x256 .f32 0x00000000#32) (ix2 p q) : EReal)
      + (FloatOps.matmul (F := Ideal) dot_S2000x144_S144x256_S2000x256_1_0_0_1_n_n (some .fp32) x0 x3
        (constant S2000x256 .f32 0x00000000#32) (ix2 p q) : EReal))
      + (broadcastTo S2000x256 x4 broadcasts_S1x256_S2000x256 (ix2 p q) : EReal))
      (Ideal.ofBits .f32 0x00000000#32 : EReal) = _
  rw [Cert.LibDot.matmul_zero_plain (φ₁ := .f32) (φ₂ := .f32) dot_S2000x144_S144x256_S2000x256_1_0_0_1_n_n rfl
      (some .fp32) x1 x2 p q,
    Cert.LibDot.matmul_zero_plain (φ₁ := .f32) (φ₂ := .f32) dot_S2000x144_S144x256_S2000x256_1_0_0_1_n_n rfl
      (some .fp32) x0 x3 p q,
    Ideal.ofBits_zero_f32,
    broadcastTo_apply x4 broadcasts_S1x256_S2000x256 (ix2 p q) (ix2 0 q) (fun a => by
      match a with
      | ⟨0, _⟩ => rfl
      | ⟨1, _⟩ => rfl)]

/-! ## The index maps -/

theorem hz : (![0, 0] : Fin 2 → Nat) = fun _ => 0 := funext fun a => by fin_cases a <;> rfl

/-- The printed index maps, decided over the 25 grid points: the feature windows and the output window are at row
    block `t`, column block 0; the weight and bias windows are the whole arrays. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0) :=
  (by decide +kernel : ∀ t : Fin grid0.N, _)

/-! ## The input windows' blocks, read in the arrays -/

section Blocks
variable (V : (c : Dev nD) → (b : Ref sig .tc) → Buf (Elt Ideal) ((c : Thread nD τ).loc b))

/-- Row `p` of the node features' block at point `t` is row `2000 t + p` of the array. -/
theorem blk0_apply (c : Dev nD) (t : Fin cfg0.N) (p : Fin 2000) (k : Fin 144) (n : Fin 50000)
    (hn : n.val = t.val * 2000 + p.val) :
    (iblk0 V c 0 t : Vec Ideal S2000x144 .f32) (ix2 p k)
      = (V c (Pipeline.arrRef spec0 0) : S50000x144.Idx → EReal) (ix2 n k) := by
  obtain ⟨⟨e0, e1⟩, -⟩ := idx_facts t
  unfold iblk0
  rw [View.read_apply]
  show V c main_arg0 _ = V c main_arg0 _
  refine congrArg _ ?_
  funext a
  apply Fin.ext
  match a with
  | ⟨0, _⟩ => show win0_0.index t (0 : Fin 2) * 2000 + 1 * p.val = n.val; omega
  | ⟨1, _⟩ => show win0_0.index t (1 : Fin 2) * 144 + 1 * k.val = k.val; omega

/-- Row `p` of the aggregated features' block at point `t` is row `2000 t + p` of the array. -/
theorem blk1_apply (c : Dev nD) (t : Fin cfg0.N) (p : Fin 2000) (k : Fin 144) (n : Fin 50000)
    (hn : n.val = t.val * 2000 + p.val) :
    (iblk0 V c 1 t : Vec Ideal S2000x144 .f32) (ix2 p k)
      = (V c (Pipeline.arrRef spec0 1) : S50000x144.Idx → EReal) (ix2 n k) := by
  obtain ⟨-, ⟨e0, e1⟩, -⟩ := idx_facts t
  unfold iblk0
  rw [View.read_apply]
  show V c main_v16 _ = V c main_v16 _
  refine congrArg _ ?_
  funext a
  apply Fin.ext
  match a with
  | ⟨0, _⟩ => show win0_1.index t (0 : Fin 2) * 2000 + 1 * p.val = n.val; omega
  | ⟨1, _⟩ => show win0_1.index t (1 : Fin 2) * 144 + 1 * k.val = k.val; omega

/-- The relational weights' block at every point is the whole array. -/
theorem blk2_apply (c : Dev nD) (t : Fin cfg0.N) (k : Fin 144) (q : Fin 256) :
    (iblk0 V c 2 t : Vec Ideal S144x256 .f32) (ix2 k q)
      = (V c (Pipeline.arrRef spec0 2) : S144x256.Idx → EReal) (ix2 k q) := by
  obtain ⟨-, -, ⟨e0, e1⟩, -⟩ := idx_facts t
  unfold iblk0
  rw [View.read_apply]
  show V c main_v17 _ = V c main_v17 _
  refine congrArg _ ?_
  funext a
  apply Fin.ext
  match a with
  | ⟨0, _⟩ => show win0_2.index t (0 : Fin 2) * 144 + 1 * k.val = k.val; omega
  | ⟨1, _⟩ => show win0_2.index t (1 : Fin 2) * 256 + 1 * q.val = q.val; omega

/-- The root weights' block at every point is the whole array. -/
theorem blk3_apply (c : Dev nD) (t : Fin cfg0.N) (k : Fin 144) (q : Fin 256) :
    (iblk0 V c 3 t : Vec Ideal S144x256 .f32) (ix2 k q)
      = (V c (Pipeline.arrRef spec0 3) : S144x256.Idx → EReal) (ix2 k q) := by
  obtain ⟨-, -, -, ⟨e0, e1⟩, -⟩ := idx_facts t
  unfold iblk0
  rw [View.read_apply]
  show V c main_v18 _ = V c main_v18 _
  refine congrArg _ ?_
  funext a
  apply Fin.ext
  match a with
  | ⟨0, _⟩ => show win0_3.index t (0 : Fin 2) * 144 + 1 * k.val = k.val; omega
  | ⟨1, _⟩ => show win0_3.index t (1 : Fin 2) * 256 + 1 * q.val = q.val; omega

/-- The bias row's block at every point is the whole row. -/
theorem blk4_apply (c : Dev nD) (t : Fin cfg0.N) (q : Fin 256) :
    (iblk0 V c 4 t : Vec Ideal S1x256 .f32) (ix2 0 q)
      = (V c (Pipeline.arrRef spec0 4) : S1x256.Idx → EReal) (ix2 0 q) := by
  obtain ⟨-, -, -, -, ⟨e0, e1⟩, -⟩ := idx_facts t
  unfold iblk0
  rw [View.read_apply]
  show V c main_v19 _ = V c main_v19 _
  refine congrArg _ ?_
  funext a
  apply Fin.ext
  match a with
  | ⟨0, _⟩ => show win0_4.index t (0 : Fin 2) * 1 + 1 * (0 : Fin 1).val = (0 : Fin 1).val; omega
  | ⟨1, _⟩ => show win0_4.index t (1 : Fin 2) * 256 + 1 * q.val = q.val; omega

/-! ## From the blocks to the array -/

/-- The convolution and rectifier as one function of the five input arrays, entry by entry. -/
def conv (a0 a1 : S50000x144.Idx → EReal) (a2 a3 : S144x256.Idx → EReal) (a4 : S1x256.Idx → EReal)
    (n : Fin 50000) (o : Fin 256) : EReal :=
  max ((∑ k : Fin 144, a1 (ix2 n k) * a2 (ix2 k o) + ∑ k : Fin 144, a0 (ix2 n k) * a3 (ix2 k o)) + a4 (ix2 0 o)) 0

/-- The formula, spelt out. -/
theorem conv_eq (a0 a1 : S50000x144.Idx → EReal) (a2 a3 : S144x256.Idx → EReal) (a4 : S1x256.Idx → EReal)
    (n : Fin 50000) (o : Fin 256) :
    conv a0 a1 a2 a3 a4 n o
      = max ((∑ k : Fin 144, a1 (ix2 n k) * a2 (ix2 k o) + ∑ k : Fin 144, a0 (ix2 n k) * a3 (ix2 k o))
          + a4 (ix2 0 o)) 0 := rfl

/-- The same as a whole array. -/
def convArr (a0 a1 : S50000x144.Idx → EReal) (a2 a3 : S144x256.Idx → EReal) (a4 : S1x256.Idx → EReal) :
    S50000x256.Idx → EReal := fun i => conv a0 a1 a2 a3 a4 (i 0) (i 1)

theorem N0 : cfg0.N = 25 := by decide +kernel

/-- WHAT POINT `t` WRITES BACK is rows `2000 t … 2000 t + 1999` of the convolution of the input arrays. -/
theorem flushed_eq (c : Dev nD) (t : Fin cfg0.N) :
    (dat0 V c).flushed 5 t = ((cfg0.win 5).blk t).view.read (Elt Ideal)
      (convArr (V c (Pipeline.arrRef spec0 0)) (V c (Pipeline.arrRef spec0 1)) (V c (Pipeline.arrRef spec0 2))
        (V c (Pipeline.arrRef spec0 3)) (V c (Pipeline.arrRef spec0 4))) := by
  show (cfg0.win 5).cut (grid0.coords t) ((dat0 V c).after 5 t) = _
  rw [after0_5]
  unfold out0_5
  rw [View.canon_unit_zero hz]
  simp only [View.ld_unit_zero (S := S2000x144) hz, View.ld_unit_zero (S := S144x256) hz,
    View.ld_unit_zero (S := S1x256) hz]
  funext j
  obtain ⟨p, q, rfl⟩ : ∃ (p : Fin 2000) (q : Fin 256), j = ix2 p q := ⟨j 0, j 1, eq_ix2 j⟩
  obtain ⟨-, -, -, -, -, e0, e1⟩ := idx_facts t
  have hn : t.val * 2000 + p.val < 50000 := by
    have h1 : t.val < 25 := lt_of_lt_of_eq t.isLt N0
    have h2 := p.isLt; omega
  have hemb : ((cfg0.win 5).blk t).view.emb (ix2 p q) = ix2 (⟨t.val * 2000 + p.val, hn⟩ : Fin 50000) q := by
    funext a
    apply Fin.ext
    match a with
    | ⟨0, _⟩ => show win0_5.index t (0 : Fin 2) * 2000 + 1 * p.val = t.val * 2000 + p.val; omega
    | ⟨1, _⟩ => show win0_5.index t (1 : Fin 2) * 256 + 1 * q.val = q.val; omega
  show k0_pay1 (F := Ideal) (iblk0 V c 0 t) (iblk0 V c 1 t) (iblk0 V c 2 t) (iblk0 V c 3 t) (iblk0 V c 4 t) (ix2 p q)
    = convArr (V c (Pipeline.arrRef spec0 0)) (V c (Pipeline.arrRef spec0 1)) (V c (Pipeline.arrRef spec0 2))
        (V c (Pipeline.arrRef spec0 3)) (V c (Pipeline.arrRef spec0 4)) (((cfg0.win 5).blk t).view.emb (ix2 p q))
  rw [hemb]
  refine (pay_apply (iblk0 V c 0 t) (iblk0 V c 1 t) (iblk0 V c 2 t) (iblk0 V c 3 t) (iblk0 V c 4 t) p q).trans ?_
  simp only [blk0_apply V c t p _ ⟨_, hn⟩ rfl, blk1_apply V c t p _ ⟨_, hn⟩ rfl, blk2_apply V c t, blk3_apply V c t,
    blk4_apply V c t]
  rfl

/-- An entry of the output array is in point `t`'s block iff each coordinate is in the block's range on its axis. -/
theorem mem_blk (t : Fin cfg0.N) (i : S50000x256.Idx) :
    i ∈ ((cfg0.win 5).blk t).view.set ↔ ∀ a : Fin 2, win0_5.index t a * S2000x256.size a ≤ (i a).val
      ∧ (i a).val < win0_5.index t a * S2000x256.size a + S2000x256.size a := by
  show i ∈ ((View.whole main_v20).slice (win0_5.rect t)).set ↔ _
  rw [View.set_slice_whole, Rect.mem_set_unit]
  exact Iff.rfl

/-- Every entry of the output array is in some point's block: row `r` is in the block of point `r / 2000`. -/
theorem cover (i : S50000x256.Idx) :
    ∃ t : Fin cfg0.N, (cfg0.win 5).flush t = true ∧ i ∈ ((cfg0.win 5).blk t).view.set := by
  have hi0 : (i 0).val < 50000 := (i 0).isLt
  have hi1 : (i 1).val < 256 := (i 1).isLt
  have ht : (i 0).val / 2000 < cfg0.N := by rw [N0]; omega
  obtain ⟨-, -, -, -, -, e0, e1⟩ := idx_facts ⟨(i 0).val / 2000, ht⟩
  refine ⟨⟨(i 0).val / 2000, ht⟩, flush0_5 _, ?_⟩
  rw [mem_blk]
  intro a
  match a with
  | ⟨0, _⟩ =>
    show win0_5.index ⟨(i 0).val / 2000, ht⟩ (0 : Fin 2) * 2000 ≤ (i 0).val
      ∧ (i 0).val < win0_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_5.index ⟨(i 0).val / 2000, ht⟩ (1 : Fin 2) * 256 ≤ (i 1).val
      ∧ (i 1).val < win0_5.index ⟨(i 0).val / 2000, ht⟩ (1 : Fin 2) * 256 + 256
    rw [e1]; omega

/-- THE OUTPUT ARRAY AFTER THE REGION is the convolution of the input arrays as the region finds them. -/
theorem final (c : Dev nD) :
    (dat0 V c).arrAt 5 cfg0.N
      = convArr (V c (Pipeline.arrRef spec0 0)) (V c (Pipeline.arrRef spec0 1)) (V c (Pipeline.arrRef spec0 2))
        (V c (Pipeline.arrRef spec0 3)) (V c (Pipeline.arrRef spec0 4)) :=
  (dat0 V c).arrAt_eq_of_cover 5 _ (fun t _ => flushed_eq V c t) cover

/-- The same, at an entry: row `n`, output feature `o`. -/
theorem final_apply (c : Dev nD) (n : Fin 50000) (o : Fin 256) :
    (dat0 (F := Ideal) V c).arrAt 5 cfg0.N (ix2 n o)
      = conv (V c (Pipeline.arrRef spec0 0)) (V c (Pipeline.arrRef spec0 1)) (V c (Pipeline.arrRef spec0 2))
          (V c (Pipeline.arrRef spec0 3)) (V c (Pipeline.arrRef spec0 4)) n o := by
  rw [final V c]
  rfl

/-- The whole-array form at an entry. -/
theorem convArr_apply (a0 a1 : S50000x144.Idx → EReal) (a2 a3 : S144x256.Idx → EReal) (a4 : S1x256.Idx → EReal)
    (n : Fin 50000) (o : Fin 256) :
    convArr a0 a1 a2 a3 a4 (ix2 n o)
      = max ((∑ k : Fin 144, a1 (ix2 n k) * a2 (ix2 k o) + ∑ k : Fin 144, a0 (ix2 n k) * a3 (ix2 k o))
          + a4 (ix2 0 o)) 0 := rfl

/-- The node features as the region finds them, at their literal type. -/
abbrev feat (c : Dev nD) : S50000x144.Idx → EReal := V c (Pipeline.arrRef spec0 0)
/-- The aggregated features as the region finds them, at their literal type. -/
abbrev aggr (c : Dev nD) : S50000x144.Idx → EReal := V c (Pipeline.arrRef spec0 1)
/-- The relational weights (input feature first) as the region finds them, at their literal type. -/
abbrev wrel (c : Dev nD) : S144x256.Idx → EReal := V c (Pipeline.arrRef spec0 2)
/-- The root weights (input feature first) as the region finds them, at their literal type. -/
abbrev wroot (c : Dev nD) : S144x256.Idx → EReal := V c (Pipeline.arrRef spec0 3)
/-- The bias row as the region finds it, at its literal type. -/
abbrev bias (c : Dev nD) : S1x256.Idx → EReal := V c (Pipeline.arrRef spec0 4)
/-- The output array after the region, at its literal type. -/
abbrev res (c : Dev nD) : S50000x256.Idx → EReal := (dat0 (F := Ideal) V c).arrAt 5 cfg0.N

/-- THE OUTPUT ARRAY AFTER THE REGION AT AN ENTRY: the rectifier of the aggregated row times the relational column
    plus the feature row times the root column plus the bias. -/
theorem arrAt_apply (c : Dev nD) (n : Fin 50000) (o : Fin 256) :
    res V c (ix2 n o)
      = max ((∑ k : Fin 144, aggr V c (ix2 n k) * wrel V c (ix2 k o)
          + ∑ k : Fin 144, feat V c (ix2 n k) * wroot V c (ix2 k o)) + bias V c (ix2 0 o)) 0 :=
  congrFun (final V c) (ix2 n o)

end Blocks

end Cert.KernelIdeal.Reg0

end
-- ==== Proof.Stage1.lean ====
/-
  The first layer: region 0 on the node features and their aggregate.

  The host operations before the region gather the node features by the rows the edges read, scale each gathered row by
  its edge's weight and scatter-add the rows onto zero by the rows the edges arrive at; they transpose the two weight
  matrices and reshape the bias to a row.  The region multiplies the aggregate by the relational weights, the features by
  the root weights, adds the two and the bias, and rectifies.
-/
import proofs.«136480_j970662609200_2_alg».proof.Proof.ChainBase
import proofs.«136480_j970662609200_2_alg».proof.Proof.Region0

set_option maxRecDepth 16384

noncomputable section

open scoped BigOperators

namespace Cert.KernelIdeal.Chain

open Cert.KernelIdeal Cert.KernelIdeal.Gen
open Idealize.ShloMosaic Idealize.ShloMosaic.TcCoe Idealize.ShloMosaic.StableHlo Idealize.ShloMosaic.ValueIdx
open Idealize.SL.Sem

variable (m : (ℓ : Loc nD τ sig) → Buf (Elt Ideal) ℓ) (ρ : Dev nD → PrngReg) (c : Dev nD)

/-- Region 0 reads the node features as launched. -/
theorem s1_x : (V1 (F := Ideal) m ρ c main_arg0 : S50000x144.Idx → EReal) = m ((c : Thread nD τ).loc main_arg0) := by
  walk_back
  try rfl

/-- The aggregate region 0 reads: the operations' term over the arguments. -/
theorem s1_agg : (V1 (F := Ideal) m ρ c main_v16 : S50000x144.Idx → EReal)
    = Host.scatterAdd (F := Ideal) scatter_S50000x144_S400000x1_S400000x144_1_0_0_1
        (broadcastInDim S50000x144 ![] bcast_S_S50000x144 (constant (F := Ideal) S_ .f32 0x00000000#32))
        (Cert.Args.dstIdx (m ((c : Thread nD τ).loc main_arg1)))
        (mulf (Host.gather gather_S50000x144_S400000x1_S400000x144_1_0_n_n_0_1_1144 (m ((c : Thread nD τ).loc main_arg0))
            (Cert.Args.srcIdx (m ((c : Thread nD τ).loc main_arg1))))
          (broadcastInDim S400000x144 ![0, 1] bcast_S400000x1_S400000x144_0_1
            (broadcastInDim S400000x1 ![0] bcast_S400000_S400000x1_0 (m ((c : Thread nD τ).loc main_arg2))))) := by
  walk_back
  try rfl

/-- The relational weights region 0 reads: the argument's transpose. -/
theorem s1_wrel : (V1 (F := Ideal) m ρ c main_v17 : S144x256.Idx → EReal)
    = transpose S144x256 [1, 0] (m ((c : Thread nD τ).loc main_arg3)) transposes_S256x144_S144x256_1_0 := by
  walk_back
  try rfl

/-- The root weights region 0 reads: the argument's transpose. -/
theorem s1_wroot : (V1 (F := Ideal) m ρ c main_v18 : S144x256.Idx → EReal)
    = transpose S144x256 [1, 0] (m ((c : Thread nD τ).loc main_arg5)) transposes_S256x144_S144x256_1_0 := by
  walk_back
  try rfl

/-- The bias region 0 reads: the argument as a row. -/
theorem s1_bias : (V1 (F := Ideal) m ρ c main_v19 : S1x256.Idx → EReal)
    = shapeCast S1x256 (m ((c : Thread nD τ).loc main_arg4)) shapeCasts_S256_S1x256 := by
  walk_back
  try rfl

/-- The aggregate region 0 reads, entry by entry: the spec's aggregate of the node features. -/
theorem s1_agg_apply (n : Fin 50000) (k : Fin 144) :
    (V1 (F := Ideal) m ρ c main_v16 : S50000x144.Idx → EReal) (ix2 n k)
      = Cert.Spec.agg (Gr m c) (Pa m c).w (Pa m c).x n k := by
  rw [s1_agg]
  exact Cert.HostReads.aggregate_apply (N := 50000) (E := 400000) (C := 144) (by norm_num) (by norm_num)
    Facts₀.gather_S50000x144_S400000x1_S400000x144_1_0_n_n_0_1_1144_wf gather_S50000x144_S400000x1_S400000x144_1_0_n_n_0_1_1144 rfl
    Facts₀.scatter_S50000x144_S400000x1_S400000x144_1_0_0_1_wf scatter_S50000x144_S400000x1_S400000x144_1_0_0_1 rfl
    bcast_S_S50000x144 bcast_S400000_S400000x1_0 bcast_S400000x1_S400000x144_0_1
    (m ((c : Thread nD τ).loc main_arg0)) (Cert.Args.srcIdx (m ((c : Thread nD τ).loc main_arg1)))
    (Cert.Args.dstIdx (m ((c : Thread nD τ).loc main_arg1))) (m ((c : Thread nD τ).loc main_arg2)) n k

/-- THE FIRST LAYER: region 0's output is the rectified convolution of the node features, both products first and the bias last. -/
theorem s1 : cur2 (H1 m ρ c) = Cert.Spec.relu (Cert.Spec.convPost (Gr m c) (Pa m c).w (Pa m c).Wrel1 (Pa m c).b1 (Pa m c).Wroot1 (Pa m c).x) := by
  funext n o
  have hY : H1 m ρ c = Cert.KernelIdeal.Reg0.res (V1 m ρ) c := W2_arr m ρ c 5
  have hx : Cert.KernelIdeal.Reg0.feat (V1 m ρ) c = _ := s1_x m ρ c
  have hr : Cert.KernelIdeal.Reg0.wrel (V1 m ρ) c = _ := s1_wrel m ρ c
  have ht : Cert.KernelIdeal.Reg0.wroot (V1 m ρ) c = _ := s1_wroot m ρ c
  have hb : Cert.KernelIdeal.Reg0.bias (V1 m ρ) c = _ := s1_bias m ρ c
  have ha : ∀ k : Fin 144, Cert.KernelIdeal.Reg0.aggr (V1 m ρ) c (ix2 n k) = _ := fun k => s1_agg_apply m ρ c n k
  have er : ∀ k : Fin 144, transpose S144x256 [1, 0] (m ((c : Thread nD τ).loc main_arg3)) transposes_S256x144_S144x256_1_0 (ix2 k o)
      = m ((c : Thread nD τ).loc main_arg3) (ix2 o k) := fun k => Cert.HostReads.transpose2_apply _ _ k o
  have et : ∀ k : Fin 144, transpose S144x256 [1, 0] (m ((c : Thread nD τ).loc main_arg5)) transposes_S256x144_S144x256_1_0 (ix2 k o)
      = m ((c : Thread nD τ).loc main_arg5) (ix2 o k) := fun k => Cert.HostReads.transpose2_apply _ _ k o
  show H1 m ρ c (ix2 n o) = _
  rw [hY, Cert.KernelIdeal.Reg0.arrAt_apply, hx, hr, ht, hb, Cert.HostReads.rowReshape_apply]
  simp only [ha, er, et]
  rfl

end Cert.KernelIdeal.Chain

end
-- ==== Proof.Region1.lean ====
/-
  The second convolution's region: what its output array holds after the region, entry by entry.

  Each grid point loads 2000 rows of the node features and of the aggregated features and the whole of the two weight
  matrices and of the bias row, and stores, for its 2000 rows, the rectifier of
  (aggregated · relational weights + features · root weights) + bias.  The 25 points' row blocks tile the 50000 rows,
  so after the region the output array holds that formula of the input arrays at every entry.
-/
import proofs.«136480_j970662609200_2_alg».proof.Proof.Gen.KernelIdeal.Frame
import Idealize.ShloMosaic.Lib.ValueIdx
import Idealize.ShloMosaic.Lib.Pipeline.Value
import Idealize.ShloMosaic.PureOps.Ideal.Laws
import proofs.«136480_j970662609200_2_alg».proof.Proof.LibDot

noncomputable section

open scoped BigOperators

namespace Cert.KernelIdeal.Reg1

open Cert.KernelIdeal Cert.KernelIdeal.Gen Idealize.ShloMosaic Idealize.ShloMosaic.TcCoe Idealize.SL.Sem
open Idealize.ShloMosaic.ValueIdx
open Idealize.ShloMosaic.Pipeline (Dat)

/-! ## The stored value at an entry of the block -/

/-- The value a grid point stores, at row `p` and column `q` of its block: the two products' sums over the 256
    input features, the bias of column `q`, and the rectifier. -/
theorem pay_apply (x0 x1 : Vec Ideal S2000x256 .f32) (x2 x3 : Vec Ideal S256x512 .f32) (x4 : Vec Ideal S1x512 .f32)
    (p : Fin 2000) (q : Fin 512) :
    k1_pay1 (F := Ideal) x0 x1 x2 x3 x4 (ix2 p q)
      = max ((∑ k : Fin 256, x1 (ix2 p k) * x2 (ix2 k q) + ∑ k : Fin 256, x0 (ix2 p k) * x3 (ix2 k q))
          + x4 (ix2 0 q)) 0 := by
  unfold k1_pay1
  simp only [shapeCast_self]
  show max (((FloatOps.matmul (F := Ideal) dot_S2000x256_S256x512_S2000x512_1_0_0_1_n_n (some .fp32) x1 x2
        (constant S2000x512 .f32 0x00000000#32) (ix2 p q) : EReal)
      + (FloatOps.matmul (F := Ideal) dot_S2000x256_S256x512_S2000x512_1_0_0_1_n_n (some .fp32) x0 x3
        (constant S2000x512 .f32 0x00000000#32) (ix2 p q) : EReal))
      + (broadcastTo S2000x512 x4 broadcasts_S1x512_S2000x512 (ix2 p q) : EReal))
      (Ideal.ofBits .f32 0x00000000#32 : EReal) = _
  rw [Cert.LibDot.matmul_zero_plain (φ₁ := .f32) (φ₂ := .f32) dot_S2000x256_S256x512_S2000x512_1_0_0_1_n_n rfl
      (some .fp32) x1 x2 p q,
    Cert.LibDot.matmul_zero_plain (φ₁ := .f32) (φ₂ := .f32) dot_S2000x256_S256x512_S2000x512_1_0_0_1_n_n rfl
      (some .fp32) x0 x3 p q,
    Ideal.ofBits_zero_f32,
    broadcastTo_apply x4 broadcasts_S1x512_S2000x512 (ix2 p q) (ix2 0 q) (fun a => by
      match a with
      | ⟨0, _⟩ => rfl
      | ⟨1, _⟩ => rfl)]

/-! ## The index maps -/

theorem hz : (![0, 0] : Fin 2 → Nat) = fun _ => 0 := funext fun a => by fin_cases a <;> rfl

/-- The printed index maps, decided over the 25 grid points: the feature windows and the output window are at row
    block `t`, column block 0; the weight and bias windows are the whole arrays. -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = t.val ∧ win1_5.index t (1 : Fin 2) = 0) :=
  (by decide +kernel : ∀ t : Fin grid1.N, _)

/-! ## The input windows' blocks, read in the arrays -/

section Blocks
variable (V : (c : Dev nD) → (b : Ref sig .tc) → Buf (Elt Ideal) ((c : Thread nD τ).loc b))

/-- Row `p` of the node features' block at point `t` is row `2000 t + p` of the array. -/
theorem blk0_apply (c : Dev nD) (t : Fin cfg1.N) (p : Fin 2000) (k : Fin 256) (n : Fin 50000)
    (hn : n.val = t.val * 2000 + p.val) :
    (iblk1 V c 0 t : Vec Ideal S2000x256 .f32) (ix2 p k)
      = (V c (Pipeline.arrRef spec1 0) : S50000x256.Idx → EReal) (ix2 n k) := by
  obtain ⟨⟨e0, e1⟩, -⟩ := idx_facts t
  unfold iblk1
  rw [View.read_apply]
  show V c main_v20 _ = V c main_v20 _
  refine congrArg _ ?_
  funext a
  apply Fin.ext
  match a with
  | ⟨0, _⟩ => show win1_0.index t (0 : Fin 2) * 2000 + 1 * p.val = n.val; omega
  | ⟨1, _⟩ => show win1_0.index t (1 : Fin 2) * 256 + 1 * k.val = k.val; omega

/-- Row `p` of the aggregated features' block at point `t` is row `2000 t + p` of the array. -/
theorem blk1_apply (c : Dev nD) (t : Fin cfg1.N) (p : Fin 2000) (k : Fin 256) (n : Fin 50000)
    (hn : n.val = t.val * 2000 + p.val) :
    (iblk1 V c 1 t : Vec Ideal S2000x256 .f32) (ix2 p k)
      = (V c (Pipeline.arrRef spec1 1) : S50000x256.Idx → EReal) (ix2 n k) := by
  obtain ⟨-, ⟨e0, e1⟩, -⟩ := idx_facts t
  unfold iblk1
  rw [View.read_apply]
  show V c main_v33 _ = V c main_v33 _
  refine congrArg _ ?_
  funext a
  apply Fin.ext
  match a with
  | ⟨0, _⟩ => show win1_1.index t (0 : Fin 2) * 2000 + 1 * p.val = n.val; omega
  | ⟨1, _⟩ => show win1_1.index t (1 : Fin 2) * 256 + 1 * k.val = k.val; omega

/-- The relational weights' block at every point is the whole array. -/
theorem blk2_apply (c : Dev nD) (t : Fin cfg1.N) (k : Fin 256) (q : Fin 512) :
    (iblk1 V c 2 t : Vec Ideal S256x512 .f32) (ix2 k q)
      = (V c (Pipeline.arrRef spec1 2) : S256x512.Idx → EReal) (ix2 k q) := by
  obtain ⟨-, -, ⟨e0, e1⟩, -⟩ := idx_facts t
  unfold iblk1
  rw [View.read_apply]
  show V c main_v34 _ = V c main_v34 _
  refine congrArg _ ?_
  funext a
  apply Fin.ext
  match a with
  | ⟨0, _⟩ => show win1_2.index t (0 : Fin 2) * 256 + 1 * k.val = k.val; omega
  | ⟨1, _⟩ => show win1_2.index t (1 : Fin 2) * 512 + 1 * q.val = q.val; omega

/-- The root weights' block at every point is the whole array. -/
theorem blk3_apply (c : Dev nD) (t : Fin cfg1.N) (k : Fin 256) (q : Fin 512) :
    (iblk1 V c 3 t : Vec Ideal S256x512 .f32) (ix2 k q)
      = (V c (Pipeline.arrRef spec1 3) : S256x512.Idx → EReal) (ix2 k q) := by
  obtain ⟨-, -, -, ⟨e0, e1⟩, -⟩ := idx_facts t
  unfold iblk1
  rw [View.read_apply]
  show V c main_v35 _ = V c main_v35 _
  refine congrArg _ ?_
  funext a
  apply Fin.ext
  match a with
  | ⟨0, _⟩ => show win1_3.index t (0 : Fin 2) * 256 + 1 * k.val = k.val; omega
  | ⟨1, _⟩ => show win1_3.index t (1 : Fin 2) * 512 + 1 * q.val = q.val; omega

/-- The bias row's block at every point is the whole row. -/
theorem blk4_apply (c : Dev nD) (t : Fin cfg1.N) (q : Fin 512) :
    (iblk1 V c 4 t : Vec Ideal S1x512 .f32) (ix2 0 q)
      = (V c (Pipeline.arrRef spec1 4) : S1x512.Idx → EReal) (ix2 0 q) := by
  obtain ⟨-, -, -, -, ⟨e0, e1⟩, -⟩ := idx_facts t
  unfold iblk1
  rw [View.read_apply]
  show V c main_v36 _ = V c main_v36 _
  refine congrArg _ ?_
  funext a
  apply Fin.ext
  match a with
  | ⟨0, _⟩ => show win1_4.index t (0 : Fin 2) * 1 + 1 * (0 : Fin 1).val = (0 : Fin 1).val; omega
  | ⟨1, _⟩ => show win1_4.index t (1 : Fin 2) * 512 + 1 * q.val = q.val; omega

/-! ## From the blocks to the array -/

/-- The convolution and rectifier as one function of the five input arrays, entry by entry. -/
def conv (a0 a1 : S50000x256.Idx → EReal) (a2 a3 : S256x512.Idx → EReal) (a4 : S1x512.Idx → EReal)
    (n : Fin 50000) (o : Fin 512) : EReal :=
  max ((∑ k : Fin 256, a1 (ix2 n k) * a2 (ix2 k o) + ∑ k : Fin 256, a0 (ix2 n k) * a3 (ix2 k o)) + a4 (ix2 0 o)) 0

/-- The formula, spelt out. -/
theorem conv_eq (a0 a1 : S50000x256.Idx → EReal) (a2 a3 : S256x512.Idx → EReal) (a4 : S1x512.Idx → EReal)
    (n : Fin 50000) (o : Fin 512) :
    conv a0 a1 a2 a3 a4 n o
      = max ((∑ k : Fin 256, a1 (ix2 n k) * a2 (ix2 k o) + ∑ k : Fin 256, a0 (ix2 n k) * a3 (ix2 k o))
          + a4 (ix2 0 o)) 0 := rfl

/-- The same as a whole array. -/
def convArr (a0 a1 : S50000x256.Idx → EReal) (a2 a3 : S256x512.Idx → EReal) (a4 : S1x512.Idx → EReal) :
    S50000x512.Idx → EReal := fun i => conv a0 a1 a2 a3 a4 (i 0) (i 1)

theorem N1 : cfg1.N = 25 := by decide +kernel

/-- WHAT POINT `t` WRITES BACK is rows `2000 t … 2000 t + 1999` of the convolution of the input arrays. -/
theorem flushed_eq (c : Dev nD) (t : Fin cfg1.N) :
    (dat1 V c).flushed 5 t = ((cfg1.win 5).blk t).view.read (Elt Ideal)
      (convArr (V c (Pipeline.arrRef spec1 0)) (V c (Pipeline.arrRef spec1 1)) (V c (Pipeline.arrRef spec1 2))
        (V c (Pipeline.arrRef spec1 3)) (V c (Pipeline.arrRef spec1 4))) := by
  show (cfg1.win 5).cut (grid1.coords t) ((dat1 V c).after 5 t) = _
  rw [after1_5]
  unfold out1_5
  rw [View.canon_unit_zero hz]
  simp only [View.ld_unit_zero (S := S2000x256) hz, View.ld_unit_zero (S := S256x512) hz,
    View.ld_unit_zero (S := S1x512) hz]
  funext j
  obtain ⟨p, q, rfl⟩ : ∃ (p : Fin 2000) (q : Fin 512), j = ix2 p q := ⟨j 0, j 1, eq_ix2 j⟩
  obtain ⟨-, -, -, -, -, e0, e1⟩ := idx_facts t
  have hn : t.val * 2000 + p.val < 50000 := by
    have h1 : t.val < 25 := lt_of_lt_of_eq t.isLt N1
    have h2 := p.isLt; omega
  have hemb : ((cfg1.win 5).blk t).view.emb (ix2 p q) = ix2 (⟨t.val * 2000 + p.val, hn⟩ : Fin 50000) q := by
    funext a
    apply Fin.ext
    match a with
    | ⟨0, _⟩ => show win1_5.index t (0 : Fin 2) * 2000 + 1 * p.val = t.val * 2000 + p.val; omega
    | ⟨1, _⟩ => show win1_5.index t (1 : Fin 2) * 512 + 1 * q.val = q.val; omega
  show k1_pay1 (F := Ideal) (iblk1 V c 0 t) (iblk1 V c 1 t) (iblk1 V c 2 t) (iblk1 V c 3 t) (iblk1 V c 4 t) (ix2 p q)
    = convArr (V c (Pipeline.arrRef spec1 0)) (V c (Pipeline.arrRef spec1 1)) (V c (Pipeline.arrRef spec1 2))
        (V c (Pipeline.arrRef spec1 3)) (V c (Pipeline.arrRef spec1 4)) (((cfg1.win 5).blk t).view.emb (ix2 p q))
  rw [hemb]
  refine (pay_apply (iblk1 V c 0 t) (iblk1 V c 1 t) (iblk1 V c 2 t) (iblk1 V c 3 t) (iblk1 V c 4 t) p q).trans ?_
  simp only [blk0_apply V c t p _ ⟨_, hn⟩ rfl, blk1_apply V c t p _ ⟨_, hn⟩ rfl, blk2_apply V c t, blk3_apply V c t,
    blk4_apply V c t]
  rfl

/-- An entry of the output array is in point `t`'s block iff each coordinate is in the block's range on its axis. -/
theorem mem_blk (t : Fin cfg1.N) (i : S50000x512.Idx) :
    i ∈ ((cfg1.win 5).blk t).view.set ↔ ∀ a : Fin 2, win1_5.index t a * S2000x512.size a ≤ (i a).val
      ∧ (i a).val < win1_5.index t a * S2000x512.size a + S2000x512.size a := by
  show i ∈ ((View.whole main_v37).slice (win1_5.rect t)).set ↔ _
  rw [View.set_slice_whole, Rect.mem_set_unit]
  exact Iff.rfl

/-- Every entry of the output array is in some point's block: row `r` is in the block of point `r / 2000`. -/
theorem cover (i : S50000x512.Idx) :
    ∃ t : Fin cfg1.N, (cfg1.win 5).flush t = true ∧ i ∈ ((cfg1.win 5).blk t).view.set := by
  have hi0 : (i 0).val < 50000 := (i 0).isLt
  have hi1 : (i 1).val < 512 := (i 1).isLt
  have ht : (i 0).val / 2000 < cfg1.N := by rw [N1]; omega
  obtain ⟨-, -, -, -, -, e0, e1⟩ := idx_facts ⟨(i 0).val / 2000, ht⟩
  refine ⟨⟨(i 0).val / 2000, ht⟩, flush1_5 _, ?_⟩
  rw [mem_blk]
  intro a
  match a with
  | ⟨0, _⟩ =>
    show win1_5.index ⟨(i 0).val / 2000, ht⟩ (0 : Fin 2) * 2000 ≤ (i 0).val
      ∧ (i 0).val < win1_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win1_5.index ⟨(i 0).val / 2000, ht⟩ (1 : Fin 2) * 512 ≤ (i 1).val
      ∧ (i 1).val < win1_5.index ⟨(i 0).val / 2000, ht⟩ (1 : Fin 2) * 512 + 512
    rw [e1]; omega

/-- THE OUTPUT ARRAY AFTER THE REGION is the convolution of the input arrays as the region finds them. -/
theorem final (c : Dev nD) :
    (dat1 V c).arrAt 5 cfg1.N
      = convArr (V c (Pipeline.arrRef spec1 0)) (V c (Pipeline.arrRef spec1 1)) (V c (Pipeline.arrRef spec1 2))
        (V c (Pipeline.arrRef spec1 3)) (V c (Pipeline.arrRef spec1 4)) :=
  (dat1 V c).arrAt_eq_of_cover 5 _ (fun t _ => flushed_eq V c t) cover

/-- The same, at an entry: row `n`, output feature `o`. -/
theorem final_apply (c : Dev nD) (n : Fin 50000) (o : Fin 512) :
    (dat1 (F := Ideal) V c).arrAt 5 cfg1.N (ix2 n o)
      = conv (V c (Pipeline.arrRef spec1 0)) (V c (Pipeline.arrRef spec1 1)) (V c (Pipeline.arrRef spec1 2))
          (V c (Pipeline.arrRef spec1 3)) (V c (Pipeline.arrRef spec1 4)) n o := by
  rw [final V c]
  rfl

/-- The whole-array form at an entry. -/
theorem convArr_apply (a0 a1 : S50000x256.Idx → EReal) (a2 a3 : S256x512.Idx → EReal) (a4 : S1x512.Idx → EReal)
    (n : Fin 50000) (o : Fin 512) :
    convArr a0 a1 a2 a3 a4 (ix2 n o)
      = max ((∑ k : Fin 256, a1 (ix2 n k) * a2 (ix2 k o) + ∑ k : Fin 256, a0 (ix2 n k) * a3 (ix2 k o))
          + a4 (ix2 0 o)) 0 := rfl

/-- The node features as the region finds them, at their literal type. -/
abbrev feat (c : Dev nD) : S50000x256.Idx → EReal := V c (Pipeline.arrRef spec1 0)
/-- The aggregated features as the region finds them, at their literal type. -/
abbrev aggr (c : Dev nD) : S50000x256.Idx → EReal := V c (Pipeline.arrRef spec1 1)
/-- The relational weights (input feature first) as the region finds them, at their literal type. -/
abbrev wrel (c : Dev nD) : S256x512.Idx → EReal := V c (Pipeline.arrRef spec1 2)
/-- The root weights (input feature first) as the region finds them, at their literal type. -/
abbrev wroot (c : Dev nD) : S256x512.Idx → EReal := V c (Pipeline.arrRef spec1 3)
/-- The bias row as the region finds it, at its literal type. -/
abbrev bias (c : Dev nD) : S1x512.Idx → EReal := V c (Pipeline.arrRef spec1 4)
/-- The output array after the region, at its literal type. -/
abbrev res (c : Dev nD) : S50000x512.Idx → EReal := (dat1 (F := Ideal) V c).arrAt 5 cfg1.N

/-- THE OUTPUT ARRAY AFTER THE REGION AT AN ENTRY: the rectifier of the aggregated row times the relational column
    plus the feature row times the root column plus the bias. -/
theorem arrAt_apply (c : Dev nD) (n : Fin 50000) (o : Fin 512) :
    res V c (ix2 n o)
      = max ((∑ k : Fin 256, aggr V c (ix2 n k) * wrel V c (ix2 k o)
          + ∑ k : Fin 256, feat V c (ix2 n k) * wroot V c (ix2 k o)) + bias V c (ix2 0 o)) 0 :=
  congrFun (final V c) (ix2 n o)

end Blocks

end Cert.KernelIdeal.Reg1

end
-- ==== Proof.Stage2.lean ====
/-
  The second layer: region 1 on the first layer's activations and their aggregate.

  The host operations before the region aggregate the first layer's activations over the edges exactly as the first
  layer's features were, transpose the two weight matrices and reshape the bias; the region multiplies, adds and rectifies.
-/
import proofs.«136480_j970662609200_2_alg».proof.Proof.ChainBase
import proofs.«136480_j970662609200_2_alg».proof.Proof.Region1

set_option maxRecDepth 16384

noncomputable section

open scoped BigOperators

namespace Cert.KernelIdeal.Chain

open Cert.KernelIdeal Cert.KernelIdeal.Gen
open Idealize.ShloMosaic Idealize.ShloMosaic.TcCoe Idealize.ShloMosaic.StableHlo Idealize.ShloMosaic.ValueIdx
open Idealize.SL.Sem

variable (m : (ℓ : Loc nD τ sig) → Buf (Elt Ideal) ℓ) (ρ : Dev nD → PrngReg) (c : Dev nD)

/-- Region 1 reads the first layer's activations as region 0 left them. -/
theorem s2_x : (V3 (F := Ideal) m ρ c main_v20 : S50000x256.Idx → EReal)
    = H1 m ρ c := by
  walk_back
  try rfl

/-- The aggregate region 1 reads: the operations' term over the first layer's activations and the arguments. -/
theorem s2_agg : (V3 (F := Ideal) m ρ c main_v33 : S50000x256.Idx → EReal)
    = Host.scatterAdd (F := Ideal) scatter_S50000x256_S400000x1_S400000x256_1_0_0_1
        (broadcastInDim S50000x256 ![] bcast_S_S50000x256 (constant (F := Ideal) S_ .f32 0x00000000#32))
        (Cert.Args.dstIdx (m ((c : Thread nD τ).loc main_arg1)))
        (mulf (Host.gather gather_S50000x256_S400000x1_S400000x256_1_0_n_n_0_1_1256 (H1 m ρ c)
            (Cert.Args.srcIdx (m ((c : Thread nD τ).loc main_arg1))))
          (broadcastInDim S400000x256 ![0, 1] bcast_S400000x1_S400000x256_0_1
            (broadcastInDim S400000x1 ![0] bcast_S400000_S400000x1_0 (m ((c : Thread nD τ).loc main_arg2))))) := by
  walk_back
  try rfl

/-- The relational weights region 1 reads: the argument's transpose. -/
theorem s2_wrel : (V3 (F := Ideal) m ρ c main_v34 : S256x512.Idx → EReal)
    = transpose S256x512 [1, 0] (m ((c : Thread nD τ).loc main_arg6)) transposes_S512x256_S256x512_1_0 := by
  walk_back
  try rfl

/-- The root weights region 1 reads: the argument's transpose. -/
theorem s2_wroot : (V3 (F := Ideal) m ρ c main_v35 : S256x512.Idx → EReal)
    = transpose S256x512 [1, 0] (m ((c : Thread nD τ).loc main_arg8)) transposes_S512x256_S256x512_1_0 := by
  walk_back
  try rfl

/-- The bias region 1 reads: the argument as a row. -/
theorem s2_bias : (V3 (F := Ideal) m ρ c main_v36 : S1x512.Idx → EReal)
    = shapeCast S1x512 (m ((c : Thread nD τ).loc main_arg7)) shapeCasts_S512_S1x512 := by
  walk_back
  try rfl

/-- The aggregate region 1 reads, entry by entry: the spec's aggregate of the first layer's activations. -/
theorem s2_agg_apply (n : Fin 50000) (k : Fin 256) :
    (V3 (F := Ideal) m ρ c main_v33 : S50000x256.Idx → EReal) (ix2 n k)
      = Cert.Spec.agg (Gr m c) (Pa m c).w (cur2 (H1 m ρ c)) n k := by
  rw [s2_agg]
  exact Cert.HostReads.aggregate_apply (N := 50000) (E := 400000) (C := 256) (by norm_num) (by norm_num)
    Facts₀.gather_S50000x256_S400000x1_S400000x256_1_0_n_n_0_1_1256_wf gather_S50000x256_S400000x1_S400000x256_1_0_n_n_0_1_1256 rfl
    Facts₀.scatter_S50000x256_S400000x1_S400000x256_1_0_0_1_wf scatter_S50000x256_S400000x1_S400000x256_1_0_0_1 rfl
    bcast_S_S50000x256 bcast_S400000_S400000x1_0 bcast_S400000x1_S400000x256_0_1
    (H1 m ρ c) (Cert.Args.srcIdx (m ((c : Thread nD τ).loc main_arg1)))
    (Cert.Args.dstIdx (m ((c : Thread nD τ).loc main_arg1))) (m ((c : Thread nD τ).loc main_arg2)) n k

/-- THE SECOND LAYER: region 1's output is the rectified convolution of the first layer's activations, both products first
    and the bias last. -/
theorem s2 : cur2 (H2 m ρ c) = Cert.Spec.relu (Cert.Spec.convPost (Gr m c) (Pa m c).w (Pa m c).Wrel2 (Pa m c).b2 (Pa m c).Wroot2 (cur2 (H1 m ρ c))) := by
  funext n o
  have hY : H2 m ρ c = Cert.KernelIdeal.Reg1.res (V3 m ρ) c := W4_arr m ρ c 5
  have hx : Cert.KernelIdeal.Reg1.feat (V3 m ρ) c = _ := s2_x m ρ c
  have hr : Cert.KernelIdeal.Reg1.wrel (V3 m ρ) c = _ := s2_wrel m ρ c
  have ht : Cert.KernelIdeal.Reg1.wroot (V3 m ρ) c = _ := s2_wroot m ρ c
  have hb : Cert.KernelIdeal.Reg1.bias (V3 m ρ) c = _ := s2_bias m ρ c
  have ha : ∀ k : Fin 256, Cert.KernelIdeal.Reg1.aggr (V3 m ρ) c (ix2 n k) = _ := fun k => s2_agg_apply m ρ c n k
  have er : ∀ k : Fin 256, transpose S256x512 [1, 0] (m ((c : Thread nD τ).loc main_arg6)) transposes_S512x256_S256x512_1_0 (ix2 k o)
      = m ((c : Thread nD τ).loc main_arg6) (ix2 o k) := fun k => Cert.HostReads.transpose2_apply _ _ k o
  have et : ∀ k : Fin 256, transpose S256x512 [1, 0] (m ((c : Thread nD τ).loc main_arg8)) transposes_S512x256_S256x512_1_0 (ix2 k o)
      = m ((c : Thread nD τ).loc main_arg8) (ix2 o k) := fun k => Cert.HostReads.transpose2_apply _ _ k o
  show H2 m ρ c (ix2 n o) = _
  rw [hY, Cert.KernelIdeal.Reg1.arrAt_apply, hx, hr, ht, hb, Cert.HostReads.rowReshape_apply]
  simp only [ha, er, et]
  rfl

end Cert.KernelIdeal.Chain

end
-- ==== Proof.Region2.lean ====
/-
  Region 2: the array the region's output window ends holding, as one function of the arrays the region finds, entry
  by entry. Each grid point multiplies its block of rows by the whole weight matrix; the row blocks tile the node axis,
  so the output array is the matrix product of the two input arrays.
-/
import proofs.«136480_j970662609200_2_alg».proof.Proof.Gen.KernelIdeal.Frame
import Idealize.ShloMosaic.Lib.ValueIdx
import Idealize.ShloMosaic.Lib.Pipeline.Value
import Idealize.ShloMosaic.PureOps.Ideal.Laws
import proofs.«136480_j970662609200_2_alg».proof.Proof.LibDot

noncomputable section

open Idealize.ShloMosaic Idealize.ShloMosaic.TcCoe Idealize.SL.Sem
open Idealize.ShloMosaic.Pipeline (Dat)
open Idealize.ShloMosaic.ValueIdx
open scoped BigOperators

namespace Cert.KernelIdeal.Reg2

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's payload at entry (p, q): row p of the activations' block times column q of the weights. -/
theorem pay_apply (x0 : Vec Ideal S2000x512 .f32) (x1 : Vec Ideal S512x256 .f32) (p : Fin 2000) (q : Fin 256) :
    k2_pay1 (F := Ideal) x0 x1 (ix2 p q) = ∑ k : Fin 512, x0 (ix2 p k) * x1 (ix2 k q) := by
  unfold k2_pay1
  simp only [shapeCast_self]
  exact Cert.LibDot.matmul_zero_plain _ rfl _ x0 x1 p q

/-- The matrix product of an activations array and a weights array, entry by entry. -/
def prod (A : S50000x512.Idx → Elt Ideal .f32) (W : S512x256.Idx → Elt Ideal .f32) : S50000x256.Idx → Elt Ideal .f32 :=
  fun i => ∑ k : Fin 512, A (ix2 (i 0) k) * W (ix2 k (i 1))

/-- The printed index maps over the grid: point t's activation and output blocks are block row t, the weights' block
    is the whole array. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The activations' block at point t is rows 2000 t … 2000 t + 1999 of the activations array. -/
theorem act_blk_apply (c : Dev nD) (t : Fin cfg2.N) (x : S2000x512.Idx) (i : S50000x512.Idx)
    (h0 : (i 0).val = t.val * 2000 + (x 0).val) (h1 : (i 1).val = (x 1).val) :
    (iblk2 V c 0 t : Vec Ideal S2000x512 .f32) x = (V c (Pipeline.arrRef spec2 0) : S50000x512.Idx → Elt Ideal .f32) i := by
  obtain ⟨e0, e1, -, -, -, -⟩ := idx_facts t
  unfold iblk2
  rw [View.read_apply]
  refine congrArg (V c (Pipeline.arrRef spec2 0) : S50000x512.Idx → Elt Ideal .f32) (funext fun a => Fin.ext ?_)
  match a with
  | ⟨0, _⟩ => show win2_0.index t (0 : Fin 2) * 2000 + 1 * (x 0).val = (i 0).val; rw [e0, h0]; omega
  | ⟨1, _⟩ => show win2_0.index t (1 : Fin 2) * 512 + 1 * (x 1).val = (i 1).val; rw [e1, h1]; omega

/-- The weights' block at every point is the weights array. -/
theorem wgt_blk_apply (c : Dev nD) (t : Fin cfg2.N) (x : S512x256.Idx) :
    (iblk2 V c 1 t : Vec Ideal S512x256 .f32) x = (V c (Pipeline.arrRef spec2 1) : S512x256.Idx → Elt Ideal .f32) x := by
  obtain ⟨-, -, e0, e1, -, -⟩ := idx_facts t
  unfold iblk2
  rw [View.read_apply]
  refine congrArg (V c (Pipeline.arrRef spec2 1) : S512x256.Idx → Elt Ideal .f32) (funext fun a => Fin.ext ?_)
  match a with
  | ⟨0, _⟩ => show win2_1.index t (0 : Fin 2) * 512 + 1 * (x 0).val = (x 0).val; rw [e0]; omega
  | ⟨1, _⟩ => show win2_1.index t (1 : Fin 2) * 256 + 1 * (x 1).val = (x 1).val; rw [e1]; omega

theorem flushed_eq (c : Dev nD) (t : Fin cfg2.N) :
    (dat2 (F := Ideal) V c).flushed 2 t = ((cfg2.win 2).blk t).view.read (Elt Ideal) (prod (V c (Pipeline.arrRef spec2 0)) (V c (Pipeline.arrRef spec2 1))) := by
  show (cfg2.win 2).cut (grid2.coords t) ((dat2 V c).after 2 t) = _
  rw [after2_2]
  unfold out2_2
  rw [View.canon_unit_zero hz]
  simp only [View.ld_unit_zero (S := S2000x512) hz, View.ld_unit_zero (S := S512x256) hz]
  obtain ⟨-, -, -, -, e0, e1⟩ := idx_facts t
  funext j
  show k2_pay1 (F := Ideal) (iblk2 V c 0 t) (iblk2 V c 1 t) j = prod (V c (Pipeline.arrRef spec2 0)) (V c (Pipeline.arrRef spec2 1)) (((cfg2.win 2).blk t).view.emb j)
  refine (congrArg (k2_pay1 (F := Ideal) (iblk2 V c 0 t) (iblk2 V c 1 t)) (eq_ix2 j)).trans ?_
  refine (pay_apply (iblk2 V c 0 t) (iblk2 V c 1 t) (j 0) (j 1)).trans ?_
  unfold prod
  refine Finset.sum_congr rfl fun k _ => ?_
  have ha : (iblk2 V c 0 t : Vec Ideal S2000x512 .f32) (ix2 (j 0) k)
      = (V c (Pipeline.arrRef spec2 0) : S50000x512.Idx → Elt Ideal .f32) (ix2 (((cfg2.win 2).blk t).view.emb j 0) k) := by
    refine act_blk_apply V c t _ _ ?_ rfl
    show win2_2.index t (0 : Fin 2) * 2000 + 1 * (j 0).val = t.val * 2000 + (j 0).val
    rw [e0]; omega
  have hb : (iblk2 V c 1 t : Vec Ideal S512x256 .f32) (ix2 k (j 1))
      = (V c (Pipeline.arrRef spec2 1) : S512x256.Idx → Elt Ideal .f32) (ix2 k (((cfg2.win 2).blk t).view.emb j 1)) := by
    refine (wgt_blk_apply V c t _).trans (congrArg (V c (Pipeline.arrRef spec2 1) : S512x256.Idx → Elt Ideal .f32) ?_)
    refine congrArg (ix2 k) (Fin.ext ?_)
    show (j 1).val = win2_2.index t (1 : Fin 2) * 256 + 1 * (j 1).val
    rw [e1]; omega
  exact congr (congrArg _ ha) hb

/-- An index of the output array is in point t's block iff each coordinate is in the block's range on its axis. -/
theorem mem_blk (t : Fin cfg2.N) (i : S50000x256.Idx) :
    i ∈ ((cfg2.win 2).blk t).view.set ↔ ∀ a : Fin 2, win2_2.index t a * S2000x256.size a ≤ (i a).val ∧ (i a).val < win2_2.index t a * S2000x256.size a + S2000x256.size a := by
  show i ∈ ((View.whole main_v39).slice (win2_2.rect t)).set ↔ _
  rw [View.set_slice_whole, Rect.mem_set_unit]
  exact Iff.rfl

/-- Every entry of the output array is in the block of the point its row falls in. -/
theorem covered (i : S50000x256.Idx) :
    ∃ t : Fin cfg2.N, (cfg2.win 2).flush t = true ∧ i ∈ ((cfg2.win 2).blk t).view.set := by
  have hi0 : (i 0).val < 50000 := (i 0).isLt
  have hi1 : (i 1).val < 256 := (i 1).isLt
  have hN : cfg2.N = 25 := N_2
  let t : Fin cfg2.N := ⟨(i 0).val / 2000, by rw [hN]; omega⟩
  obtain ⟨-, -, -, -, e0, e1⟩ := idx_facts t
  have ht : t.val = (i 0).val / 2000 := rfl
  refine ⟨t, flush2_2 t, ?_⟩
  rw [mem_blk]
  intro a
  match a with
  | ⟨0, _⟩ => show win2_2.index t (0 : Fin 2) * 2000 ≤ (i 0).val ∧ (i 0).val < win2_2.index t (0 : Fin 2) * 2000 + 2000; rw [e0, ht]; omega
  | ⟨1, _⟩ => show win2_2.index t (1 : Fin 2) * 256 ≤ (i 1).val ∧ (i 1).val < win2_2.index t (1 : Fin 2) * 256 + 256; rw [e1]; omega

/-- The output array after the region is the matrix product of the activations and the weights as the region finds them. -/
theorem final (c : Dev nD) :
    (dat2 (F := Ideal) V c).arrAt 2 cfg2.N = prod (V c (Pipeline.arrRef spec2 0)) (V c (Pipeline.arrRef spec2 1)) :=
  (dat2 (F := Ideal) V c).arrAt_eq_of_cover 2 (prod (V c (Pipeline.arrRef spec2 0)) (V c (Pipeline.arrRef spec2 1)))
    (fun t _ => flushed_eq V c t) covered

/-- The product at an entry. -/
theorem prod_apply (A : S50000x512.Idx → Elt Ideal .f32) (W : S512x256.Idx → Elt Ideal .f32) (n : Fin 50000) (o : Fin 256) :
    prod A W (ix2 n o) = ∑ k : Fin 512, A (ix2 n k) * W (ix2 k o) := rfl

/-- The activations array as the region finds it, at its literal type. -/
abbrev act (c : Dev nD) : S50000x512.Idx → EReal := V c (Pipeline.arrRef spec2 0)
/-- The weights array as the region finds it, at its literal type. -/
abbrev wgt (c : Dev nD) : S512x256.Idx → EReal := V c (Pipeline.arrRef spec2 1)
/-- The output array after the region, at its literal type. -/
abbrev res (c : Dev nD) : S50000x256.Idx → EReal := (dat2 (F := Ideal) V c).arrAt 2 cfg2.N

/-- The output array after the region at an entry: row n of the activations times column o of the weights. -/
theorem arrAt_apply (c : Dev nD) (n : Fin 50000) (o : Fin 256) :
    res V c (ix2 n o) = ∑ k : Fin 512, act V c (ix2 n k) * wgt V c (ix2 k o) :=
  congrFun (final V c) (ix2 n o)

end Cert.KernelIdeal.Reg2

end
-- ==== Proof.Stage3a.lean ====
/-
  The third layer's relational weights, applied before the aggregation: region 2 multiplies the second layer's
  activations by the transposed weight matrix, so its output is the activations times the weights' transpose.
-/
import proofs.«136480_j970662609200_2_alg».proof.Proof.ChainBase
import proofs.«136480_j970662609200_2_alg».proof.Proof.Region2

set_option maxRecDepth 16384

noncomputable section

namespace Cert.KernelIdeal.Chain

open Cert.KernelIdeal Cert.KernelIdeal.Gen
open Idealize.ShloMosaic Idealize.ShloMosaic.TcCoe Idealize.ShloMosaic.StableHlo Idealize.ShloMosaic.ValueIdx
open Idealize.SL.Sem

variable (m : (ℓ : Loc nD τ sig) → Buf (Elt Ideal) ℓ) (ρ : Dev nD → PrngReg) (c : Dev nD)

/-- Region 2 reads the second layer's activations as region 1 left them. -/
theorem s3a_act : (V5 (F := Ideal) m ρ c main_v37 : S50000x512.Idx → EReal) = H2 m ρ c := by
  walk_back

/-- Region 2's weights are the transpose of the third layer's relational weights. -/
theorem s3a_wgt : (V5 (F := Ideal) m ρ c main_v38 : S512x256.Idx → EReal)
    = transpose S512x256 [1, 0] (m ((c : Thread nD τ).loc main_arg9)) transposes_S256x512_S512x256_1_0 := by
  walk_back

/-- The features the third layer aggregates: the second layer's activations times the relational weights' transpose. -/
theorem s3a : cur2 (Y3 m ρ c) = Cert.Spec.lin (Pa m c).Wrel3 (cur2 (H2 m ρ c)) := by
  funext n o
  have hY : Y3 m ρ c = Cert.KernelIdeal.Reg2.res (V5 m ρ) c := W6_arr m ρ c 2
  have ha : Cert.KernelIdeal.Reg2.act (V5 m ρ) c = H2 m ρ c := s3a_act m ρ c
  have hw : Cert.KernelIdeal.Reg2.wgt (V5 m ρ) c
      = transpose S512x256 [1, 0] (m ((c : Thread nD τ).loc main_arg9)) transposes_S256x512_S512x256_1_0 := s3a_wgt m ρ c
  show Y3 m ρ c (ix2 n o) = _
  rw [hY, Cert.KernelIdeal.Reg2.arrAt_apply, ha, hw]
  refine Finset.sum_congr rfl fun k _ => ?_
  rw [Cert.HostReads.transpose2_apply]
  rfl

end Cert.KernelIdeal.Chain

end
-- ==== Proof.Region3.lean ====
/-
  Region 3: the array the region's output window ends holding, as one function of the arrays the region finds, entry
  by entry. Each grid point adds, to its block of rows of the aggregated array, its block of rows of the activations
  times the whole weight matrix, and then the bias row; the row blocks tile the node axis, so the output array is the
  aggregated array plus the matrix product plus the bias broadcast along the rows.
-/
import proofs.«136480_j970662609200_2_alg».proof.Proof.Gen.KernelIdeal.Frame
import Idealize.ShloMosaic.Lib.ValueIdx
import Idealize.ShloMosaic.Lib.Pipeline.Value
import Idealize.ShloMosaic.PureOps.Ideal.Laws
import proofs.«136480_j970662609200_2_alg».proof.Proof.LibDot

noncomputable section

open Idealize.ShloMosaic Idealize.ShloMosaic.TcCoe Idealize.SL.Sem
open Idealize.ShloMosaic.Pipeline (Dat)
open Idealize.ShloMosaic.ValueIdx
open scoped BigOperators

namespace Cert.KernelIdeal.Reg3

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's payload at entry (p, q): the aggregated block's entry, plus row p of the activations' block times
    column q of the weights, plus the bias at column q. -/
theorem pay_apply (x0 : Vec Ideal S2000x256 .f32) (x1 : Vec Ideal S2000x512 .f32) (x2 : Vec Ideal S512x256 .f32)
    (x3 : Vec Ideal S1x256 .f32) (p : Fin 2000) (q : Fin 256) :
    k3_pay1 (F := Ideal) x0 x1 x2 x3 (ix2 p q)
      = (x0 (ix2 p q) + ∑ k : Fin 512, x1 (ix2 p k) * x2 (ix2 k q)) + x3 (ix2 0 q) := by
  have hm := Cert.LibDot.matmul_zero_plain (φ₁ := .f32) (φ₂ := .f32) dot_S2000x512_S512x256_S2000x256_1_0_0_1_n_n rfl (some .fp32) x1 x2 p q
  have hb : broadcastTo S2000x256 x3 broadcasts_S1x256_S2000x256 (ix2 p q) = x3 (ix2 0 q) :=
    broadcastTo_apply x3 broadcasts_S1x256_S2000x256 (ix2 p q) (ix2 0 q)
      (fun a => by match a with | ⟨0, _⟩ => rfl | ⟨1, _⟩ => rfl)
  unfold k3_pay1
  simp only [shapeCast_self]
  exact congr (congrArg HAdd.hAdd (congrArg (HAdd.hAdd (x0 (ix2 p q))) hm)) hb

/-- The aggregated array plus the matrix product of the activations and the weights plus the bias row, entry by entry. -/
def affine (Agg : S50000x256.Idx → Elt Ideal .f32) (A : S50000x512.Idx → Elt Ideal .f32)
    (W : S512x256.Idx → Elt Ideal .f32) (B : S1x256.Idx → Elt Ideal .f32) : S50000x256.Idx → Elt Ideal .f32 :=
  fun i => (Agg i + ∑ k : Fin 512, A (ix2 (i 0) k) * W (ix2 k (i 1))) + B (ix2 0 (i 1))

/-- The printed index maps over the grid: point t's aggregated, activation and output blocks are block row t, the
    weights' and the bias's block is the whole array. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The aggregated array's block at point t is its rows 2000 t … 2000 t + 1999. -/
theorem agg_blk_apply (c : Dev nD) (t : Fin cfg3.N) (x : S2000x256.Idx) (i : S50000x256.Idx)
    (h0 : (i 0).val = t.val * 2000 + (x 0).val) (h1 : (i 1).val = (x 1).val) :
    (iblk3 V c 0 t : Vec Ideal S2000x256 .f32) x = (V c (Pipeline.arrRef spec3 0) : S50000x256.Idx → Elt Ideal .f32) i := by
  obtain ⟨e0, e1, -⟩ := idx_facts t
  unfold iblk3
  rw [View.read_apply]
  refine congrArg (V c (Pipeline.arrRef spec3 0) : S50000x256.Idx → Elt Ideal .f32) (funext fun a => Fin.ext ?_)
  match a with
  | ⟨0, _⟩ => show win3_0.index t (0 : Fin 2) * 2000 + 1 * (x 0).val = (i 0).val; rw [e0, h0]; omega
  | ⟨1, _⟩ => show win3_0.index t (1 : Fin 2) * 256 + 1 * (x 1).val = (i 1).val; rw [e1, h1]; omega

/-- The activations' block at point t is rows 2000 t … 2000 t + 1999 of the activations array. -/
theorem act_blk_apply (c : Dev nD) (t : Fin cfg3.N) (x : S2000x512.Idx) (i : S50000x512.Idx)
    (h0 : (i 0).val = t.val * 2000 + (x 0).val) (h1 : (i 1).val = (x 1).val) :
    (iblk3 V c 1 t : Vec Ideal S2000x512 .f32) x = (V c (Pipeline.arrRef spec3 1) : S50000x512.Idx → Elt Ideal .f32) i := by
  obtain ⟨-, -, e0, e1, -⟩ := idx_facts t
  unfold iblk3
  rw [View.read_apply]
  refine congrArg (V c (Pipeline.arrRef spec3 1) : S50000x512.Idx → Elt Ideal .f32) (funext fun a => Fin.ext ?_)
  match a with
  | ⟨0, _⟩ => show win3_1.index t (0 : Fin 2) * 2000 + 1 * (x 0).val = (i 0).val; rw [e0, h0]; omega
  | ⟨1, _⟩ => show win3_1.index t (1 : Fin 2) * 512 + 1 * (x 1).val = (i 1).val; rw [e1, h1]; omega

/-- The weights' block at every point is the weights array. -/
theorem wgt_blk_apply (c : Dev nD) (t : Fin cfg3.N) (x : S512x256.Idx) :
    (iblk3 V c 2 t : Vec Ideal S512x256 .f32) x = (V c (Pipeline.arrRef spec3 2) : S512x256.Idx → Elt Ideal .f32) x := by
  obtain ⟨-, -, -, -, e0, e1, -⟩ := idx_facts t
  unfold iblk3
  rw [View.read_apply]
  refine congrArg (V c (Pipeline.arrRef spec3 2) : S512x256.Idx → Elt Ideal .f32) (funext fun a => Fin.ext ?_)
  match a with
  | ⟨0, _⟩ => show win3_2.index t (0 : Fin 2) * 512 + 1 * (x 0).val = (x 0).val; rw [e0]; omega
  | ⟨1, _⟩ => show win3_2.index t (1 : Fin 2) * 256 + 1 * (x 1).val = (x 1).val; rw [e1]; omega

/-- The bias's block at every point is the bias row. -/
theorem bias_blk_apply (c : Dev nD) (t : Fin cfg3.N) (x : S1x256.Idx) :
    (iblk3 V c 3 t : Vec Ideal S1x256 .f32) x = (V c (Pipeline.arrRef spec3 3) : S1x256.Idx → Elt Ideal .f32) x := by
  obtain ⟨-, -, -, -, -, -, e0, e1, -⟩ := idx_facts t
  unfold iblk3
  rw [View.read_apply]
  refine congrArg (V c (Pipeline.arrRef spec3 3) : S1x256.Idx → Elt Ideal .f32) (funext fun a => Fin.ext ?_)
  match a with
  | ⟨0, _⟩ => show win3_3.index t (0 : Fin 2) * 1 + 1 * (x 0).val = (x 0).val; rw [e0]; omega
  | ⟨1, _⟩ => show win3_3.index t (1 : Fin 2) * 256 + 1 * (x 1).val = (x 1).val; rw [e1]; omega

/-- What a point computes at an entry of its block is the whole-array function's entry at the corresponding row. -/
theorem point_eq (c : Dev nD) (t : Fin cfg3.N) (j : S2000x256.Idx) (i : S50000x256.Idx)
    (h0 : (i 0).val = t.val * 2000 + (j 0).val) (h1 : (i 1).val = (j 1).val) :
    k3_pay1 (F := Ideal) (iblk3 V c 0 t) (iblk3 V c 1 t) (iblk3 V c 2 t) (iblk3 V c 3 t) j
      = affine (V c (Pipeline.arrRef spec3 0)) (V c (Pipeline.arrRef spec3 1)) (V c (Pipeline.arrRef spec3 2)) (V c (Pipeline.arrRef spec3 3)) i := by
  refine (congrArg (k3_pay1 (F := Ideal) (iblk3 V c 0 t) (iblk3 V c 1 t) (iblk3 V c 2 t) (iblk3 V c 3 t)) (eq_ix2 j)).trans ?_
  refine (pay_apply (iblk3 V c 0 t) (iblk3 V c 1 t) (iblk3 V c 2 t) (iblk3 V c 3 t) (j 0) (j 1)).trans ?_
  unfold affine
  have hg : (iblk3 V c 0 t : Vec Ideal S2000x256 .f32) (ix2 (j 0) (j 1))
      = (V c (Pipeline.arrRef spec3 0) : S50000x256.Idx → Elt Ideal .f32) i :=
    agg_blk_apply V c t (ix2 (j 0) (j 1)) i h0 h1
  have hb : (iblk3 V c 3 t : Vec Ideal S1x256 .f32) (ix2 0 (j 1))
      = (V c (Pipeline.arrRef spec3 3) : S1x256.Idx → Elt Ideal .f32) (ix2 0 (i 1)) :=
    (bias_blk_apply V c t (ix2 0 (j 1))).trans
      (congrArg (V c (Pipeline.arrRef spec3 3) : S1x256.Idx → Elt Ideal .f32) (congrArg (ix2 0) (Fin.ext h1.symm)))
  refine congr (congrArg HAdd.hAdd (congr (congrArg HAdd.hAdd hg) (Finset.sum_congr rfl fun k _ => ?_))) hb
  have ha : (iblk3 V c 1 t : Vec Ideal S2000x512 .f32) (ix2 (j 0) k)
      = (V c (Pipeline.arrRef spec3 1) : S50000x512.Idx → Elt Ideal .f32) (ix2 (i 0) k) :=
    act_blk_apply V c t (ix2 (j 0) k) (ix2 (i 0) k) h0 rfl
  have hw : (iblk3 V c 2 t : Vec Ideal S512x256 .f32) (ix2 k (j 1))
      = (V c (Pipeline.arrRef spec3 2) : S512x256.Idx → Elt Ideal .f32) (ix2 k (i 1)) :=
    (wgt_blk_apply V c t (ix2 k (j 1))).trans
      (congrArg (V c (Pipeline.arrRef spec3 2) : S512x256.Idx → Elt Ideal .f32) (congrArg (ix2 k) (Fin.ext h1.symm)))
  exact congr (congrArg HMul.hMul ha) hw

/-- What point t writes back is block t of the whole-array function of the arrays as the region finds them. -/
theorem flushed_eq (c : Dev nD) (t : Fin cfg3.N) :
    (dat3 (F := Ideal) V c).flushed 4 t = ((cfg3.win 4).blk t).view.read (Elt Ideal)
      (affine (V c (Pipeline.arrRef spec3 0)) (V c (Pipeline.arrRef spec3 1)) (V c (Pipeline.arrRef spec3 2)) (V c (Pipeline.arrRef spec3 3))) := by
  show (cfg3.win 4).cut (grid3.coords t) ((dat3 V c).after 4 t) = _
  rw [after3_4]
  unfold out3_4
  rw [View.canon_unit_zero hz]
  simp only [View.ld_unit_zero (S := S2000x256) hz, View.ld_unit_zero (S := S2000x512) hz,
    View.ld_unit_zero (S := S512x256) hz, View.ld_unit_zero (S := S1x256) hz]
  obtain ⟨-, -, -, -, -, -, -, -, e0, e1⟩ := idx_facts t
  funext j
  show k3_pay1 (F := Ideal) (iblk3 V c 0 t) (iblk3 V c 1 t) (iblk3 V c 2 t) (iblk3 V c 3 t) j
    = affine (V c (Pipeline.arrRef spec3 0)) (V c (Pipeline.arrRef spec3 1)) (V c (Pipeline.arrRef spec3 2)) (V c (Pipeline.arrRef spec3 3)) (((cfg3.win 4).blk t).view.emb j)
  refine point_eq V c t j _ ?_ ?_
  · show win3_4.index t (0 : Fin 2) * 2000 + 1 * (j 0).val = t.val * 2000 + (j 0).val
    rw [e0]; omega
  · show win3_4.index t (1 : Fin 2) * 256 + 1 * (j 1).val = (j 1).val
    rw [e1]; omega

/-- An index of the output array is in point t's block iff each coordinate is in the block's range on its axis. -/
theorem mem_blk (t : Fin cfg3.N) (i : S50000x256.Idx) :
    i ∈ ((cfg3.win 4).blk t).view.set ↔ ∀ a : Fin 2, win3_4.index t a * S2000x256.size a ≤ (i a).val ∧ (i a).val < win3_4.index t a * S2000x256.size a + S2000x256.size a := by
  show i ∈ ((View.whole main_v55).slice (win3_4.rect t)).set ↔ _
  rw [View.set_slice_whole, Rect.mem_set_unit]
  exact Iff.rfl

/-- Every entry of the output array is in the block of the point its row falls in. -/
theorem covered (i : S50000x256.Idx) :
    ∃ t : Fin cfg3.N, (cfg3.win 4).flush t = true ∧ i ∈ ((cfg3.win 4).blk t).view.set := by
  have hi0 : (i 0).val < 50000 := (i 0).isLt
  have hi1 : (i 1).val < 256 := (i 1).isLt
  have hN : cfg3.N = 25 := N_3
  let t : Fin cfg3.N := ⟨(i 0).val / 2000, by rw [hN]; omega⟩
  obtain ⟨-, -, -, -, -, -, -, -, e0, e1⟩ := idx_facts t
  have ht : t.val = (i 0).val / 2000 := rfl
  refine ⟨t, flush3_4 t, ?_⟩
  rw [mem_blk]
  intro a
  match a with
  | ⟨0, _⟩ => show win3_4.index t (0 : Fin 2) * 2000 ≤ (i 0).val ∧ (i 0).val < win3_4.index t (0 : Fin 2) * 2000 + 2000; rw [e0, ht]; omega
  | ⟨1, _⟩ => show win3_4.index t (1 : Fin 2) * 256 ≤ (i 1).val ∧ (i 1).val < win3_4.index t (1 : Fin 2) * 256 + 256; rw [e1]; omega

/-- The output array after the region is the whole-array function of the four arrays as the region finds them. -/
theorem final (c : Dev nD) :
    (dat3 (F := Ideal) V c).arrAt 4 cfg3.N
      = affine (V c (Pipeline.arrRef spec3 0)) (V c (Pipeline.arrRef spec3 1)) (V c (Pipeline.arrRef spec3 2)) (V c (Pipeline.arrRef spec3 3)) :=
  (dat3 (F := Ideal) V c).arrAt_eq_of_cover 4
    (affine (V c (Pipeline.arrRef spec3 0)) (V c (Pipeline.arrRef spec3 1)) (V c (Pipeline.arrRef spec3 2)) (V c (Pipeline.arrRef spec3 3)))
    (fun t _ => flushed_eq V c t) covered

/-- The whole-array function at an entry. -/
theorem affine_apply (Agg : S50000x256.Idx → Elt Ideal .f32) (A : S50000x512.Idx → Elt Ideal .f32)
    (W : S512x256.Idx → Elt Ideal .f32) (B : S1x256.Idx → Elt Ideal .f32) (n : Fin 50000) (o : Fin 256) :
    affine Agg A W B (ix2 n o) = (Agg (ix2 n o) + ∑ k : Fin 512, A (ix2 n k) * W (ix2 k o)) + B (ix2 0 o) := rfl

/-- The aggregated array as the region finds it, at its literal type. -/
abbrev agg (c : Dev nD) : S50000x256.Idx → EReal := V c (Pipeline.arrRef spec3 0)
/-- The activations array as the region finds it, at its literal type. -/
abbrev act (c : Dev nD) : S50000x512.Idx → EReal := V c (Pipeline.arrRef spec3 1)
/-- The weights array as the region finds it, at its literal type. -/
abbrev wgt (c : Dev nD) : S512x256.Idx → EReal := V c (Pipeline.arrRef spec3 2)
/-- The bias row as the region finds it, at its literal type. -/
abbrev bias (c : Dev nD) : S1x256.Idx → EReal := V c (Pipeline.arrRef spec3 3)
/-- The output array after the region, at its literal type. -/
abbrev res (c : Dev nD) : S50000x256.Idx → EReal := (dat3 (F := Ideal) V c).arrAt 4 cfg3.N

/-- The output array after the region at an entry. -/
theorem arrAt_apply (c : Dev nD) (n : Fin 50000) (o : Fin 256) :
    res V c (ix2 n o) = (agg V c (ix2 n o) + ∑ k : Fin 512, act V c (ix2 n k) * wgt V c (ix2 k o)) + bias V c (ix2 0 o) :=
  congrFun (final V c) (ix2 n o)

end Cert.KernelIdeal.Reg3

end
-- ==== Proof.Stage3.lean ====
/-
  The third layer: region 3 on the aggregate of the features region 2 produced, and on the second layer's activations.

  The relational weights were applied by region 2; the host operations aggregate its output over the edges; region 3 adds
  the second layer's activations times the root weights, then the bias.
-/
import proofs.«136480_j970662609200_2_alg».proof.Proof.ChainBase
import proofs.«136480_j970662609200_2_alg».proof.Proof.Region3

set_option maxRecDepth 16384

noncomputable section

open scoped BigOperators

namespace Cert.KernelIdeal.Chain

open Cert.KernelIdeal Cert.KernelIdeal.Gen
open Idealize.ShloMosaic Idealize.ShloMosaic.TcCoe Idealize.ShloMosaic.StableHlo Idealize.ShloMosaic.ValueIdx
open Idealize.SL.Sem

variable (m : (ℓ : Loc nD τ sig) → Buf (Elt Ideal) ℓ) (ρ : Dev nD → PrngReg) (c : Dev nD)

/-- The aggregate region 3 reads: the operations' term over region 2's output and the arguments. -/
theorem s3_agg : (V7 (F := Ideal) m ρ c main_v52 : S50000x256.Idx → EReal)
    = Host.scatterAdd (F := Ideal) scatter_S50000x256_S400000x1_S400000x256_1_0_0_1
        (broadcastInDim S50000x256 ![] bcast_S_S50000x256 (constant (F := Ideal) S_ .f32 0x00000000#32))
        (Cert.Args.dstIdx (m ((c : Thread nD τ).loc main_arg1)))
        (mulf (Host.gather gather_S50000x256_S400000x1_S400000x256_1_0_n_n_0_1_1256 (Y3 m ρ c)
            (Cert.Args.srcIdx (m ((c : Thread nD τ).loc main_arg1))))
          (broadcastInDim S400000x256 ![0, 1] bcast_S400000x1_S400000x256_0_1
            (broadcastInDim S400000x1 ![0] bcast_S400000_S400000x1_0 (m ((c : Thread nD τ).loc main_arg2))))) := by
  walk_back
  try rfl

/-- Region 3 reads the second layer's activations as region 1 left them. -/
theorem s3_x : (V7 (F := Ideal) m ρ c main_v37 : S50000x512.Idx → EReal)
    = H2 m ρ c := by
  walk_back
  try rfl

/-- The root weights region 3 reads: the argument's transpose. -/
theorem s3_wroot : (V7 (F := Ideal) m ρ c main_v53 : S512x256.Idx → EReal)
    = transpose S512x256 [1, 0] (m ((c : Thread nD τ).loc main_arg11)) transposes_S256x512_S512x256_1_0 := by
  walk_back
  try rfl

/-- The bias region 3 reads: the argument as a row. -/
theorem s3_bias : (V7 (F := Ideal) m ρ c main_v54 : S1x256.Idx → EReal)
    = shapeCast S1x256 (m ((c : Thread nD τ).loc main_arg10)) shapeCasts_S256_S1x256 := by
  walk_back
  try rfl

/-- The aggregate region 3 reads, entry by entry: the spec's aggregate of region 2's output. -/
theorem s3_agg_apply (n : Fin 50000) (k : Fin 256) :
    (V7 (F := Ideal) m ρ c main_v52 : S50000x256.Idx → EReal) (ix2 n k)
      = Cert.Spec.agg (Gr m c) (Pa m c).w (cur2 (Y3 m ρ c)) n k := by
  rw [s3_agg]
  exact Cert.HostReads.aggregate_apply (N := 50000) (E := 400000) (C := 256) (by norm_num) (by norm_num)
    Facts₀.gather_S50000x256_S400000x1_S400000x256_1_0_n_n_0_1_1256_wf gather_S50000x256_S400000x1_S400000x256_1_0_n_n_0_1_1256 rfl
    Facts₀.scatter_S50000x256_S400000x1_S400000x256_1_0_0_1_wf scatter_S50000x256_S400000x1_S400000x256_1_0_0_1 rfl
    bcast_S_S50000x256 bcast_S400000_S400000x1_0 bcast_S400000x1_S400000x256_0_1
    (Y3 m ρ c) (Cert.Args.srcIdx (m ((c : Thread nD τ).loc main_arg1)))
    (Cert.Args.dstIdx (m ((c : Thread nD τ).loc main_arg1))) (m ((c : Thread nD τ).loc main_arg2)) n k

/-- THE THIRD LAYER: region 3's output is the aggregate of the features region 2 produced, plus the second layer's
    activations times the root weights' transpose, plus the bias. -/
theorem s3 : cur2 (H3 m ρ c) = fun n o => (Cert.Spec.agg (Gr m c) (Pa m c).w (cur2 (Y3 m ρ c)) n o
    + Cert.Spec.lin (Pa m c).Wroot3 (cur2 (H2 m ρ c)) n o) + (Pa m c).b3 o := by
  funext n o
  have hY : H3 m ρ c = Cert.KernelIdeal.Reg3.res (V7 m ρ) c := W8_arr m ρ c 4
  have hx : Cert.KernelIdeal.Reg3.act (V7 m ρ) c = _ := s3_x m ρ c
  have ht : Cert.KernelIdeal.Reg3.wgt (V7 m ρ) c = _ := s3_wroot m ρ c
  have hb : Cert.KernelIdeal.Reg3.bias (V7 m ρ) c = _ := s3_bias m ρ c
  have ha : Cert.KernelIdeal.Reg3.agg (V7 m ρ) c (ix2 n o) = _ := s3_agg_apply m ρ c n o
  have et : ∀ k : Fin 512, transpose S512x256 [1, 0] (m ((c : Thread nD τ).loc main_arg11)) transposes_S256x512_S512x256_1_0 (ix2 k o)
      = m ((c : Thread nD τ).loc main_arg11) (ix2 o k) := fun k => Cert.HostReads.transpose2_apply _ _ k o
  show H3 m ρ c (ix2 n o) = _
  rw [hY, Cert.KernelIdeal.Reg3.arrAt_apply, ha, hx, ht, hb, Cert.HostReads.rowReshape_apply]
  simp only [et]
  rfl

end Cert.KernelIdeal.Chain

end
-- ==== Proof.LibSums.lean ====
/-
  Two facts about finite sums in a commutative monoid (used here on the extended reals, where addition is commutative
  and associative even at the infinities): a sum over `a · b` consecutive positions is the sum over `a` groups of `b`,
  and the instances for the two groupings this certificate meets — 1024 contraction positions as 8 filter offsets of 128
  channels, and 100000 rows as 20 tiles of 5000.
-/
import Idealize.ShloMosaic.Lib.ValueIdx

namespace Cert.LibSums

open scoped BigOperators

/-- Position `c` of group `k`, among `a` groups of `b`, is below `a · b`. -/
theorem block_lt {a b : Nat} (k : Fin a) (c : Fin b) : b * k.val + c.val < a * b := by
  have hk := k.isLt
  have hc := c.isLt
  have h1 : b * k.val + c.val < b * (k.val + 1) := by rw [Nat.mul_succ]; omega
  have h2 : b * (k.val + 1) ≤ b * a := Nat.mul_le_mul_left b hk
  rw [Nat.mul_comm a b]
  omega

/-- A sum over `Fin (a * b)` regrouped as `a` blocks of `b` consecutive positions. -/
theorem sum_blocks {M : Type*} [AddCommMonoid M] (a b : Nat) (f : Fin (a * b) → M) :
    ∑ j, f j = ∑ k : Fin a, ∑ c : Fin b, f ⟨b * k.val + c.val, block_lt k c⟩ := by
  rw [← Equiv.sum_comp finProdFinEquiv f, Fintype.sum_prod_type]
  refine Finset.sum_congr rfl fun k _ => Finset.sum_congr rfl fun c _ => congrArg f (Fin.ext ?_)
  simp [finProdFinEquiv, Nat.add_comm]

/-- 1024 positions as 8 groups of 128. -/
theorem sum_1024 {M : Type*} [AddCommMonoid M] (f : Fin 1024 → M) :
    ∑ j, f j = ∑ k : Fin 8, ∑ c : Fin 128, f ⟨128 * k.val + c.val, by omega⟩ :=
  sum_blocks 8 128 f

/-- 100000 rows as 20 tiles of 5000. -/
theorem sum_100000 {M : Type*} [AddCommMonoid M] (f : Fin 100000 → M) :
    ∑ p, f p = ∑ t : Fin 20, ∑ r : Fin 5000, f ⟨5000 * t.val + r.val, by omega⟩ :=
  sum_blocks 20 5000 f

end Cert.LibSums
-- ==== Proof.Region4.lean ====
/-
  Region 4: the two rows the region's output windows end holding, as functions of the activations array the region
  finds. The grid runs over two halves of the 256 feature columns and, inside a half, over the 25 blocks of 2000 rows;
  the two output rows are carried across the blocks of a half: the first block of a half stores zeros, every block adds
  to the first row the column sums of its block and to the second row the column sums of its squares, and the rows are
  written back after the last block of the half. So the first row ends holding every column's sum over all 50000 rows
  and the second every column's sum of squares.
-/
import proofs.«136480_j970662609200_2_alg».proof.Proof.Gen.KernelIdeal.Frame
import Idealize.ShloMosaic.Lib.ValueIdx
import Idealize.ShloMosaic.Lib.Pipeline.Value
import Idealize.ShloMosaic.PureOps.Ideal.Laws
import Idealize.ShloMosaic.Lib.Tactic
import proofs.«136480_j970662609200_2_alg».proof.Proof.LibSums

noncomputable section

open Idealize.ShloMosaic Idealize.ShloMosaic.TcCoe Idealize.SL.Sem
open Idealize.ShloMosaic.Pipeline (Dat)
open Idealize.ShloMosaic.ValueIdx
open scoped BigOperators

namespace Cert.KernelIdeal.Reg4

open Cert.KernelIdeal Cert.KernelIdeal.Gen

theorem hz : (![0, 0] : Fin 2 → Nat) = fun _ => 0 := funext fun a => by fin_cases a <;> rfl

/-! ## The payloads at an entry -/

/-- The zero row's entries are zero. -/
theorem pay1_apply (j : S1x128.Idx) : k4_pay1 (F := Ideal) j = 0 := by
  unfold k4_pay1
  exact Ideal.ofBits_zero_f32

theorem pay2_apply (j : S1x128.Idx) : k4_pay2 (F := Ideal) j = 0 := by
  unfold k4_pay2
  exact Ideal.ofBits_zero_f32

/-- A column sum of a block, stored as a row: entry (0, q) is the sum over the block's rows of column q. -/
theorem colsum_apply (x : FVec Ideal S2000x128 .f32) (q : Fin 128) :
    shapeCast S1x128 (multiReduction .add [0] S128 x 0x00000000#32 reduces_S2000x128_S128 (.inl rfl) rfl) shapeCasts_S128_S1x128 (ix2 0 q)
      = ∑ r : Fin 2000, x (ix2 r q) := by
  refine (shapeCast_addUnit_apply ![128] _ shapeCasts_S128_S1x128 (ix2 0 q)).trans ?_
  refine (Ideal.multiReduction_add_single x 0x00000000#32 reduces_S2000x128_S128 (.inl rfl) rfl _).trans ?_
  refine Finset.sum_congr rfl fun r _ => congrArg x ?_
  funext a
  match a with
  | ⟨0, _⟩ => rfl
  | ⟨1, _⟩ => rfl

/-- The first row's update at entry (0, q): what the row held plus the sum over the block's rows of column q. -/
theorem pay4_apply (x : Vec Ideal S2000x128 .f32) (y : Vec Ideal S1x128 .f32) (q : Fin 128) :
    k4_pay4 (F := Ideal) x y (ix2 0 q) = y (ix2 0 q) + ∑ r : Fin 2000, x (ix2 r q) := by
  unfold k4_pay4 k4_pay3
  simp only [shapeCast_self]
  exact congrArg (y (ix2 0 q) + ·) (colsum_apply x q)

/-- The second row's update at entry (0, q): what the row held plus the sum over the block's rows of column q squared. -/
theorem pay5_apply (x : Vec Ideal S2000x128 .f32) (y : Vec Ideal S1x128 .f32) (q : Fin 128) :
    k4_pay5 (F := Ideal) x y (ix2 0 q) = y (ix2 0 q) + ∑ r : Fin 2000, x (ix2 r q) * x (ix2 r q) := by
  unfold k4_pay5 k4_pay3
  simp only [shapeCast_self]
  exact congrArg (y (ix2 0 q) + ·) (colsum_apply (mulf x x) q)

/-! ## What each case leaves in the two rows' buffers -/

theorem out_B1 (c : Dev nD) (i : grid4.Coords) (a2 : Memref sig .tc .vmem S2000x128 .f32) (h2 : a2.IsWhole)
    (a3 : Memref sig .tc .vmem S1x128 .f32) (h3 : a3.IsWhole) (a4 : Memref sig .tc .vmem S1x128 .f32) (h4 : a4.IsWhole)
    (hc : ¬cond4_0 i) (x : Vec Ideal S2000x128 .f32) (xo1 xo2 : Vec Ideal S1x128 .f32) :
    out4_B_1 (F := Ideal) c i a2 h2 a3 h3 a4 h4 hc x xo1 xo2 = k4_pay4 x xo1 := by
  unfold out4_B_1
  rw [View.read_writes_eq_canon _ _ _ (cover4_B_1 c i a2 h2 a3 h3 a4 h4 hc x xo1 xo2)]
  unfold kernelRun4_B
  dsimp only
  try sl_unfold_words
  rw [View.canon_unit_zero hz]
  simp only [View.readAt_eq_ld, h2.read_unread, h3.read_unread, View.ld_unit_zero (S := S2000x128) hz, View.ld_unit_zero (S := S1x128) hz]

theorem out_B2 (c : Dev nD) (i : grid4.Coords) (a2 : Memref sig .tc .vmem S2000x128 .f32) (h2 : a2.IsWhole)
    (a3 : Memref sig .tc .vmem S1x128 .f32) (h3 : a3.IsWhole) (a4 : Memref sig .tc .vmem S1x128 .f32) (h4 : a4.IsWhole)
    (hc : ¬cond4_0 i) (x : Vec Ideal S2000x128 .f32) (xo1 xo2 : Vec Ideal S1x128 .f32) :
    out4_B_2 (F := Ideal) c i a2 h2 a3 h3 a4 h4 hc x xo1 xo2 = k4_pay5 x xo2 := by
  unfold out4_B_2
  rw [View.read_writes_eq_canon _ _ _ (cover4_B_2 c i a2 h2 a3 h3 a4 h4 hc x xo1 xo2)]
  unfold kernelRun4_B
  dsimp only
  try sl_unfold_words
  rw [View.canon_unit_zero hz]
  simp only [View.readAt_eq_ld, h2.read_unread, h4.read_unread, View.ld_unit_zero (S := S2000x128) hz, View.ld_unit_zero (S := S1x128) hz]

theorem out_A1 (c : Dev nD) (i : grid4.Coords) (a2 : Memref sig .tc .vmem S2000x128 .f32) (h2 : a2.IsWhole)
    (a3 : Memref sig .tc .vmem S1x128 .f32) (h3 : a3.IsWhole) (a4 : Memref sig .tc .vmem S1x128 .f32) (h4 : a4.IsWhole)
    (hc : cond4_0 i) (x : Vec Ideal S2000x128 .f32) :
    out4_A_1 (F := Ideal) c i a2 h2 a3 h3 a4 h4 hc x = k4_pay4 x (k4_pay1 (F := Ideal)) := by
  unfold out4_A_1
  rw [View.read_writes_eq_canon _ _ _ (cover4_A_1 c i a2 h2 a3 h3 a4 h4 hc x)]
  unfold kernelRun4_A
  dsimp only
  try sl_unfold_words
  rw [View.canon_cons_unit_zero (S := S1x128) hz, View.readCov_unit_zero (S := S1x128) _ hz]
  simp only [View.readAt_eq_ld, h2.read_unread, View.ld_unit_zero (S := S2000x128) hz]

theorem out_A2 (c : Dev nD) (i : grid4.Coords) (a2 : Memref sig .tc .vmem S2000x128 .f32) (h2 : a2.IsWhole)
    (a3 : Memref sig .tc .vmem S1x128 .f32) (h3 : a3.IsWhole) (a4 : Memref sig .tc .vmem S1x128 .f32) (h4 : a4.IsWhole)
    (hc : cond4_0 i) (x : Vec Ideal S2000x128 .f32) :
    out4_A_2 (F := Ideal) c i a2 h2 a3 h3 a4 h4 hc x = k4_pay5 x (k4_pay2 (F := Ideal)) := by
  unfold out4_A_2
  rw [View.read_writes_eq_canon _ _ _ (cover4_A_2 c i a2 h2 a3 h3 a4 h4 hc x)]
  unfold kernelRun4_A
  dsimp only
  try sl_unfold_words
  rw [View.canon_cons_unit_zero (S := S1x128) hz, View.readCov_unit_zero (S := S1x128) _ hz]
  simp only [View.readAt_eq_ld, h2.read_unread, View.ld_unit_zero (S := S2000x128) hz]

/-! ## The blocks of the activations, and the running sums -/

variable (V : (c : Dev nD) → (b : Ref sig .tc) → Buf (Elt Ideal) ((c : Thread nD τ).loc b))

/-- The printed index maps over the grid: point t reads block (t mod 25, t / 25) of the activations and carries
    block (0, t / 25) of each output row. -/
theorem idx_facts : ∀ t : Fin cfg4.N, win4_0.index t (0 : Fin 2) = t.val % 25 ∧ win4_0.index t (1 : Fin 2) = t.val / 25
    ∧ win4_1.index t (0 : Fin 2) = 0 ∧ win4_1.index t (1 : Fin 2) = t.val / 25
    ∧ win4_2.index t (0 : Fin 2) = 0 ∧ win4_2.index t (1 : Fin 2) = t.val / 25 :=
  (by decide +kernel : ∀ t : Fin grid4.N, _)

/-- The activations array as the region finds it, at its literal type. -/
abbrev act (c : Dev nD) : S50000x256.Idx → EReal := V c (Pipeline.arrRef spec4 0)

/-- An array's entry at natural-number coordinates (zero outside the array). -/
def entry (A : S50000x256.Idx → EReal) (n k : ℕ) : EReal :=
  if h : n < 50000 ∧ k < 256 then A (ix2 ⟨n, h.1⟩ ⟨k, h.2⟩) else 0

/-- The activations' block at point t, at (r, q): row (t mod 25) · 2000 + r, column (t / 25) · 128 + q of the array. -/
theorem blk_apply (c : Dev nD) (t : Fin cfg4.N) (r : Fin 2000) (q : Fin 128) :
    (iblk4 V c 0 t : Vec Ideal S2000x128 .f32) (ix2 r q)
      = entry (act V c) ((t.val % 25) * 2000 + r.val) ((t.val / 25) * 128 + q.val) := by
  have hN : t.val < 50 := lt_of_lt_of_eq t.isLt (show cfg4.N = 50 from N_4)
  have hr := r.isLt
  have hq := q.isLt
  have hn : (t.val % 25) * 2000 + r.val < 50000 ∧ (t.val / 25) * 128 + q.val < 256 := by omega
  obtain ⟨e0, e1, -⟩ := idx_facts t
  unfold entry
  rw [dif_pos hn]
  unfold iblk4
  rw [View.read_apply]
  refine congrArg (V c (Pipeline.arrRef spec4 0) : S50000x256.Idx → Elt Ideal .f32) (funext fun a => Fin.ext ?_)
  match a with
  | ⟨0, _⟩ => show win4_0.index t (0 : Fin 2) * 2000 + 1 * r.val = (t.val % 25) * 2000 + r.val; rw [e0]; omega
  | ⟨1, _⟩ => show win4_0.index t (1 : Fin 2) * 128 + 1 * q.val = (t.val / 25) * 128 + q.val; rw [e1]; omega

/-- The sum of f over the first nb blocks of 2000 consecutive positions. -/
def psum (f : ℕ → EReal) (nb : ℕ) : EReal := ∑ b ∈ Finset.range nb, ∑ r : Fin 2000, f (b * 2000 + r.val)

theorem psum_succ (f : ℕ → EReal) (nb : ℕ) : psum f (nb + 1) = psum f nb + ∑ r : Fin 2000, f (nb * 2000 + r.val) :=
  Finset.sum_range_succ _ _

theorem psum_one (f : ℕ → EReal) : psum f 1 = ∑ r : Fin 2000, f (0 * 2000 + r.val) :=
  Finset.sum_range_one _

/-- The 25 blocks are all 50000 rows. -/
theorem psum_all (A : S50000x256.Idx → EReal) (g : EReal → EReal) (k : Fin 256) :
    psum (fun n => g (entry A n k.val)) 25 = ∑ n : Fin 50000, g (A (ix2 n k)) := by
  unfold psum
  rw [Finset.sum_range, Cert.LibSums.sum_blocks 25 2000 (fun n : Fin 50000 => g (A (ix2 n k)))]
  refine Finset.sum_congr rfl fun b _ => Finset.sum_congr rfl fun r _ => congrArg g ?_
  have hb := b.isLt
  have hr := r.isLt
  have hk := k.isLt
  have hn : b.val * 2000 + r.val < 50000 ∧ k.val < 256 := by omega
  unfold entry
  rw [dif_pos hn]
  exact congrArg A (congrArg (fun n => ix2 n k) (Fin.ext (by show b.val * 2000 + r.val = 2000 * b.val + r.val; omega)))

/-! ## The two rows after each point -/

/-- The first row after a half's first block, at entry (0, q), when the block's column q is f. -/
theorem pay4_first (x : Vec Ideal S2000x128 .f32) (q : Fin 128) (f : Fin 2000 → EReal) (hx : ∀ r, x (ix2 r q) = f r) :
    k4_pay4 (F := Ideal) x (k4_pay1 (F := Ideal)) (ix2 0 q) = ∑ r, f r := by
  rw [pay4_apply, pay1_apply, zero_add]
  exact Finset.sum_congr rfl fun r _ => hx r

/-- The second row after a half's first block. -/
theorem pay5_first (x : Vec Ideal S2000x128 .f32) (q : Fin 128) (f : Fin 2000 → EReal) (hx : ∀ r, x (ix2 r q) = f r) :
    k4_pay5 (F := Ideal) x (k4_pay2 (F := Ideal)) (ix2 0 q) = ∑ r, f r * f r := by
  rw [pay5_apply, pay2_apply, zero_add]
  exact Finset.sum_congr rfl fun r _ => by rw [hx r]

/-- The first row after a later block, from what it held. -/
theorem pay4_next (x : Vec Ideal S2000x128 .f32) (y : Vec Ideal S1x128 .f32) (q : Fin 128) (f : Fin 2000 → EReal)
    (hx : ∀ r, x (ix2 r q) = f r) (s : EReal) (hy : y (ix2 0 q) = s) :
    k4_pay4 (F := Ideal) x y (ix2 0 q) = s + ∑ r, f r := by
  rw [pay4_apply, hy]
  exact congrArg (s + ·) (Finset.sum_congr rfl fun r _ => hx r)

/-- The second row after a later block, from what it held. -/
theorem pay5_next (x : Vec Ideal S2000x128 .f32) (y : Vec Ideal S1x128 .f32) (q : Fin 128) (f : Fin 2000 → EReal)
    (hx : ∀ r, x (ix2 r q) = f r) (s : EReal) (hy : y (ix2 0 q) = s) :
    k4_pay5 (F := Ideal) x y (ix2 0 q) = s + ∑ r, f r * f r := by
  rw [pay5_apply, hy]
  exact congrArg (s + ·) (Finset.sum_congr rfl fun r _ => by rw [hx r])

/-- After a half's first block the rows hold the block's column sums, of the entries and of their squares. -/
theorem rows_first (c : Dev nD) (n : ℕ) (h : n < cfg4.N) (h0 : n % 25 = 0) (q : Fin 128) :
    (outsAt4 V c n h).1 (ix2 0 q)
        = ∑ r : Fin 2000, entry (act V c) ((n % 25) * 2000 + r.val) ((n / 25) * 128 + q.val)
    ∧ (outsAt4 V c n h).2 (ix2 0 q)
        = ∑ r : Fin 2000, entry (act V c) ((n % 25) * 2000 + r.val) ((n / 25) * 128 + q.val)
            * entry (act V c) ((n % 25) * 2000 + r.val) ((n / 25) * 128 + q.val) := by
  have e := outsAt4_A V c ⟨n, h⟩ h0
  constructor
  · refine (congrFun ((congrArg Prod.fst e).trans (out_A1 c (grid4.coords ⟨n, h⟩) (ms4_0 ⟨n, h⟩) (hs4_0 ⟨n, h⟩) (ms4_1 ⟨n, h⟩) (hs4_1 ⟨n, h⟩) (ms4_2 ⟨n, h⟩) (hs4_2 ⟨n, h⟩) ((hcond4_0 ⟨n, h⟩).mpr h0) (iblk4 V c 0 ⟨n, h⟩))) (ix2 0 q)).trans ?_
    exact pay4_first (iblk4 V c 0 ⟨n, h⟩) q (fun r => entry (act V c) ((n % 25) * 2000 + r.val) ((n / 25) * 128 + q.val))
      (fun r => blk_apply V c ⟨n, h⟩ r q)
  · refine (congrFun ((congrArg Prod.snd e).trans (out_A2 c (grid4.coords ⟨n, h⟩) (ms4_0 ⟨n, h⟩) (hs4_0 ⟨n, h⟩) (ms4_1 ⟨n, h⟩) (hs4_1 ⟨n, h⟩) (ms4_2 ⟨n, h⟩) (hs4_2 ⟨n, h⟩) ((hcond4_0 ⟨n, h⟩).mpr h0) (iblk4 V c 0 ⟨n, h⟩))) (ix2 0 q)).trans ?_
    exact pay5_first (iblk4 V c 0 ⟨n, h⟩) q (fun r => entry (act V c) ((n % 25) * 2000 + r.val) ((n / 25) * 128 + q.val))
      (fun r => blk_apply V c ⟨n, h⟩ r q)

/-- The rows after a point do not depend on how the point's number is written. -/
theorem outsAt4_congr (c : Dev nD) (a b : ℕ) (hab : a = b) (ha : a < cfg4.N) (hb : b < cfg4.N) :
    outsAt4 V c a ha = outsAt4 V c b hb := by
  subst hab
  rfl

/-- After a later block of a half the rows hold what they held plus the block's column sums. -/
theorem rows_next (c : Dev nD) (t : Fin cfg4.N) (h0 : ¬t.val % 25 = 0) (q : Fin 128) (s1 s2 : EReal)
    (hs1 : (outsAt4 V c (t.val - 1) (Nat.lt_of_le_of_lt (Nat.sub_le _ _) t.isLt)).1 (ix2 0 q) = s1)
    (hs2 : (outsAt4 V c (t.val - 1) (Nat.lt_of_le_of_lt (Nat.sub_le _ _) t.isLt)).2 (ix2 0 q) = s2) :
    (outsAt4 V c t.val t.isLt).1 (ix2 0 q)
        = s1 + ∑ r : Fin 2000, entry (act V c) ((t.val % 25) * 2000 + r.val) ((t.val / 25) * 128 + q.val)
    ∧ (outsAt4 V c t.val t.isLt).2 (ix2 0 q)
        = s2 + ∑ r : Fin 2000, entry (act V c) ((t.val % 25) * 2000 + r.val) ((t.val / 25) * 128 + q.val)
            * entry (act V c) ((t.val % 25) * 2000 + r.val) ((t.val / 25) * 128 + q.val) := by
  have e := outsAt4_B V c t h0
  constructor
  · refine (congrFun ((congrArg Prod.fst e).trans (out_B1 c (grid4.coords t) (ms4_0 t) (hs4_0 t) (ms4_1 t) (hs4_1 t) (ms4_2 t) (hs4_2 t) (fun hh => h0 ((hcond4_0 t).mp hh)) (iblk4 V c 0 t)
        (outsAt4 V c (t.val - 1) (Nat.lt_of_le_of_lt (Nat.sub_le _ _) t.isLt)).1 (outsAt4 V c (t.val - 1) (Nat.lt_of_le_of_lt (Nat.sub_le _ _) t.isLt)).2)) (ix2 0 q)).trans ?_
    exact pay4_next (iblk4 V c 0 t) (outsAt4 V c (t.val - 1) (Nat.lt_of_le_of_lt (Nat.sub_le _ _) t.isLt)).1 q
      (fun r => entry (act V c) ((t.val % 25) * 2000 + r.val) ((t.val / 25) * 128 + q.val))
      (fun r => blk_apply V c t r q) s1 hs1
  · refine (congrFun ((congrArg Prod.snd e).trans (out_B2 c (grid4.coords t) (ms4_0 t) (hs4_0 t) (ms4_1 t) (hs4_1 t) (ms4_2 t) (hs4_2 t) (fun hh => h0 ((hcond4_0 t).mp hh)) (iblk4 V c 0 t)
        (outsAt4 V c (t.val - 1) (Nat.lt_of_le_of_lt (Nat.sub_le _ _) t.isLt)).1 (outsAt4 V c (t.val - 1) (Nat.lt_of_le_of_lt (Nat.sub_le _ _) t.isLt)).2)) (ix2 0 q)).trans ?_
    exact pay5_next (iblk4 V c 0 t) (outsAt4 V c (t.val - 1) (Nat.lt_of_le_of_lt (Nat.sub_le _ _) t.isLt)).2 q
      (fun r => entry (act V c) ((t.val % 25) * 2000 + r.val) ((t.val / 25) * 128 + q.val))
      (fun r => blk_apply V c t r q) s2 hs2

/-- THE RUNNING SUMS: after point n (half n / 25, block n mod 25) the first row holds, at column q of the half, the sum
    over the rows of blocks 0 … n mod 25 of that column of the activations, the second row the sum of their squares. -/
theorem rows_eq (c : Dev nD) : ∀ (n : ℕ) (h : n < cfg4.N) (q : Fin 128),
    (outsAt4 V c n h).1 (ix2 0 q) = psum (fun m => entry (act V c) m ((n / 25) * 128 + q.val)) (n % 25 + 1)
    ∧ (outsAt4 V c n h).2 (ix2 0 q)
        = psum (fun m => entry (act V c) m ((n / 25) * 128 + q.val) * entry (act V c) m ((n / 25) * 128 + q.val)) (n % 25 + 1) := by
  have first : ∀ (n : ℕ) (h : n < cfg4.N) (h0 : n % 25 = 0) (q : Fin 128),
      (outsAt4 V c n h).1 (ix2 0 q) = psum (fun m => entry (act V c) m ((n / 25) * 128 + q.val)) (n % 25 + 1)
      ∧ (outsAt4 V c n h).2 (ix2 0 q)
          = psum (fun m => entry (act V c) m ((n / 25) * 128 + q.val) * entry (act V c) m ((n / 25) * 128 + q.val)) (n % 25 + 1) := by
    intro n h h0 q
    obtain ⟨a1, a2⟩ := rows_first V c n h h0 q
    rw [h0] at a1 a2
    rw [h0, psum_one, psum_one]
    exact ⟨a1, a2⟩
  intro n
  induction n with
  | zero => intro h q; exact first 0 h rfl q
  | succ n ih =>
    intro h q
    by_cases h0 : (n + 1) % 25 = 0
    · exact first (n + 1) h h0 q
    · obtain ⟨i1, i2⟩ := ih (Nat.lt_of_succ_lt h) q
      have hp : outsAt4 V c ((⟨n + 1, h⟩ : Fin cfg4.N).val - 1) (Nat.lt_of_le_of_lt (Nat.sub_le _ _) (⟨n + 1, h⟩ : Fin cfg4.N).isLt)
          = outsAt4 V c n (Nat.lt_of_succ_lt h) :=
        outsAt4_congr V c _ _ (Nat.add_sub_cancel n 1) _ _
      obtain ⟨b1, b2⟩ := rows_next V c ⟨n + 1, h⟩ h0 q _ _
        ((congrFun (congrArg Prod.fst hp) (ix2 0 q)).trans i1) ((congrFun (congrArg Prod.snd hp) (ix2 0 q)).trans i2)
      have hd : (n + 1) / 25 = n / 25 := by omega
      have hm : (n + 1) % 25 = n % 25 + 1 := by omega
      dsimp only at b1 b2
      rw [hd, hm] at b1 b2
      rw [hd, hm]
      exact ⟨b1.trans (psum_succ _ _).symm, b2.trans (psum_succ _ _).symm⟩

/-! ## The write-backs and the arrays -/

/-- Every column's sum over all 50000 rows, as a row. -/
def colSums (A : S50000x256.Idx → EReal) : S1x256.Idx → EReal := fun i => ∑ n : Fin 50000, A (ix2 n (i 1))

/-- After the last block of a half, row 1's buffer holds that function's block. -/
theorem row1_last (c : Dev nD) (t : Fin cfg4.N) (h24 : t.val % 25 = 24) (j : S1x128.Idx) (i : S1x256.Idx)
    (h1 : (i 1).val = (t.val / 25) * 128 + (j 1).val) :
    (outsAt4 V c t.val t.isLt).1 j = colSums (act V c) i := by
  have hj : j = ix2 0 (j 1) := (eq_ix2 j).trans (congrArg (fun a => ix2 a (j 1)) (Fin.eq_zero (j 0)))
  refine (congrArg (outsAt4 V c t.val t.isLt).1 hj).trans ?_
  refine ((rows_eq V c t.val t.isLt (j 1)).1).trans ?_
  rw [h24, h1.symm]
  exact psum_all (act V c) (fun x => x) (i 1)

set_option maxRecDepth 100000 in
/-- What a writing-back point writes back of row 1 is that function's block. -/
theorem flushed1_eq (c : Dev nD) (t : Fin cfg4.N) (hf : (cfg4.win 1).flush t = true) :
    (dat4 (F := Ideal) V c).flushed 1 t = ((cfg4.win 1).blk t).view.read (Elt Ideal) (colSums (act V c)) := by
  have h24 : t.val % 25 = 24 := (flush4_1 t).mp hf
  obtain ⟨-, -, -, e1, -, -⟩ := idx_facts t
  show (cfg4.win 1).cut (grid4.coords t) ((dat4 V c).after 1 t) = _
  rw [after4_1]
  funext j
  show (outsAt4 V c t.val t.isLt).1 j = colSums (act V c) (((cfg4.win 1).blk t).view.emb j)
  refine row1_last V c t h24 j _ ?_
  show win4_1.index t (1 : Fin 2) * 128 + 1 * (j 1).val = (t.val / 25) * 128 + (j 1).val
  rw [e1]; omega

/-- An index of row 1's array is in point t's block iff each coordinate is in the block's range on its axis. -/
theorem mem_blk1 (t : Fin cfg4.N) (i : S1x256.Idx) :
    i ∈ ((cfg4.win 1).blk t).view.set ↔ ∀ a : Fin 2, win4_1.index t a * S1x128.size a ≤ (i a).val ∧ (i a).val < win4_1.index t a * S1x128.size a + S1x128.size a := by
  show i ∈ ((View.whole main_v56_0).slice (win4_1.rect t)).set ↔ _
  rw [View.set_slice_whole, Rect.mem_set_unit]
  exact Iff.rfl

/-- Every entry of row 1's array is in the block written back after the last block of its half. -/
theorem covered1 (i : S1x256.Idx) :
    ∃ t : Fin cfg4.N, (cfg4.win 1).flush t = true ∧ i ∈ ((cfg4.win 1).blk t).view.set := by
  have hi0 : (i 0).val < 1 := (i 0).isLt
  have hi1 : (i 1).val < 256 := (i 1).isLt
  have hN : cfg4.N = 50 := N_4
  let t : Fin cfg4.N := ⟨((i 1).val / 128) * 25 + 24, by rw [hN]; omega⟩
  have ht : t.val = ((i 1).val / 128) * 25 + 24 := rfl
  obtain ⟨-, -, e0, e1, -, -⟩ := idx_facts t
  refine ⟨t, (flush4_1 t).mpr (by rw [ht]; omega), ?_⟩
  rw [mem_blk1]
  intro a
  match a with
  | ⟨0, _⟩ => show win4_1.index t (0 : Fin 2) * 1 ≤ (i 0).val ∧ (i 0).val < win4_1.index t (0 : Fin 2) * 1 + 1; rw [e0]; omega
  | ⟨1, _⟩ => show win4_1.index t (1 : Fin 2) * 128 ≤ (i 1).val ∧ (i 1).val < win4_1.index t (1 : Fin 2) * 128 + 128; rw [e1, ht]; omega

/-- Row 1's array after the region. -/
theorem final1 (c : Dev nD) : (dat4 (F := Ideal) V c).arrAt 1 cfg4.N = colSums (act V c) :=
  (dat4 (F := Ideal) V c).arrAt_eq_of_cover 1 (colSums (act V c)) (fun t hf => flushed1_eq V c t hf) covered1

/-- Row 1's array after the region, at its literal type. -/
abbrev res1 (c : Dev nD) : S1x256.Idx → EReal := (dat4 (F := Ideal) V c).arrAt 1 cfg4.N

/-- Every column's sum of squares over all 50000 rows, as a row. -/
def colSqSums (A : S50000x256.Idx → EReal) : S1x256.Idx → EReal := fun i => ∑ n : Fin 50000, A (ix2 n (i 1)) * A (ix2 n (i 1))

/-- After the last block of a half, row 2's buffer holds that function's block. -/
theorem row2_last (c : Dev nD) (t : Fin cfg4.N) (h24 : t.val % 25 = 24) (j : S1x128.Idx) (i : S1x256.Idx)
    (h1 : (i 1).val = (t.val / 25) * 128 + (j 1).val) :
    (outsAt4 V c t.val t.isLt).2 j = colSqSums (act V c) i := by
  have hj : j = ix2 0 (j 1) := (eq_ix2 j).trans (congrArg (fun a => ix2 a (j 1)) (Fin.eq_zero (j 0)))
  refine (congrArg (outsAt4 V c t.val t.isLt).2 hj).trans ?_
  refine ((rows_eq V c t.val t.isLt (j 1)).2).trans ?_
  rw [h24, h1.symm]
  exact psum_all (act V c) (fun x => x * x) (i 1)

set_option maxRecDepth 100000 in
/-- What a writing-back point writes back of row 2 is that function's block. -/
theorem flushed2_eq (c : Dev nD) (t : Fin cfg4.N) (hf : (cfg4.win 2).flush t = true) :
    (dat4 (F := Ideal) V c).flushed 2 t = ((cfg4.win 2).blk t).view.read (Elt Ideal) (colSqSums (act V c)) := by
  have h24 : t.val % 25 = 24 := (flush4_2 t).mp hf
  obtain ⟨-, -, -, -, -, e1⟩ := idx_facts t
  show (cfg4.win 2).cut (grid4.coords t) ((dat4 V c).after 2 t) = _
  rw [after4_2]
  funext j
  show (outsAt4 V c t.val t.isLt).2 j = colSqSums (act V c) (((cfg4.win 2).blk t).view.emb j)
  refine row2_last V c t h24 j _ ?_
  show win4_2.index t (1 : Fin 2) * 128 + 1 * (j 1).val = (t.val / 25) * 128 + (j 1).val
  rw [e1]; omega

/-- An index of row 2's array is in point t's block iff each coordinate is in the block's range on its axis. -/
theorem mem_blk2 (t : Fin cfg4.N) (i : S1x256.Idx) :
    i ∈ ((cfg4.win 2).blk t).view.set ↔ ∀ a : Fin 2, win4_2.index t a * S1x128.size a ≤ (i a).val ∧ (i a).val < win4_2.index t a * S1x128.size a + S1x128.size a := by
  show i ∈ ((View.whole main_v56_1).slice (win4_2.rect t)).set ↔ _
  rw [View.set_slice_whole, Rect.mem_set_unit]
  exact Iff.rfl

/-- Every entry of row 2's array is in the block written back after the last block of its half. -/
theorem covered2 (i : S1x256.Idx) :
    ∃ t : Fin cfg4.N, (cfg4.win 2).flush t = true ∧ i ∈ ((cfg4.win 2).blk t).view.set := by
  have hi0 : (i 0).val < 1 := (i 0).isLt
  have hi1 : (i 1).val < 256 := (i 1).isLt
  have hN : cfg4.N = 50 := N_4
  let t : Fin cfg4.N := ⟨((i 1).val / 128) * 25 + 24, by rw [hN]; omega⟩
  have ht : t.val = ((i 1).val / 128) * 25 + 24 := rfl
  obtain ⟨-, -, -, -, e0, e1⟩ := idx_facts t
  refine ⟨t, (flush4_2 t).mpr (by rw [ht]; omega), ?_⟩
  rw [mem_blk2]
  intro a
  match a with
  | ⟨0, _⟩ => show win4_2.index t (0 : Fin 2) * 1 ≤ (i 0).val ∧ (i 0).val < win4_2.index t (0 : Fin 2) * 1 + 1; rw [e0]; omega
  | ⟨1, _⟩ => show win4_2.index t (1 : Fin 2) * 128 ≤ (i 1).val ∧ (i 1).val < win4_2.index t (1 : Fin 2) * 128 + 128; rw [e1, ht]; omega

/-- Row 2's array after the region. -/
theorem final2 (c : Dev nD) : (dat4 (F := Ideal) V c).arrAt 2 cfg4.N = colSqSums (act V c) :=
  (dat4 (F := Ideal) V c).arrAt_eq_of_cover 2 (colSqSums (act V c)) (fun t hf => flushed2_eq V c t hf) covered2

/-- Row 2's array after the region, at its literal type. -/
abbrev res2 (c : Dev nD) : S1x256.Idx → EReal := (dat4 (F := Ideal) V c).arrAt 2 cfg4.N

/-- The first row after the region at an entry: the column's sum over all rows of the activations. -/
theorem arrAt_apply1 (c : Dev nD) (k : Fin 256) :
    res1 V c (ix2 (0 : Fin 1) k) = ∑ n : Fin 50000, act V c (ix2 n k) :=
  congrFun (final1 V c) (ix2 0 k)

/-- The second row after the region at an entry: the column's sum of squares over all rows of the activations. -/
theorem arrAt_apply2 (c : Dev nD) (k : Fin 256) :
    res2 V c (ix2 (0 : Fin 1) k) = ∑ n : Fin 50000, act V c (ix2 n k) * act V c (ix2 n k) :=
  congrFun (final2 V c) (ix2 0 k)

end Cert.KernelIdeal.Reg4

end
-- ==== Proof.Stage4.lean ====
/-
  The per-feature sums the normalisation needs: region 4 accumulates, over the twenty-five blocks of nodes of each feature
  half, the column sums of the third layer's result and of its squares; what it leaves is each feature's sum over all nodes.
-/
import proofs.«136480_j970662609200_2_alg».proof.Proof.ChainBase
import proofs.«136480_j970662609200_2_alg».proof.Proof.Region4

set_option maxRecDepth 16384

noncomputable section

open scoped BigOperators

namespace Cert.KernelIdeal.Chain

open Cert.KernelIdeal Cert.KernelIdeal.Gen
open Idealize.ShloMosaic Idealize.ShloMosaic.TcCoe Idealize.ShloMosaic.StableHlo Idealize.ShloMosaic.ValueIdx
open Idealize.SL.Sem

variable (m : (ℓ : Loc nD τ sig) → Buf (Elt Ideal) ℓ) (ρ : Dev nD → PrngReg) (c : Dev nD)

/-- Region 4 reads the third layer's result as region 3 left it: no host operation lies between the two regions. -/
theorem s4_act : Cert.KernelIdeal.Reg4.act (V8 (F := Ideal) m ρ) c = H3 m ρ c := rfl

/-- THE SUMS: each feature's sum over the nodes of the third layer's result. -/
theorem s4a (k : Fin 256) : S1 m ρ c (ix2 (0 : Fin 1) k) = ∑ n : Fin 50000, cur2 (H3 m ρ c) n k := by
  have hY : S1 m ρ c = Cert.KernelIdeal.Reg4.res1 (V8 m ρ) c := W9_arr m ρ c 1
  show S1 m ρ c (ix2 (0 : Fin 1) k) = _
  rw [hY, Cert.KernelIdeal.Reg4.arrAt_apply1, s4_act]

/-- THE SUMS OF SQUARES: each feature's sum over the nodes of the squared result. -/
theorem s4b (k : Fin 256) : S2 m ρ c (ix2 (0 : Fin 1) k) = ∑ n : Fin 50000, cur2 (H3 m ρ c) n k * cur2 (H3 m ρ c) n k := by
  have hY : S2 m ρ c = Cert.KernelIdeal.Reg4.res2 (V8 m ρ) c := W9_arr m ρ c 2
  show S2 m ρ c (ix2 (0 : Fin 1) k) = _
  rw [hY, Cert.KernelIdeal.Reg4.arrAt_apply2, s4_act]

end Cert.KernelIdeal.Chain

end
-- ==== Proof.Region5.lean ====
/- The output array of the scale-shift-clamp region, in closed form: every entry is
   max (x * scale + shift) 0 of the region's three input arrays, read where the entry sits. -/
import proofs.«136480_j970662609200_2_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Reg5

open Idealize.ShloMosaic Idealize.ShloMosaic.TcCoe Idealize.ShloMosaic.ValueIdx
open Cert.KernelIdeal Cert.KernelIdeal.Gen
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The whole-array function: entry (n, k) is max (x n k * scale k + shift k) 0. -/
def G (a0 : S50000x256.Idx → EReal) (a1 a2 : S1x256.Idx → EReal) : S50000x256.Idx → EReal :=
  fun i => max (a0 i * a1 (ix2 0 (i 1)) + a2 (ix2 0 (i 1))) 0

theorem G_apply (a0 : S50000x256.Idx → EReal) (a1 a2 : S1x256.Idx → EReal) (n : Fin 50000) (k : Fin 256) :
    G a0 a1 a2 (ix2 n k) = max (a0 (ix2 n k) * a1 (ix2 0 k) + a2 (ix2 0 k)) 0 := rfl

/-- The formula from its three factors, each known to be the entry's own or its column's. -/
theorem G_of (a0 : S50000x256.Idx → EReal) (a1 a2 : S1x256.Idx → EReal) (i : S50000x256.Idx) (k : Fin 256) (hk : i 1 = k)
    (u v w : EReal) (hu : u = a0 i) (hv : v = a1 (ix2 0 k)) (hw : w = a2 (ix2 0 k)) : max (u * v + w) 0 = G a0 a1 a2 i := by
  subst hk hu hv hw; rfl

/-- The body's payload at an index of the block. -/
theorem pay_at (x0 : Vec Ideal S2000x256 .f32) (x1 x2 : Vec Ideal S1x256 .f32) (p : Fin 2000) (q : Fin 256) :
    k5_pay1 x0 x1 x2 (ix2 p q) = max (x0 (ix2 p q) * x1 (ix2 0 q) + x2 (ix2 0 q)) 0 := by
  unfold k5_pay1
  show max ((shapeCast S2000x256 x0 shapeCasts_S2000x256_S2000x256) (ix2 p q)
        * (broadcastTo S2000x256 (shapeCast S1x256 x1 shapeCasts_S1x256_S1x256) broadcasts_S1x256_S2000x256) (ix2 p q)
      + (broadcastTo S2000x256 (shapeCast S1x256 x2 shapeCasts_S1x256_S1x256) broadcasts_S1x256_S2000x256) (ix2 p q))
      (Ideal.ofBits .f32 0x00000000#32) = _
  rw [shapeCast_self, shapeCast_self, shapeCast_self, Ideal.ofBits_zero_f32,
    broadcastTo_1b_ab_apply x1 broadcasts_S1x256_S2000x256 p q, broadcastTo_1b_ab_apply x2 broadcasts_S1x256_S2000x256 p q]

/-- The printed index maps over the grid: the activation block and the output block sit at block row t, the scale
    and shift rows at block (0, 0). -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- The activation block at point t is rows 2000 t … 2000 t + 1999 of the activation array. -/
theorem iblk0_apply (c : Dev nD) (t : Fin cfg5.N) (p : Fin 2000) (q : Fin 256) (i : S50000x256.Idx)
    (hi0 : (i 0).val = 2000 * t.val + p.val) (hi1 : (i 1).val = q.val) :
    (iblk5 V c 0 t : Vec Ideal S2000x256 .f32) (ix2 p q) = (V c (Pipeline.arrRef spec5 0) : S50000x256.Idx → EReal) i := by
  obtain ⟨e0, e1, -⟩ := idx_facts t
  unfold iblk5
  rw [View.read_apply]
  show V c (Pipeline.arrRef spec5 0) _ = V c (Pipeline.arrRef spec5 0) _
  congr 1
  funext a; apply Fin.ext
  match a with
  | ⟨0, _⟩ => show win5_0.index t (0 : Fin 2) * 2000 + 1 * p.val = (i 0).val; omega
  | ⟨1, _⟩ => show win5_0.index t (1 : Fin 2) * 256 + 1 * q.val = (i 1).val; omega

/-- The scale block at every point is the whole scale row. -/
theorem iblk1_apply (c : Dev nD) (t : Fin cfg5.N) (q : Fin 256) :
    (iblk5 V c 1 t : Vec Ideal S1x256 .f32) (ix2 0 q) = (V c (Pipeline.arrRef spec5 1) : S1x256.Idx → EReal) (ix2 0 q) := by
  obtain ⟨-, -, e2, e3, -⟩ := idx_facts t
  unfold iblk5
  rw [View.read_apply]
  show V c (Pipeline.arrRef spec5 1) _ = V c (Pipeline.arrRef spec5 1) _
  congr 1
  funext a; apply Fin.ext
  match a with
  | ⟨0, _⟩ => show win5_1.index t (0 : Fin 2) * 1 + 1 * 0 = 0; omega
  | ⟨1, _⟩ => show win5_1.index t (1 : Fin 2) * 256 + 1 * q.val = q.val; omega

/-- The shift block at every point is the whole shift row. -/
theorem iblk2_apply (c : Dev nD) (t : Fin cfg5.N) (q : Fin 256) :
    (iblk5 V c 2 t : Vec Ideal S1x256 .f32) (ix2 0 q) = (V c (Pipeline.arrRef spec5 2) : S1x256.Idx → EReal) (ix2 0 q) := by
  obtain ⟨-, -, -, -, e4, e5, -⟩ := idx_facts t
  unfold iblk5
  rw [View.read_apply]
  show V c (Pipeline.arrRef spec5 2) _ = V c (Pipeline.arrRef spec5 2) _
  congr 1
  funext a; apply Fin.ext
  match a with
  | ⟨0, _⟩ => show win5_2.index t (0 : Fin 2) * 1 + 1 * 0 = 0; omega
  | ⟨1, _⟩ => show win5_2.index t (1 : Fin 2) * 256 + 1 * q.val = q.val; omega

/-- What point t writes back is block t of the whole-array function of the region's input arrays. -/
theorem flushed_eq (c : Dev nD) (t : Fin cfg5.N) :
    (dat5 V c).flushed 3 t = ((cfg5.win 3).blk t).view.read (Elt Ideal)
      (G (V c (Pipeline.arrRef spec5 0)) (V c (Pipeline.arrRef spec5 1)) (V c (Pipeline.arrRef spec5 2))) := by
  show (cfg5.win 3).cut (grid5.coords t) ((dat5 V c).after 3 t) = _
  rw [after5_3]
  unfold out5_3
  rw [View.canon_unit_zero hz]
  simp only [View.ld_unit_zero (S := S2000x256) hz, View.ld_unit_zero (S := S1x256) hz]
  obtain ⟨-, -, -, -, -, -, e6, e7⟩ := idx_facts t
  funext j
  obtain ⟨p, q, rfl⟩ : ∃ (p : Fin 2000) (q : Fin 256), j = ix2 p q := ⟨j 0, j 1, eq_ix2 j⟩
  refine (pay_at (iblk5 V c 0 t) (iblk5 V c 1 t) (iblk5 V c 2 t) p q).trans ?_
  rw [View.read_apply]
  show _ = G (V c (Pipeline.arrRef spec5 0)) (V c (Pipeline.arrRef spec5 1)) (V c (Pipeline.arrRef spec5 2))
      (((cfg5.win 3).blk t).view.emb (ix2 p q))
  have h0 : ((((cfg5.win 3).blk t).view.emb (ix2 p q)) 0).val = 2000 * t.val + p.val := by
    show win5_3.index t (0 : Fin 2) * 2000 + 1 * p.val = _; omega
  have h1 : ((((cfg5.win 3).blk t).view.emb (ix2 p q)) 1) = q := by
    apply Fin.ext; show win5_3.index t (1 : Fin 2) * 256 + 1 * q.val = _; omega
  exact G_of _ _ _ (((cfg5.win 3).blk t).view.emb (ix2 p q)) q h1 _ _ _
    (iblk0_apply V c t p q _ h0 (congrArg Fin.val h1)) (iblk1_apply V c t q) (iblk2_apply V c t q)

/-- An index of the output array is in point t's block iff each coordinate is in the block's range on its axis. -/
theorem mem_blk (t : Fin cfg5.N) (i : S50000x256.Idx) :
    i ∈ ((cfg5.win 3).blk t).view.set ↔ ∀ a : Fin 2, win5_3.index t a * S2000x256.size a ≤ (i a).val ∧ (i a).val < win5_3.index t a * S2000x256.size a + S2000x256.size a := by
  show i ∈ ((View.whole main_v78).slice (win5_3.rect t)).set ↔ _
  rw [View.set_slice_whole, Rect.mem_set_unit]
  exact Iff.rfl

/-- Every entry is covered: row n lies in the block of point n / 2000. -/
theorem covered (i : S50000x256.Idx) :
    ∃ t : Fin cfg5.N, (cfg5.win 3).flush t = true ∧ i ∈ ((cfg5.win 3).blk t).view.set := by
  have hi0 : (i 0).val < 50000 := (i 0).isLt
  have hi1 : (i 1).val < 256 := (i 1).isLt
  have hN : cfg5.N = 25 := N_5
  let t : Fin cfg5.N := ⟨(i 0).val / 2000, by rw [hN]; omega⟩
  obtain ⟨-, -, -, -, -, -, e6, e7⟩ := idx_facts t
  have ht : t.val = (i 0).val / 2000 := rfl
  refine ⟨t, flush5_3 t, ?_⟩
  rw [mem_blk]
  intro a
  match a with
  | ⟨0, _⟩ => show win5_3.index t (0 : Fin 2) * 2000 ≤ (i 0).val ∧ (i 0).val < win5_3.index t (0 : Fin 2) * 2000 + 2000; omega
  | ⟨1, _⟩ => show win5_3.index t (1 : Fin 2) * 256 ≤ (i 1).val ∧ (i 1).val < win5_3.index t (1 : Fin 2) * 256 + 256; omega

/-- The output array after the region is the whole-array function of the region's input arrays. -/
theorem final (c : Dev nD) :
    (dat5 (F := Ideal) V c).arrAt 3 cfg5.N
      = G (V c (Pipeline.arrRef spec5 0)) (V c (Pipeline.arrRef spec5 1)) (V c (Pipeline.arrRef spec5 2)) :=
  (dat5 V c).arrAt_eq_of_cover 3 _ (fun t _ => flushed_eq V c t) covered

/-- The region's arrays under plain types: the activations, the scale row, the shift row, and the result. -/
abbrev act (c : Dev nD) : S50000x256.Idx → EReal := V c (Pipeline.arrRef spec5 0)
abbrev scale (c : Dev nD) : S1x256.Idx → EReal := V c (Pipeline.arrRef spec5 1)
abbrev shift (c : Dev nD) : S1x256.Idx → EReal := V c (Pipeline.arrRef spec5 2)
abbrev res (c : Dev nD) : S50000x256.Idx → EReal := (dat5 (F := Ideal) V c).arrAt 3 cfg5.N

/-- The result entry by entry. -/
theorem arrAt_apply (c : Dev nD) (n : Fin 50000) (k : Fin 256) :
    res V c (ix2 n k) = max (act V c (ix2 n k) * scale V c (ix2 0 k) + shift V c (ix2 0 k)) 0 := by
  show (dat5 (F := Ideal) V c).arrAt 3 cfg5.N (ix2 n k) = _
  rw [final]
  rfl

end Cert.KernelIdeal.Reg5

end
-- ==== Proof.Stage5.lean ====
/-
  The normalisation and rectifier as the kernel computes them: between regions 4 and 5 the host turns the two
  per-feature sums into the mean and the mean of squares, the variance through the two means, the multiplier
  (the normalisation's weight over the deviation) and the offset (its bias minus the scaled mean times the multiplier);
  region 5 applies the multiplier and the offset to every entry and takes the maximum with zero.
-/
import proofs.«136480_j970662609200_2_alg».proof.Proof.ChainBase
import proofs.«136480_j970662609200_2_alg».proof.Proof.Region5

set_option maxRecDepth 16384

noncomputable section

namespace Cert.KernelIdeal.Chain

open Cert.KernelIdeal Cert.KernelIdeal.Gen
open Idealize.ShloMosaic Idealize.ShloMosaic.TcCoe Idealize.ShloMosaic.StableHlo Idealize.ShloMosaic.ValueIdx
open Idealize.SL.Sem

variable (m : (ℓ : Loc nD τ sig) → Buf (Elt Ideal) ℓ) (ρ : Dev nD → PrngReg) (c : Dev nD)

/-- A float word along a row of 256 entries. -/
abbrev row (b : BitVec 32) : S1x256.Idx → EReal := broadcastInDim S1x256 ![] bcast_S_S1x256 (constant (F := Ideal) S_ .f32 b)

/-- The word at every entry of such a row. -/
theorem row_apply (b : BitVec 32) (i : S1x256.Idx) : row b i = Ideal.ofBits .f32 b := by
  show broadcastInDim S1x256 ![] bcast_S_S1x256 (constant (F := Ideal) S_ .f32 b) i = _
  rw [broadcastInDim_apply (![] : Fin 0 → Fin 2) bcast_S_S1x256 _ i ix0 (fun a => a.elim0)]
  rfl

/-- The normalisation's weight, bias and mean scale as rows. -/
abbrev gwRow : S1x256.Idx → EReal := shapeCast S1x256 (m ((c : Thread nD τ).loc main_arg15)) shapeCasts_S256_S1x256
abbrev gbRow : S1x256.Idx → EReal := shapeCast S1x256 (m ((c : Thread nD τ).loc main_arg16)) shapeCasts_S256_S1x256
abbrev msRow : S1x256.Idx → EReal := shapeCast S1x256 (m ((c : Thread nD τ).loc main_arg17)) shapeCasts_S256_S1x256

/-- The mean and the mean of squares, as the host computes them from region 4's two sums. -/
abbrev meanRow : S1x256.Idx → EReal := Host.divf (F := Ideal) (φ := .f32) (S1 m ρ c) (row 0x47435000#32)
abbrev meanSqRow : S1x256.Idx → EReal := Host.divf (F := Ideal) (φ := .f32) (S2 m ρ c) (row 0x47435000#32)

/-- The multiplier row, as the host computes it. -/
abbrev scaleRow : S1x256.Idx → EReal :=
  Host.divf (F := Ideal) (φ := .f32) (gwRow m c)
    (Host.sqrt (F := Ideal) (φ := .f32) (addf (F := Ideal) (φ := .f32)
      (subf (F := Ideal) (φ := .f32) (meanSqRow m ρ c)
        (mulf (F := Ideal) (φ := .f32) (mulf (F := Ideal) (φ := .f32) (meanRow m ρ c) (meanRow m ρ c))
          (subf (F := Ideal) (φ := .f32) (mulf (F := Ideal) (φ := .f32) (row 0x40000000#32) (msRow m c))
            (mulf (F := Ideal) (φ := .f32) (msRow m c) (msRow m c)))))
      (row 0x3727C5AC#32)))

/-- The offset row, as the host computes it. -/
abbrev shiftRow : S1x256.Idx → EReal :=
  subf (F := Ideal) (φ := .f32) (gbRow m c)
    (mulf (F := Ideal) (φ := .f32) (mulf (F := Ideal) (φ := .f32) (msRow m c) (meanRow m ρ c)) (scaleRow m ρ c))

/-- Region 5 reads the third layer's result as region 3 left it. -/
theorem s5_act : (V10 (F := Ideal) m ρ c main_v55 : S50000x256.Idx → EReal) = H3 m ρ c := by
  walk_back

set_option maxHeartbeats 1600000 in
/-- Region 5's second window is the multiplier row. -/
theorem s5_scale : (V10 (F := Ideal) m ρ c main_v74 : S1x256.Idx → EReal) = scaleRow m ρ c := by
  walk_back
  try rfl

set_option maxHeartbeats 1600000 in
/-- Region 5's third window is the offset row. -/
theorem s5_shift : (V10 (F := Ideal) m ρ c main_v77 : S1x256.Idx → EReal) = shiftRow m ρ c := by
  walk_back
  try rfl

/-- The mean row at feature k is the spec's mean, given that region 4's first output is the sum over the nodes. -/
theorem meanRow_apply (h1 : ∀ k : Fin 256, S1 m ρ c (ix2 (0 : Fin 1) k) = ∑ n : Fin 50000, cur2 (H3 m ρ c) n k) (k : Fin 256) :
    meanRow m ρ c (ix2 (0 : Fin 1) k) = Cert.Spec.mean (cur2 (H3 m ρ c)) k := by
  show Ideal.div (S1 m ρ c (ix2 (0 : Fin 1) k)) (row 0x47435000#32 (ix2 (0 : Fin 1) k)) = _
  rw [h1, row_apply]
  unfold Cert.Spec.mean Cert.Spec.nodes
  rfl

/-- The mean-of-squares row at feature k is the spec's, given that region 4's second output is the sum of squares. -/
theorem meanSqRow_apply (h2 : ∀ k : Fin 256, S2 m ρ c (ix2 (0 : Fin 1) k) = ∑ n : Fin 50000, cur2 (H3 m ρ c) n k * cur2 (H3 m ρ c) n k) (k : Fin 256) :
    meanSqRow m ρ c (ix2 (0 : Fin 1) k) = Cert.Spec.meanSq (cur2 (H3 m ρ c)) k := by
  show Ideal.div (S2 m ρ c (ix2 (0 : Fin 1) k)) (row 0x47435000#32 (ix2 (0 : Fin 1) k)) = _
  rw [h2, row_apply]
  unfold Cert.Spec.meanSq Cert.Spec.nodes
  rfl

/-- The multiplier row at feature k is the spec's multiplier. -/
theorem scaleRow_apply (h1 : ∀ k : Fin 256, S1 m ρ c (ix2 (0 : Fin 1) k) = ∑ n : Fin 50000, cur2 (H3 m ρ c) n k)
    (h2 : ∀ k : Fin 256, S2 m ρ c (ix2 (0 : Fin 1) k) = ∑ n : Fin 50000, cur2 (H3 m ρ c) n k * cur2 (H3 m ρ c) n k) (k : Fin 256) :
    scaleRow m ρ c (ix2 (0 : Fin 1) k) = Cert.Spec.scale (Pa m c).gw (Pa m c).ms (cur2 (H3 m ρ c)) k := by
  show Ideal.div (gwRow m c (ix2 (0 : Fin 1) k)) (Ideal.sqrt ((meanSqRow m ρ c (ix2 (0 : Fin 1) k)
      - (meanRow m ρ c (ix2 (0 : Fin 1) k) * meanRow m ρ c (ix2 (0 : Fin 1) k))
        * (row 0x40000000#32 (ix2 (0 : Fin 1) k) * msRow m c (ix2 (0 : Fin 1) k) - msRow m c (ix2 (0 : Fin 1) k) * msRow m c (ix2 (0 : Fin 1) k)))
      + row 0x3727C5AC#32 (ix2 (0 : Fin 1) k))) = _
  rw [meanRow_apply m ρ c h1, meanSqRow_apply m ρ c h2, row_apply, row_apply,
    show gwRow m c (ix2 (0 : Fin 1) k) = (m ((c : Thread nD τ).loc main_arg15)) (ix1 k) from Cert.HostReads.rowReshape_apply _ _ k,
    show msRow m c (ix2 (0 : Fin 1) k) = (m ((c : Thread nD τ).loc main_arg17)) (ix1 k) from Cert.HostReads.rowReshape_apply _ _ k]
  unfold Cert.Spec.scale Cert.Spec.varianceK Cert.Spec.two Cert.Spec.eps
  rfl

/-- The offset row at feature k is the spec's offset. -/
theorem shiftRow_apply (h1 : ∀ k : Fin 256, S1 m ρ c (ix2 (0 : Fin 1) k) = ∑ n : Fin 50000, cur2 (H3 m ρ c) n k)
    (h2 : ∀ k : Fin 256, S2 m ρ c (ix2 (0 : Fin 1) k) = ∑ n : Fin 50000, cur2 (H3 m ρ c) n k * cur2 (H3 m ρ c) n k) (k : Fin 256) :
    shiftRow m ρ c (ix2 (0 : Fin 1) k) = Cert.Spec.shift (Pa m c).gw (Pa m c).gb (Pa m c).ms (cur2 (H3 m ρ c)) k := by
  show gbRow m c (ix2 (0 : Fin 1) k) - (msRow m c (ix2 (0 : Fin 1) k) * meanRow m ρ c (ix2 (0 : Fin 1) k)) * scaleRow m ρ c (ix2 (0 : Fin 1) k) = _
  rw [scaleRow_apply m ρ c h1 h2, meanRow_apply m ρ c h1,
    show gbRow m c (ix2 (0 : Fin 1) k) = (m ((c : Thread nD τ).loc main_arg16)) (ix1 k) from Cert.HostReads.rowReshape_apply _ _ k,
    show msRow m c (ix2 (0 : Fin 1) k) = (m ((c : Thread nD τ).loc main_arg17)) (ix1 k) from Cert.HostReads.rowReshape_apply _ _ k]
  unfold Cert.Spec.shift
  rfl

/-- The normalised, rectified activations: the third layer's result through the kernel's affine normalisation, given
    that region 4's two outputs are the per-feature sum and sum of squares of the third layer's result. -/
theorem s5 (h1 : ∀ k : Fin 256, S1 m ρ c (ix2 (0 : Fin 1) k) = ∑ n : Fin 50000, cur2 (H3 m ρ c) n k)
    (h2 : ∀ k : Fin 256, S2 m ρ c (ix2 (0 : Fin 1) k) = ∑ n : Fin 50000, cur2 (H3 m ρ c) n k * cur2 (H3 m ρ c) n k) :
    cur2 (H4 m ρ c) = Cert.Spec.normReluK (Pa m c).gw (Pa m c).gb (Pa m c).ms (cur2 (H3 m ρ c)) := by
  funext n k
  have hH : H4 m ρ c = Cert.KernelIdeal.Reg5.res (V10 m ρ) c := W11_arr m ρ c 3
  have ha : Cert.KernelIdeal.Reg5.act (V10 m ρ) c = H3 m ρ c := s5_act m ρ c
  have hs : Cert.KernelIdeal.Reg5.scale (V10 m ρ) c = scaleRow m ρ c := s5_scale m ρ c
  have ht : Cert.KernelIdeal.Reg5.shift (V10 m ρ) c = shiftRow m ρ c := s5_shift m ρ c
  show H4 m ρ c (ix2 n k) = _
  rw [hH, Cert.KernelIdeal.Reg5.arrAt_apply, ha, hs, ht, scaleRow_apply m ρ c h1 h2, shiftRow_apply m ρ c h1 h2]
  rfl

end Cert.KernelIdeal.Chain

end
-- ==== Proof.Region6.lean ====
/-
  Region 6: the array the region's output window ends holding, as one function of the arrays the region finds, entry
  by entry. Each grid point multiplies its block of rows by the whole weight matrix; the row blocks tile the node axis,
  so the output array is the matrix product of the two input arrays.
-/
import proofs.«136480_j970662609200_2_alg».proof.Proof.Gen.KernelIdeal.Frame
import Idealize.ShloMosaic.Lib.ValueIdx
import Idealize.ShloMosaic.Lib.Pipeline.Value
import Idealize.ShloMosaic.PureOps.Ideal.Laws
import proofs.«136480_j970662609200_2_alg».proof.Proof.LibDot

noncomputable section

open Idealize.ShloMosaic Idealize.ShloMosaic.TcCoe Idealize.SL.Sem
open Idealize.ShloMosaic.Pipeline (Dat)
open Idealize.ShloMosaic.ValueIdx
open scoped BigOperators

namespace Cert.KernelIdeal.Reg6

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's payload at entry (p, q): row p of the activations' block times column q of the weights. -/
theorem pay_apply (x0 : Vec Ideal S2000x256 .f32) (x1 : Vec Ideal S256x128 .f32) (p : Fin 2000) (q : Fin 128) :
    k6_pay1 (F := Ideal) x0 x1 (ix2 p q) = ∑ k : Fin 256, x0 (ix2 p k) * x1 (ix2 k q) := by
  unfold k6_pay1
  simp only [shapeCast_self]
  exact Cert.LibDot.matmul_zero_plain _ rfl _ x0 x1 p q

/-- The matrix product of an activations array and a weights array, entry by entry. -/
def prod (A : S50000x256.Idx → Elt Ideal .f32) (W : S256x128.Idx → Elt Ideal .f32) : S50000x128.Idx → Elt Ideal .f32 :=
  fun i => ∑ k : Fin 256, A (ix2 (i 0) k) * W (ix2 k (i 1))

/-- The printed index maps over the grid: point t's activation and output blocks are block row t, the weights' block
    is the whole array. -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- The activations' block at point t is rows 2000 t … 2000 t + 1999 of the activations array. -/
theorem act_blk_apply (c : Dev nD) (t : Fin cfg6.N) (x : S2000x256.Idx) (i : S50000x256.Idx)
    (h0 : (i 0).val = t.val * 2000 + (x 0).val) (h1 : (i 1).val = (x 1).val) :
    (iblk6 V c 0 t : Vec Ideal S2000x256 .f32) x = (V c (Pipeline.arrRef spec6 0) : S50000x256.Idx → Elt Ideal .f32) i := by
  obtain ⟨e0, e1, -, -, -, -⟩ := idx_facts t
  unfold iblk6
  rw [View.read_apply]
  refine congrArg (V c (Pipeline.arrRef spec6 0) : S50000x256.Idx → Elt Ideal .f32) (funext fun a => Fin.ext ?_)
  match a with
  | ⟨0, _⟩ => show win6_0.index t (0 : Fin 2) * 2000 + 1 * (x 0).val = (i 0).val; rw [e0, h0]; omega
  | ⟨1, _⟩ => show win6_0.index t (1 : Fin 2) * 256 + 1 * (x 1).val = (i 1).val; rw [e1, h1]; omega

/-- The weights' block at every point is the weights array. -/
theorem wgt_blk_apply (c : Dev nD) (t : Fin cfg6.N) (x : S256x128.Idx) :
    (iblk6 V c 1 t : Vec Ideal S256x128 .f32) x = (V c (Pipeline.arrRef spec6 1) : S256x128.Idx → Elt Ideal .f32) x := by
  obtain ⟨-, -, e0, e1, -, -⟩ := idx_facts t
  unfold iblk6
  rw [View.read_apply]
  refine congrArg (V c (Pipeline.arrRef spec6 1) : S256x128.Idx → Elt Ideal .f32) (funext fun a => Fin.ext ?_)
  match a with
  | ⟨0, _⟩ => show win6_1.index t (0 : Fin 2) * 256 + 1 * (x 0).val = (x 0).val; rw [e0]; omega
  | ⟨1, _⟩ => show win6_1.index t (1 : Fin 2) * 128 + 1 * (x 1).val = (x 1).val; rw [e1]; omega

/-- What a point computes at an entry of its block is the product's entry at the corresponding row of the arrays. -/
theorem point_eq (c : Dev nD) (t : Fin cfg6.N) (j : S2000x128.Idx) (i : S50000x128.Idx)
    (h0 : (i 0).val = t.val * 2000 + (j 0).val) (h1 : (i 1).val = (j 1).val) :
    k6_pay1 (F := Ideal) (iblk6 V c 0 t) (iblk6 V c 1 t) j = prod (V c (Pipeline.arrRef spec6 0)) (V c (Pipeline.arrRef spec6 1)) i := by
  refine (congrArg (k6_pay1 (F := Ideal) (iblk6 V c 0 t) (iblk6 V c 1 t)) (eq_ix2 j)).trans ?_
  refine (pay_apply (iblk6 V c 0 t) (iblk6 V c 1 t) (j 0) (j 1)).trans ?_
  unfold prod
  refine Finset.sum_congr rfl fun k _ => ?_
  have ha : (iblk6 V c 0 t : Vec Ideal S2000x256 .f32) (ix2 (j 0) k)
      = (V c (Pipeline.arrRef spec6 0) : S50000x256.Idx → Elt Ideal .f32) (ix2 (i 0) k) :=
    act_blk_apply V c t (ix2 (j 0) k) (ix2 (i 0) k) h0 rfl
  have hb : (iblk6 V c 1 t : Vec Ideal S256x128 .f32) (ix2 k (j 1))
      = (V c (Pipeline.arrRef spec6 1) : S256x128.Idx → Elt Ideal .f32) (ix2 k (i 1)) :=
    (wgt_blk_apply V c t (ix2 k (j 1))).trans
      (congrArg (V c (Pipeline.arrRef spec6 1) : S256x128.Idx → Elt Ideal .f32) (congrArg (ix2 k) (Fin.ext h1.symm)))
  exact congr (congrArg _ ha) hb

/-- What point t writes back is block t of the product of the arrays as the region finds them. -/
theorem flushed_eq (c : Dev nD) (t : Fin cfg6.N) :
    (dat6 (F := Ideal) V c).flushed 2 t = ((cfg6.win 2).blk t).view.read (Elt Ideal) (prod (V c (Pipeline.arrRef spec6 0)) (V c (Pipeline.arrRef spec6 1))) := by
  show (cfg6.win 2).cut (grid6.coords t) ((dat6 V c).after 2 t) = _
  rw [after6_2]
  unfold out6_2
  rw [View.canon_unit_zero hz]
  simp only [View.ld_unit_zero (S := S2000x256) hz, View.ld_unit_zero (S := S256x128) hz]
  obtain ⟨-, -, -, -, e0, e1⟩ := idx_facts t
  funext j
  show k6_pay1 (F := Ideal) (iblk6 V c 0 t) (iblk6 V c 1 t) j = prod (V c (Pipeline.arrRef spec6 0)) (V c (Pipeline.arrRef spec6 1)) (((cfg6.win 2).blk t).view.emb j)
  refine point_eq V c t j _ ?_ ?_
  · show win6_2.index t (0 : Fin 2) * 2000 + 1 * (j 0).val = t.val * 2000 + (j 0).val
    rw [e0]; omega
  · show win6_2.index t (1 : Fin 2) * 128 + 1 * (j 1).val = (j 1).val
    rw [e1]; omega

/-- An index of the output array is in point t's block iff each coordinate is in the block's range on its axis. -/
theorem mem_blk (t : Fin cfg6.N) (i : S50000x128.Idx) :
    i ∈ ((cfg6.win 2).blk t).view.set ↔ ∀ a : Fin 2, win6_2.index t a * S2000x128.size a ≤ (i a).val ∧ (i a).val < win6_2.index t a * S2000x128.size a + S2000x128.size a := by
  show i ∈ ((View.whole main_v80).slice (win6_2.rect t)).set ↔ _
  rw [View.set_slice_whole, Rect.mem_set_unit]
  exact Iff.rfl

/-- Every entry of the output array is in the block of the point its row falls in. -/
theorem covered (i : S50000x128.Idx) :
    ∃ t : Fin cfg6.N, (cfg6.win 2).flush t = true ∧ i ∈ ((cfg6.win 2).blk t).view.set := by
  have hi0 : (i 0).val < 50000 := (i 0).isLt
  have hi1 : (i 1).val < 128 := (i 1).isLt
  have hN : cfg6.N = 25 := N_6
  let t : Fin cfg6.N := ⟨(i 0).val / 2000, by rw [hN]; omega⟩
  obtain ⟨-, -, -, -, e0, e1⟩ := idx_facts t
  have ht : t.val = (i 0).val / 2000 := rfl
  refine ⟨t, flush6_2 t, ?_⟩
  rw [mem_blk]
  intro a
  match a with
  | ⟨0, _⟩ => show win6_2.index t (0 : Fin 2) * 2000 ≤ (i 0).val ∧ (i 0).val < win6_2.index t (0 : Fin 2) * 2000 + 2000; rw [e0, ht]; omega
  | ⟨1, _⟩ => show win6_2.index t (1 : Fin 2) * 128 ≤ (i 1).val ∧ (i 1).val < win6_2.index t (1 : Fin 2) * 128 + 128; rw [e1]; omega

/-- The output array after the region is the matrix product of the activations and the weights as the region finds them. -/
theorem final (c : Dev nD) :
    (dat6 (F := Ideal) V c).arrAt 2 cfg6.N = prod (V c (Pipeline.arrRef spec6 0)) (V c (Pipeline.arrRef spec6 1)) :=
  (dat6 (F := Ideal) V c).arrAt_eq_of_cover 2 (prod (V c (Pipeline.arrRef spec6 0)) (V c (Pipeline.arrRef spec6 1)))
    (fun t _ => flushed_eq V c t) covered

/-- The product at an entry. -/
theorem prod_apply (A : S50000x256.Idx → Elt Ideal .f32) (W : S256x128.Idx → Elt Ideal .f32) (n : Fin 50000) (o : Fin 128) :
    prod A W (ix2 n o) = ∑ k : Fin 256, A (ix2 n k) * W (ix2 k o) := rfl

/-- The activations array as the region finds it, at its literal type. -/
abbrev act (c : Dev nD) : S50000x256.Idx → EReal := V c (Pipeline.arrRef spec6 0)
/-- The weights array as the region finds it, at its literal type. -/
abbrev wgt (c : Dev nD) : S256x128.Idx → EReal := V c (Pipeline.arrRef spec6 1)
/-- The output array after the region, at its literal type. -/
abbrev res (c : Dev nD) : S50000x128.Idx → EReal := (dat6 (F := Ideal) V c).arrAt 2 cfg6.N

/-- The output array after the region at an entry: row n of the activations times column o of the weights. -/
theorem arrAt_apply (c : Dev nD) (n : Fin 50000) (o : Fin 128) :
    res V c (ix2 n o) = ∑ k : Fin 256, act V c (ix2 n k) * wgt V c (ix2 k o) :=
  congrFun (final V c) (ix2 n o)

end Cert.KernelIdeal.Reg6

end
-- ==== Proof.Stage6.lean ====
/-
  The fourth layer's relational weights, applied before the aggregation: region 6 multiplies the normalised, rectified
  activations by the transposed weight matrix, so its output is the activations times the weights' transpose.
-/
import proofs.«136480_j970662609200_2_alg».proof.Proof.ChainBase
import proofs.«136480_j970662609200_2_alg».proof.Proof.Region6

set_option maxRecDepth 16384

noncomputable section

namespace Cert.KernelIdeal.Chain

open Cert.KernelIdeal Cert.KernelIdeal.Gen
open Idealize.ShloMosaic Idealize.ShloMosaic.TcCoe Idealize.ShloMosaic.StableHlo Idealize.ShloMosaic.ValueIdx
open Idealize.SL.Sem

variable (m : (ℓ : Loc nD τ sig) → Buf (Elt Ideal) ℓ) (ρ : Dev nD → PrngReg) (c : Dev nD)

/-- Region 6 reads the normalised, rectified activations as region 5 left them. -/
theorem s6_act : (V12 (F := Ideal) m ρ c main_v78 : S50000x256.Idx → EReal) = H4 m ρ c := by
  walk_back

/-- Region 6's weights are the transpose of the fourth layer's relational weights. -/
theorem s6_wgt : (V12 (F := Ideal) m ρ c main_v79 : S256x128.Idx → EReal)
    = transpose S256x128 [1, 0] (m ((c : Thread nD τ).loc main_arg12)) transposes_S128x256_S256x128_1_0 := by
  walk_back

/-- The features the fourth layer aggregates: the normalised activations times the relational weights' transpose. -/
theorem s6 : cur2 (Y4 m ρ c) = Cert.Spec.lin (Pa m c).Wrel4 (cur2 (H4 m ρ c)) := by
  funext n o
  have hY : Y4 m ρ c = Cert.KernelIdeal.Reg6.res (V12 m ρ) c := W13_arr m ρ c 2
  have ha : Cert.KernelIdeal.Reg6.act (V12 m ρ) c = H4 m ρ c := s6_act m ρ c
  have hw : Cert.KernelIdeal.Reg6.wgt (V12 m ρ) c
      = transpose S256x128 [1, 0] (m ((c : Thread nD τ).loc main_arg12)) transposes_S128x256_S256x128_1_0 := s6_wgt m ρ c
  show Y4 m ρ c (ix2 n o) = _
  rw [hY, Cert.KernelIdeal.Reg6.arrAt_apply, ha, hw]
  refine Finset.sum_congr rfl fun k _ => ?_
  rw [Cert.HostReads.transpose2_apply]
  rfl

end Cert.KernelIdeal.Chain

end
-- ==== Proof.Region7.lean ====
/-
  Region 7: the array the region's output window ends holding, as one function of the arrays the region finds, entry
  by entry. Each grid point adds, to its block of rows of the aggregated array, its block of rows of the activations
  times the whole weight matrix, and then the bias row; the row blocks tile the node axis, so the output array is the
  aggregated array plus the matrix product plus the bias broadcast along the rows.
-/
import proofs.«136480_j970662609200_2_alg».proof.Proof.Gen.KernelIdeal.Frame
import Idealize.ShloMosaic.Lib.ValueIdx
import Idealize.ShloMosaic.Lib.Pipeline.Value
import Idealize.ShloMosaic.PureOps.Ideal.Laws
import proofs.«136480_j970662609200_2_alg».proof.Proof.LibDot

noncomputable section

open Idealize.ShloMosaic Idealize.ShloMosaic.TcCoe Idealize.SL.Sem
open Idealize.ShloMosaic.Pipeline (Dat)
open Idealize.ShloMosaic.ValueIdx
open scoped BigOperators

namespace Cert.KernelIdeal.Reg7

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's payload at entry (p, q): the aggregated block's entry, plus row p of the activations' block times
    column q of the weights, plus the bias at column q. -/
theorem pay_apply (x0 : Vec Ideal S2000x128 .f32) (x1 : Vec Ideal S2000x256 .f32) (x2 : Vec Ideal S256x128 .f32)
    (x3 : Vec Ideal S1x128 .f32) (p : Fin 2000) (q : Fin 128) :
    k7_pay1 (F := Ideal) x0 x1 x2 x3 (ix2 p q)
      = (x0 (ix2 p q) + ∑ k : Fin 256, x1 (ix2 p k) * x2 (ix2 k q)) + x3 (ix2 0 q) := by
  have hm := Cert.LibDot.matmul_zero_plain (φ₁ := .f32) (φ₂ := .f32) dot_S2000x256_S256x128_S2000x128_1_0_0_1_n_n rfl (some .fp32) x1 x2 p q
  have hb : broadcastTo S2000x128 x3 broadcasts_S1x128_S2000x128 (ix2 p q) = x3 (ix2 0 q) :=
    broadcastTo_apply x3 broadcasts_S1x128_S2000x128 (ix2 p q) (ix2 0 q)
      (fun a => by match a with | ⟨0, _⟩ => rfl | ⟨1, _⟩ => rfl)
  unfold k7_pay1
  simp only [shapeCast_self]
  exact congr (congrArg HAdd.hAdd (congrArg (HAdd.hAdd (x0 (ix2 p q))) hm)) hb

/-- The aggregated array plus the matrix product of the activations and the weights plus the bias row, entry by entry. -/
def affine (Agg : S50000x128.Idx → Elt Ideal .f32) (A : S50000x256.Idx → Elt Ideal .f32)
    (W : S256x128.Idx → Elt Ideal .f32) (B : S1x128.Idx → Elt Ideal .f32) : S50000x128.Idx → Elt Ideal .f32 :=
  fun i => (Agg i + ∑ k : Fin 256, A (ix2 (i 0) k) * W (ix2 k (i 1))) + B (ix2 0 (i 1))

/-- The printed index maps over the grid: point t's aggregated, activation and output blocks are block row t, the
    weights' and the bias's block is the whole array. -/
theorem idx_facts : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = t.val ∧ win7_4.index t (1 : Fin 2) = 0 :=
  (by decide +kernel : ∀ t : Fin grid7.N, _)

/-- The aggregated array's block at point t is its rows 2000 t … 2000 t + 1999. -/
theorem agg_blk_apply (c : Dev nD) (t : Fin cfg7.N) (x : S2000x128.Idx) (i : S50000x128.Idx)
    (h0 : (i 0).val = t.val * 2000 + (x 0).val) (h1 : (i 1).val = (x 1).val) :
    (iblk7 V c 0 t : Vec Ideal S2000x128 .f32) x = (V c (Pipeline.arrRef spec7 0) : S50000x128.Idx → Elt Ideal .f32) i := by
  obtain ⟨e0, e1, -⟩ := idx_facts t
  unfold iblk7
  rw [View.read_apply]
  refine congrArg (V c (Pipeline.arrRef spec7 0) : S50000x128.Idx → Elt Ideal .f32) (funext fun a => Fin.ext ?_)
  match a with
  | ⟨0, _⟩ => show win7_0.index t (0 : Fin 2) * 2000 + 1 * (x 0).val = (i 0).val; rw [e0, h0]; omega
  | ⟨1, _⟩ => show win7_0.index t (1 : Fin 2) * 128 + 1 * (x 1).val = (i 1).val; rw [e1, h1]; omega

/-- The activations' block at point t is rows 2000 t … 2000 t + 1999 of the activations array. -/
theorem act_blk_apply (c : Dev nD) (t : Fin cfg7.N) (x : S2000x256.Idx) (i : S50000x256.Idx)
    (h0 : (i 0).val = t.val * 2000 + (x 0).val) (h1 : (i 1).val = (x 1).val) :
    (iblk7 V c 1 t : Vec Ideal S2000x256 .f32) x = (V c (Pipeline.arrRef spec7 1) : S50000x256.Idx → Elt Ideal .f32) i := by
  obtain ⟨-, -, e0, e1, -⟩ := idx_facts t
  unfold iblk7
  rw [View.read_apply]
  refine congrArg (V c (Pipeline.arrRef spec7 1) : S50000x256.Idx → Elt Ideal .f32) (funext fun a => Fin.ext ?_)
  match a with
  | ⟨0, _⟩ => show win7_1.index t (0 : Fin 2) * 2000 + 1 * (x 0).val = (i 0).val; rw [e0, h0]; omega
  | ⟨1, _⟩ => show win7_1.index t (1 : Fin 2) * 256 + 1 * (x 1).val = (i 1).val; rw [e1, h1]; omega

/-- The weights' block at every point is the weights array. -/
theorem wgt_blk_apply (c : Dev nD) (t : Fin cfg7.N) (x : S256x128.Idx) :
    (iblk7 V c 2 t : Vec Ideal S256x128 .f32) x = (V c (Pipeline.arrRef spec7 2) : S256x128.Idx → Elt Ideal .f32) x := by
  obtain ⟨-, -, -, -, e0, e1, -⟩ := idx_facts t
  unfold iblk7
  rw [View.read_apply]
  refine congrArg (V c (Pipeline.arrRef spec7 2) : S256x128.Idx → Elt Ideal .f32) (funext fun a => Fin.ext ?_)
  match a with
  | ⟨0, _⟩ => show win7_2.index t (0 : Fin 2) * 256 + 1 * (x 0).val = (x 0).val; rw [e0]; omega
  | ⟨1, _⟩ => show win7_2.index t (1 : Fin 2) * 128 + 1 * (x 1).val = (x 1).val; rw [e1]; omega

/-- The bias's block at every point is the bias row. -/
theorem bias_blk_apply (c : Dev nD) (t : Fin cfg7.N) (x : S1x128.Idx) :
    (iblk7 V c 3 t : Vec Ideal S1x128 .f32) x = (V c (Pipeline.arrRef spec7 3) : S1x128.Idx → Elt Ideal .f32) x := by
  obtain ⟨-, -, -, -, -, -, e0, e1, -⟩ := idx_facts t
  unfold iblk7
  rw [View.read_apply]
  refine congrArg (V c (Pipeline.arrRef spec7 3) : S1x128.Idx → Elt Ideal .f32) (funext fun a => Fin.ext ?_)
  match a with
  | ⟨0, _⟩ => show win7_3.index t (0 : Fin 2) * 1 + 1 * (x 0).val = (x 0).val; rw [e0]; omega
  | ⟨1, _⟩ => show win7_3.index t (1 : Fin 2) * 128 + 1 * (x 1).val = (x 1).val; rw [e1]; omega

/-- What a point computes at an entry of its block is the whole-array function's entry at the corresponding row. -/
theorem point_eq (c : Dev nD) (t : Fin cfg7.N) (j : S2000x128.Idx) (i : S50000x128.Idx)
    (h0 : (i 0).val = t.val * 2000 + (j 0).val) (h1 : (i 1).val = (j 1).val) :
    k7_pay1 (F := Ideal) (iblk7 V c 0 t) (iblk7 V c 1 t) (iblk7 V c 2 t) (iblk7 V c 3 t) j
      = affine (V c (Pipeline.arrRef spec7 0)) (V c (Pipeline.arrRef spec7 1)) (V c (Pipeline.arrRef spec7 2)) (V c (Pipeline.arrRef spec7 3)) i := by
  refine (congrArg (k7_pay1 (F := Ideal) (iblk7 V c 0 t) (iblk7 V c 1 t) (iblk7 V c 2 t) (iblk7 V c 3 t)) (eq_ix2 j)).trans ?_
  refine (pay_apply (iblk7 V c 0 t) (iblk7 V c 1 t) (iblk7 V c 2 t) (iblk7 V c 3 t) (j 0) (j 1)).trans ?_
  unfold affine
  have hg : (iblk7 V c 0 t : Vec Ideal S2000x128 .f32) (ix2 (j 0) (j 1))
      = (V c (Pipeline.arrRef spec7 0) : S50000x128.Idx → Elt Ideal .f32) i :=
    agg_blk_apply V c t (ix2 (j 0) (j 1)) i h0 h1
  have hb : (iblk7 V c 3 t : Vec Ideal S1x128 .f32) (ix2 0 (j 1))
      = (V c (Pipeline.arrRef spec7 3) : S1x128.Idx → Elt Ideal .f32) (ix2 0 (i 1)) :=
    (bias_blk_apply V c t (ix2 0 (j 1))).trans
      (congrArg (V c (Pipeline.arrRef spec7 3) : S1x128.Idx → Elt Ideal .f32) (congrArg (ix2 0) (Fin.ext h1.symm)))
  refine congr (congrArg HAdd.hAdd (congr (congrArg HAdd.hAdd hg) (Finset.sum_congr rfl fun k _ => ?_))) hb
  have ha : (iblk7 V c 1 t : Vec Ideal S2000x256 .f32) (ix2 (j 0) k)
      = (V c (Pipeline.arrRef spec7 1) : S50000x256.Idx → Elt Ideal .f32) (ix2 (i 0) k) :=
    act_blk_apply V c t (ix2 (j 0) k) (ix2 (i 0) k) h0 rfl
  have hw : (iblk7 V c 2 t : Vec Ideal S256x128 .f32) (ix2 k (j 1))
      = (V c (Pipeline.arrRef spec7 2) : S256x128.Idx → Elt Ideal .f32) (ix2 k (i 1)) :=
    (wgt_blk_apply V c t (ix2 k (j 1))).trans
      (congrArg (V c (Pipeline.arrRef spec7 2) : S256x128.Idx → Elt Ideal .f32) (congrArg (ix2 k) (Fin.ext h1.symm)))
  exact congr (congrArg HMul.hMul ha) hw

/-- What point t writes back is block t of the whole-array function of the arrays as the region finds them. -/
theorem flushed_eq (c : Dev nD) (t : Fin cfg7.N) :
    (dat7 (F := Ideal) V c).flushed 4 t = ((cfg7.win 4).blk t).view.read (Elt Ideal)
      (affine (V c (Pipeline.arrRef spec7 0)) (V c (Pipeline.arrRef spec7 1)) (V c (Pipeline.arrRef spec7 2)) (V c (Pipeline.arrRef spec7 3))) := by
  show (cfg7.win 4).cut (grid7.coords t) ((dat7 V c).after 4 t) = _
  rw [after7_4]
  unfold out7_4
  rw [View.canon_unit_zero hz]
  simp only [View.ld_unit_zero (S := S2000x128) hz, View.ld_unit_zero (S := S2000x256) hz,
    View.ld_unit_zero (S := S256x128) hz, View.ld_unit_zero (S := S1x128) hz]
  obtain ⟨-, -, -, -, -, -, -, -, e0, e1⟩ := idx_facts t
  funext j
  show k7_pay1 (F := Ideal) (iblk7 V c 0 t) (iblk7 V c 1 t) (iblk7 V c 2 t) (iblk7 V c 3 t) j
    = affine (V c (Pipeline.arrRef spec7 0)) (V c (Pipeline.arrRef spec7 1)) (V c (Pipeline.arrRef spec7 2)) (V c (Pipeline.arrRef spec7 3)) (((cfg7.win 4).blk t).view.emb j)
  refine point_eq V c t j _ ?_ ?_
  · show win7_4.index t (0 : Fin 2) * 2000 + 1 * (j 0).val = t.val * 2000 + (j 0).val
    rw [e0]; omega
  · show win7_4.index t (1 : Fin 2) * 128 + 1 * (j 1).val = (j 1).val
    rw [e1]; omega

/-- An index of the output array is in point t's block iff each coordinate is in the block's range on its axis. -/
theorem mem_blk (t : Fin cfg7.N) (i : S50000x128.Idx) :
    i ∈ ((cfg7.win 4).blk t).view.set ↔ ∀ a : Fin 2, win7_4.index t a * S2000x128.size a ≤ (i a).val ∧ (i a).val < win7_4.index t a * S2000x128.size a + S2000x128.size a := by
  show i ∈ ((View.whole main_v96).slice (win7_4.rect t)).set ↔ _
  rw [View.set_slice_whole, Rect.mem_set_unit]
  exact Iff.rfl

/-- Every entry of the output array is in the block of the point its row falls in. -/
theorem covered (i : S50000x128.Idx) :
    ∃ t : Fin cfg7.N, (cfg7.win 4).flush t = true ∧ i ∈ ((cfg7.win 4).blk t).view.set := by
  have hi0 : (i 0).val < 50000 := (i 0).isLt
  have hi1 : (i 1).val < 128 := (i 1).isLt
  have hN : cfg7.N = 25 := N_7
  let t : Fin cfg7.N := ⟨(i 0).val / 2000, by rw [hN]; omega⟩
  obtain ⟨-, -, -, -, -, -, -, -, e0, e1⟩ := idx_facts t
  have ht : t.val = (i 0).val / 2000 := rfl
  refine ⟨t, flush7_4 t, ?_⟩
  rw [mem_blk]
  intro a
  match a with
  | ⟨0, _⟩ => show win7_4.index t (0 : Fin 2) * 2000 ≤ (i 0).val ∧ (i 0).val < win7_4.index t (0 : Fin 2) * 2000 + 2000; rw [e0, ht]; omega
  | ⟨1, _⟩ => show win7_4.index t (1 : Fin 2) * 128 ≤ (i 1).val ∧ (i 1).val < win7_4.index t (1 : Fin 2) * 128 + 128; rw [e1]; omega

/-- The output array after the region is the whole-array function of the four arrays as the region finds them. -/
theorem final (c : Dev nD) :
    (dat7 (F := Ideal) V c).arrAt 4 cfg7.N
      = affine (V c (Pipeline.arrRef spec7 0)) (V c (Pipeline.arrRef spec7 1)) (V c (Pipeline.arrRef spec7 2)) (V c (Pipeline.arrRef spec7 3)) :=
  (dat7 (F := Ideal) V c).arrAt_eq_of_cover 4
    (affine (V c (Pipeline.arrRef spec7 0)) (V c (Pipeline.arrRef spec7 1)) (V c (Pipeline.arrRef spec7 2)) (V c (Pipeline.arrRef spec7 3)))
    (fun t _ => flushed_eq V c t) covered

/-- The whole-array function at an entry. -/
theorem affine_apply (Agg : S50000x128.Idx → Elt Ideal .f32) (A : S50000x256.Idx → Elt Ideal .f32)
    (W : S256x128.Idx → Elt Ideal .f32) (B : S1x128.Idx → Elt Ideal .f32) (n : Fin 50000) (o : Fin 128) :
    affine Agg A W B (ix2 n o) = (Agg (ix2 n o) + ∑ k : Fin 256, A (ix2 n k) * W (ix2 k o)) + B (ix2 0 o) := rfl

/-- The aggregated array as the region finds it, at its literal type. -/
abbrev agg (c : Dev nD) : S50000x128.Idx → EReal := V c (Pipeline.arrRef spec7 0)
/-- The activations array as the region finds it, at its literal type. -/
abbrev act (c : Dev nD) : S50000x256.Idx → EReal := V c (Pipeline.arrRef spec7 1)
/-- The weights array as the region finds it, at its literal type. -/
abbrev wgt (c : Dev nD) : S256x128.Idx → EReal := V c (Pipeline.arrRef spec7 2)
/-- The bias row as the region finds it, at its literal type. -/
abbrev bias (c : Dev nD) : S1x128.Idx → EReal := V c (Pipeline.arrRef spec7 3)
/-- The output array after the region, at its literal type. -/
abbrev res (c : Dev nD) : S50000x128.Idx → EReal := (dat7 (F := Ideal) V c).arrAt 4 cfg7.N

/-- The output array after the region at an entry. -/
theorem arrAt_apply (c : Dev nD) (n : Fin 50000) (o : Fin 128) :
    res V c (ix2 n o) = (agg V c (ix2 n o) + ∑ k : Fin 256, act V c (ix2 n k) * wgt V c (ix2 k o)) + bias V c (ix2 0 o) :=
  congrFun (final V c) (ix2 n o)

end Cert.KernelIdeal.Reg7

end
-- ==== Proof.Stage7.lean ====
/-
  The fourth layer's result: region 7 adds, entry by entry, the aggregate of region 6's output over the edges arriving
  at a node, the normalised activations times the transposed root weights, and the bias. The aggregate is computed
  before the region by a row gather, a scaling by the edge weights and a row scatter-add onto zero.
-/
import proofs.«136480_j970662609200_2_alg».proof.Proof.ChainBase
import proofs.«136480_j970662609200_2_alg».proof.Proof.Region7

set_option maxRecDepth 16384

noncomputable section

namespace Cert.KernelIdeal.Chain

open Cert.KernelIdeal Cert.KernelIdeal.Gen
open Idealize.ShloMosaic Idealize.ShloMosaic.TcCoe Idealize.ShloMosaic.StableHlo Idealize.ShloMosaic.ValueIdx
open Idealize.SL.Sem

variable (m : (ℓ : Loc nD τ sig) → Buf (Elt Ideal) ℓ) (ρ : Dev nD → PrngReg) (c : Dev nD)

/-- The rows the edges read, as region 7's aggregate gathers by them: the same array as the reference's. -/
theorem s7_src : (V14 (F := Ideal) m ρ c main_v86 : S400000x1.Idx → BitVec 32) = Cert.Args.srcIdx (m ((c : Thread nD τ).loc main_arg1)) := by
  walk_back
  try rfl

/-- The rows the edges arrive at, as region 7's aggregate scatters by them: the same array as the reference's. -/
theorem s7_dst : (V14 (F := Ideal) m ρ c main_v92 : S400000x1.Idx → BitVec 32) = Cert.Args.dstIdx (m ((c : Thread nD τ).loc main_arg1)) := by
  walk_back
  try rfl

set_option maxHeartbeats 1600000 in
/-- Region 7's first window: the gathered rows of region 6's output, scaled by the edge weights, scatter-added onto zero. -/
theorem s7_agg : (V14 (F := Ideal) m ρ c main_v93 : S50000x128.Idx → EReal)
    = Host.scatterAdd (F := Ideal) scatter_S50000x128_S400000x1_S400000x128_1_0_0_1
        (broadcastInDim S50000x128 ![] bcast_S_S50000x128 (constant (F := Ideal) S_ .f32 0x00000000#32))
        (V14 (F := Ideal) m ρ c main_v92 : S400000x1.Idx → BitVec 32)
        (mulf (F := Ideal) (Host.gather gather_S50000x128_S400000x1_S400000x128_1_0_n_n_0_1_1128 (Y4 m ρ c) (V14 (F := Ideal) m ρ c main_v86 : S400000x1.Idx → BitVec 32))
          (broadcastInDim S400000x128 ![0, 1] bcast_S400000x1_S400000x128_0_1 (broadcastInDim S400000x1 ![0] bcast_S400000_S400000x1_0 (m ((c : Thread nD τ).loc main_arg2))))) := by
  walk_back

/-- Region 7 reads the normalised, rectified activations as region 5 left them. -/
theorem s7_act : (V14 (F := Ideal) m ρ c main_v78 : S50000x256.Idx → EReal) = H4 m ρ c := by
  walk_back

/-- Region 7's weights are the transpose of the fourth layer's root weights. -/
theorem s7_wgt : (V14 (F := Ideal) m ρ c main_v94 : S256x128.Idx → EReal)
    = transpose S256x128 [1, 0] (m ((c : Thread nD τ).loc main_arg14)) transposes_S128x256_S256x128_1_0 := by
  walk_back

/-- Region 7's bias row is the fourth layer's bias reshaped to a row. -/
theorem s7_bias : (V14 (F := Ideal) m ρ c main_v95 : S1x128.Idx → EReal)
    = shapeCast S1x128 (m ((c : Thread nD τ).loc main_arg13)) shapeCasts_S128_S1x128 := by
  walk_back
  rfl

/-- The fourth layer's result: the aggregate of the features region 6 left, plus the normalised activations times the
    root weights' transpose, plus the bias. -/
theorem s7 : cur2 (Out m ρ c) = fun n o =>
    (Cert.Spec.agg (Gr m c) (Pa m c).w (cur2 (Y4 m ρ c)) n o + Cert.Spec.lin (Pa m c).Wroot4 (cur2 (H4 m ρ c)) n o) + (Pa m c).b4 o := by
  funext n o
  have hO : Out m ρ c = Cert.KernelIdeal.Reg7.res (V14 m ρ) c := W15_arr m ρ c 4
  have hg : Cert.KernelIdeal.Reg7.agg (V14 m ρ) c
      = Host.scatterAdd (F := Ideal) scatter_S50000x128_S400000x1_S400000x128_1_0_0_1
        (broadcastInDim S50000x128 ![] bcast_S_S50000x128 (constant (F := Ideal) S_ .f32 0x00000000#32))
        (V14 (F := Ideal) m ρ c main_v92 : S400000x1.Idx → BitVec 32)
        (mulf (F := Ideal) (Host.gather gather_S50000x128_S400000x1_S400000x128_1_0_n_n_0_1_1128 (Y4 m ρ c) (V14 (F := Ideal) m ρ c main_v86 : S400000x1.Idx → BitVec 32))
          (broadcastInDim S400000x128 ![0, 1] bcast_S400000x1_S400000x128_0_1 (broadcastInDim S400000x1 ![0] bcast_S400000_S400000x1_0 (m ((c : Thread nD τ).loc main_arg2))))) := s7_agg m ρ c
  have ha : Cert.KernelIdeal.Reg7.act (V14 m ρ) c = H4 m ρ c := s7_act m ρ c
  have hw : Cert.KernelIdeal.Reg7.wgt (V14 m ρ) c
      = transpose S256x128 [1, 0] (m ((c : Thread nD τ).loc main_arg14)) transposes_S128x256_S256x128_1_0 := s7_wgt m ρ c
  have hb : Cert.KernelIdeal.Reg7.bias (V14 m ρ) c = shapeCast S1x128 (m ((c : Thread nD τ).loc main_arg13)) shapeCasts_S128_S1x128 := s7_bias m ρ c
  show Out m ρ c (ix2 n o) = _
  rw [hO, Cert.KernelIdeal.Reg7.arrAt_apply, hg, ha, hw, hb, s7_src, s7_dst,
    Cert.HostReads.aggregate_apply (by norm_num) (by norm_num) Facts₀.gather_S50000x128_S400000x1_S400000x128_1_0_n_n_0_1_1128_wf
      gather_S50000x128_S400000x1_S400000x128_1_0_n_n_0_1_1128 rfl Facts₀.scatter_S50000x128_S400000x1_S400000x128_1_0_0_1_wf
      scatter_S50000x128_S400000x1_S400000x128_1_0_0_1 rfl,
    Cert.HostReads.rowReshape_apply]
  refine congr (congrArg _ (congr (congrArg _ ?_) ?_)) ?_
  · rfl
  · refine Finset.sum_congr rfl fun k _ => ?_
    rw [Cert.HostReads.transpose2_apply]
    rfl
  · rfl

end Cert.KernelIdeal.Chain

end
-- ==== Proof.KernelIsSpec.lean ====
/-
  The kernel program's result is the spec's kernel network of the arguments.

  Segment by segment: the first two layers' activations are rectified convolutions with the aggregation first; the third
  layer's relational weights are applied before its aggregation, then the root term and the bias are added; the two
  per-feature sums turn into one affine map that normalises and rectifies; the fourth layer repeats the third.  Composing
  the eight equations gives the kernel's formula of the arguments.
-/
import proofs.«136480_j970662609200_2_alg».proof.Proof.Stage1
import proofs.«136480_j970662609200_2_alg».proof.Proof.Stage2
import proofs.«136480_j970662609200_2_alg».proof.Proof.Stage3a
import proofs.«136480_j970662609200_2_alg».proof.Proof.Stage3
import proofs.«136480_j970662609200_2_alg».proof.Proof.Stage4
import proofs.«136480_j970662609200_2_alg».proof.Proof.Stage5
import proofs.«136480_j970662609200_2_alg».proof.Proof.Stage6
import proofs.«136480_j970662609200_2_alg».proof.Proof.Stage7

set_option maxRecDepth 16384

noncomputable section

open scoped BigOperators

namespace Cert.KernelIdeal.Chain

open Cert.KernelIdeal Cert.KernelIdeal.Gen
open Idealize.ShloMosaic Idealize.ShloMosaic.TcCoe Idealize.ShloMosaic.StableHlo Idealize.ShloMosaic.ValueIdx
open Idealize.SL.Sem

variable (m : (ℓ : Loc nD τ sig) → Buf (Elt Ideal) ℓ) (ρ : Dev nD → PrngReg) (c : Dev nD)

/-- THE KERNEL'S RESULT, entry by entry, is the kernel network of the graph and the parameters its arguments describe. -/
theorem out_is_kerNet : cur2 (Out m ρ c) = Cert.Spec.kerNet (Gr m c) (Pa m c) := by
  rw [s7 m ρ c, s6 m ρ c, s5 m ρ c (s4a m ρ c) (s4b m ρ c), s3 m ρ c, s3a m ρ c, s2 m ρ c, s1 m ρ c]
  rfl

end Cert.KernelIdeal.Chain

end
-- ==== Proof.Finite.lean ====
/-
  Finite inputs are real numbers. The precondition says, array by array, that every entry's absolute
  value is strictly below +∞ (the conjunction of one "all entries" reduction per float array). At the
  extended reals an entry x with max x (-x) < ⊤ is neither ⊤ nor ⊥, so it is the coercion of a real.
-/
import Idealize.ShloMosaic.PureOps.Ideal
import Idealize.ShloMosaic.Lib.ReduceAll
import Idealize.ShloMosaic.Lib.ValueIdx
import proofs.«136480_j970662609200_2_alg».proof.Pre_finite_inputs
import proofs.«136480_j970662609200_2_alg».proof.Proof.Gen.Pre_finite_inputs

noncomputable section

namespace Cert.Finite

open Idealize.ShloMosaic Cert.Pre_finite_inputs

/-- The scalar shape has one index. -/
instance : Subsingleton S_.Idx := ⟨fun a b => funext fun d => d.elim0⟩

/-- The single-precision pattern with all exponent bits set and zero fraction denotes +∞. -/
theorem inf_bits : Ideal.ofBits .f32 0x7F800000#32 = (⊤ : EReal) := by
  simp [Ideal.ofBits, Ideal.ieee]

/-- An extended real whose absolute value is strictly below +∞ is a real. -/
theorem elt_real (x : EReal)
    (h : Ideal.cmp .olt (max x (-x)) (Ideal.ofBits .f32 0x7F800000#32) = 1#1) :
    ∃ r : ℝ, x = (r : EReal) := by
  rw [inf_bits] at h
  induction x using EReal.rec with
  | bot => simp [Ideal.cmp] at h
  | coe r => exact ⟨r, rfl⟩
  | top => simp [Ideal.cmp] at h

/-- One array: if the "all entries have absolute value below +∞" reduction is true, every entry is a real. -/
theorem arr_real {s : Shape} {axes : List (Fin s.rank)}
    (hb : S_.BroadcastsInDim s (![] : Fin 0 → Fin s.rank)) (hr : s.ReducesTo axes S_) (hu : 0 < S_.numel)
    (a : FVec Ideal s .f32)
    (e : Host.reduce IntOp.andi
          (cmpf .olt (Host.absf a) (broadcastInDim s ![] hb (constant (F := Ideal) S_ .f32 0x7F800000#32)))
          (constantI S_ 1 1#1) hr hu ValueIdx.ix0 = 1#1) :
    ∀ i, ∃ r : ℝ, a i = (r : EReal) := fun i =>
  elt_real (a i) (Host.reduce_andi_all _ _ hr hu _ e i)

/-- THE PRECONDITION DECODED: every entry of each of the seventeen float arrays is a real. -/
theorem all_real [Cert.Pre_finite_inputs.Facts]
    (a0 : FVec Ideal S50000x144 .f32)
    (a1 : IVec S2x400000 32)
    (a2 : FVec Ideal S400000 .f32)
    (a3 : FVec Ideal S256x144 .f32)
    (a4 : FVec Ideal S256 .f32)
    (a5 : FVec Ideal S256x144 .f32)
    (a6 : FVec Ideal S512x256 .f32)
    (a7 : FVec Ideal S512 .f32)
    (a8 : FVec Ideal S512x256 .f32)
    (a9 : FVec Ideal S256x512 .f32)
    (a10 : FVec Ideal S256 .f32)
    (a11 : FVec Ideal S256x512 .f32)
    (a12 : FVec Ideal S128x256 .f32)
    (a13 : FVec Ideal S128 .f32)
    (a14 : FVec Ideal S128x256 .f32)
    (a15 : FVec Ideal S256 .f32)
    (a16 : FVec Ideal S256 .f32)
    (a17 : FVec Ideal S256 .f32)
    (h : Cert.Pre_finite_inputs.fn (F := Ideal) a0 a1 a2 a3 a4 a5 a6 a7 a8 a9 a10 a11 a12 a13 a14 a15 a16 a17 = fun _ => 1#1) :
      (∀ i, ∃ r : ℝ, a0 i = (r : EReal)) ∧
      (∀ i, ∃ r : ℝ, a2 i = (r : EReal)) ∧
      (∀ i, ∃ r : ℝ, a3 i = (r : EReal)) ∧
      (∀ i, ∃ r : ℝ, a4 i = (r : EReal)) ∧
      (∀ i, ∃ r : ℝ, a5 i = (r : EReal)) ∧
      (∀ i, ∃ r : ℝ, a6 i = (r : EReal)) ∧
      (∀ i, ∃ r : ℝ, a7 i = (r : EReal)) ∧
      (∀ i, ∃ r : ℝ, a8 i = (r : EReal)) ∧
      (∀ i, ∃ r : ℝ, a9 i = (r : EReal)) ∧
      (∀ i, ∃ r : ℝ, a10 i = (r : EReal)) ∧
      (∀ i, ∃ r : ℝ, a11 i = (r : EReal)) ∧
      (∀ i, ∃ r : ℝ, a12 i = (r : EReal)) ∧
      (∀ i, ∃ r : ℝ, a13 i = (r : EReal)) ∧
      (∀ i, ∃ r : ℝ, a14 i = (r : EReal)) ∧
      (∀ i, ∃ r : ℝ, a15 i = (r : EReal)) ∧
      (∀ i, ∃ r : ℝ, a16 i = (r : EReal)) ∧
      (∀ i, ∃ r : ℝ, a17 i = (r : EReal)) := by
  have e := congrFun h ValueIdx.ix0
  dsimp only [Cert.Pre_finite_inputs.fn, fn_part1, fn_part2, fn_part3, fn_part4, andi] at e
  simp only [IntOp.andi_eq_one] at e
  obtain ⟨⟨⟨⟨⟨⟨⟨⟨⟨⟨⟨⟨⟨⟨⟨⟨h0, h2⟩, h3⟩, h4⟩, h5⟩, h6⟩, h7⟩, h8⟩, h9⟩, h10⟩, h11⟩, h12⟩, h13⟩, h14⟩, h15⟩, h16⟩, h17⟩ := e
  exact ⟨arr_real Facts.bcast_S_S50000x144 Facts.reducesTo_S50000x144_S_d0_1 Facts.h_S_ a0 h0,
    arr_real Facts.bcast_S_S400000 Facts.reducesTo_S400000_S_d0 Facts.h_S_ a2 h2,
    arr_real Facts.bcast_S_S256x144 Facts.reducesTo_S256x144_S_d0_1 Facts.h_S_ a3 h3,
    arr_real Facts.bcast_S_S256 Facts.reducesTo_S256_S_d0 Facts.h_S_ a4 h4,
    arr_real Facts.bcast_S_S256x144 Facts.reducesTo_S256x144_S_d0_1 Facts.h_S_ a5 h5,
    arr_real Facts.bcast_S_S512x256 Facts.reducesTo_S512x256_S_d0_1 Facts.h_S_ a6 h6,
    arr_real Facts.bcast_S_S512 Facts.reducesTo_S512_S_d0 Facts.h_S_ a7 h7,
    arr_real Facts.bcast_S_S512x256 Facts.reducesTo_S512x256_S_d0_1 Facts.h_S_ a8 h8,
    arr_real Facts.bcast_S_S256x512 Facts.reducesTo_S256x512_S_d0_1 Facts.h_S_ a9 h9,
    arr_real Facts.bcast_S_S256 Facts.reducesTo_S256_S_d0 Facts.h_S_ a10 h10,
    arr_real Facts.bcast_S_S256x512 Facts.reducesTo_S256x512_S_d0_1 Facts.h_S_ a11 h11,
    arr_real Facts.bcast_S_S128x256 Facts.reducesTo_S128x256_S_d0_1 Facts.h_S_ a12 h12,
    arr_real Facts.bcast_S_S128 Facts.reducesTo_S128_S_d0 Facts.h_S_ a13 h13,
    arr_real Facts.bcast_S_S128x256 Facts.reducesTo_S128x256_S_d0_1 Facts.h_S_ a14 h14,
    arr_real Facts.bcast_S_S256 Facts.reducesTo_S256_S_d0 Facts.h_S_ a15 h15,
    arr_real Facts.bcast_S_S256 Facts.reducesTo_S256_S_d0 Facts.h_S_ a16 h16,
    arr_real Facts.bcast_S_S256 Facts.reducesTo_S256_S_d0 Facts.h_S_ a17 h17⟩

end Cert.Finite

end
-- ==== Proof.LibEReal.lean ====
/-
  General facts about Mathlib's extended reals, and about two of the ideal float
  operations on them, that the certificate of a normalised graph convolution needs.
  Nothing here mentions a program.
-/
import Mathlib
import Idealize.ShloMosaic.PureOps.Ideal

open scoped BigOperators
open Idealize.ShloMosaic

namespace Cert.LibEReal

/-- The coercion `ℝ → EReal` commutes with a finite sum. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- For a real `x > 0` the reciprocal square root is the real `(√x)⁻¹`. -/
theorem rsqrt_coe_of_pos {x : ℝ} (hx : 0 < x) :
    Ideal.rsqrt (x : EReal) = (((Real.sqrt x)⁻¹ : ℝ) : EReal) := by
  show (if x < 0 then (⊥ : EReal) else if x = 0 then ⊤ else (((Real.sqrt x)⁻¹ : ℝ) : EReal)) = _
  rw [if_neg (not_lt.mpr hx.le), if_neg hx.ne']

/-- For a real `x > 0`, raising to the power `-1/2` is the reciprocal square root. -/
theorem pow_neg_half_eq_rsqrt {x : ℝ} (hx : 0 < x) :
    Ideal.pow (x : EReal) ((-1 / 2 : ℝ) : EReal) = Ideal.rsqrt (x : EReal) := by
  rw [rsqrt_coe_of_pos hx]
  show ((Real.rpow x (-1 / 2) : ℝ) : EReal) = _
  congr 1
  show x ^ (-1 / 2 : ℝ) = (Real.sqrt x)⁻¹
  rw [show (-1 / 2 : ℝ) = -(1 / 2) by ring, Real.rpow_neg hx.le, Real.sqrt_eq_rpow]

/-- For a real `x > 0` the reciprocal square root is a real `> 0`. -/
theorem rsqrt_pos_real {x : ℝ} (hx : 0 < x) :
    ∃ r : ℝ, 0 < r ∧ Ideal.rsqrt (x : EReal) = (r : EReal) :=
  ⟨(Real.sqrt x)⁻¹, inv_pos.mpr (Real.sqrt_pos.mpr hx), rsqrt_coe_of_pos hx⟩

/-- For a real `x > 0` the power `x ^ (-1/2)` is a real `> 0`. -/
theorem pow_neg_half_pos_real {x : ℝ} (hx : 0 < x) :
    ∃ r : ℝ, 0 < r ∧ Ideal.pow (x : EReal) ((-1 / 2 : ℝ) : EReal) = (r : EReal) := by
  rw [pow_neg_half_eq_rsqrt hx]; exact rsqrt_pos_real hx

/-- The indicator of the diagonal, as an extended real, is the coercion of the real one. -/
theorem coe_ite_one_zero (p : Prop) [Decidable p] :
    (if p then (1 : EReal) else 0) = (((if p then (1 : ℝ) else 0) : ℝ) : EReal) := by
  split <;> simp

/-- The graph-convolution law on reals, read in the extended reals: scaling row `i` of
    `A·(d ⊙ x) + d ⊙ x` by `d i` is the row `i` of `(D (A + I) D) x`. Every entry is a real, so the
    extended-real sums and products are the coercions of the real ones, where the ring laws hold. -/
theorem gcn_law {n : ℕ} (d : Fin n → ℝ) (A : Fin n → Fin n → ℝ) (x : Fin n → ℝ) (i : Fin n) :
    (d i : EReal) * ((∑ k, (A i k : EReal) * ((d k : EReal) * (x k : EReal)))
        + (d i : EReal) * (x i : EReal))
      = ∑ j, (((d i : EReal) * ((A i j : EReal) + (if i = j then (1 : EReal) else 0)))
          * (d j : EReal)) * (x j : EReal) := by
  simp only [coe_ite_one_zero, ← EReal.coe_mul, ← EReal.coe_add, ← coe_finset_sum]
  congr 1
  have h : ∀ j, d i * (A i j + (if i = j then (1 : ℝ) else 0)) * d j * x j
      = d i * (A i j * (d j * x j)) + (if i = j then d i * (d j * x j) else 0) := by
    intro j; split <;> ring
  simp only [h, Finset.sum_add_distrib, Finset.sum_ite_eq, Finset.mem_univ, if_true,
    ← Finset.mul_sum]
  ring

/-- The row sums of `A + I` are the row sums of `A` plus one. -/
theorem sum_add_diag {n : ℕ} (A : Fin n → Fin n → ℝ) (i : Fin n) :
    (∑ j, ((A i j : EReal) + (if i = j then (1 : EReal) else 0)))
      = (∑ j, (A i j : EReal)) + 1 := by
  simp only [coe_ite_one_zero, ← EReal.coe_add, ← coe_finset_sum, ← EReal.coe_one,
    Finset.sum_add_distrib, Finset.sum_ite_eq, Finset.mem_univ, if_true]

end Cert.LibEReal
-- ==== Proof.SpecLaws.lean ====
/-
  The kernel's formula equals the reference's when every parameter is a real number.

  Under that hypothesis every intermediate array is real-valued, so each extended-real expression is the coercion of
  the same expression over the reals, where the ring laws hold.  Three facts carry the proof: a convolution does not
  depend on the order its three summands are added in; aggregation over the edges commutes with a product by a weight
  matrix; and the normalisation through the sums of the features and of their squares is the centred one.
-/
import Mathlib
import proofs.«136480_j970662609200_2_alg».proof.Proof.Spec
import proofs.«136480_j970662609200_2_alg».proof.Proof.LibEReal

noncomputable section

open scoped BigOperators

namespace Cert.Spec

open Idealize.ShloMosaic
open Cert.LibEReal (coe_finset_sum)

/-! ## The constants -/

/-- The float word of the node count denotes the real 50000. -/
theorem nodes_eq : nodes = ((50000 : ℝ) : EReal) := by
  simp [nodes, Ideal.ofBits, Ideal.ieee, -EReal.coe_mul]; norm_num

/-- The float word of two denotes the real 2. -/
theorem two_eq : two = ((2 : ℝ) : EReal) := by
  simp [two, Ideal.ofBits, Ideal.ieee, -EReal.coe_mul]; norm_num

/-- The float word of epsilon denotes the real 10995116 / 2^40. -/
theorem eps_eq : eps = ((10995116 / 1099511627776 : ℝ) : EReal) := by
  simp [eps, Ideal.ofBits, Ideal.ieee, -EReal.coe_mul]; norm_num

/-- Epsilon is a positive real. -/
theorem eps_pos : ∃ r : ℝ, 0 < r ∧ eps = (r : EReal) :=
  ⟨10995116 / 1099511627776, by norm_num, eps_eq⟩

/-! ## Real-valued arrays -/

/-- Every entry of a vector is a real number. -/
abbrev R1 {A : Type} (v : A → EReal) : Prop := ∀ a, ∃ r : ℝ, v a = (r : EReal)
/-- Every entry of a matrix is a real number. -/
abbrev R2 {A B : Type} (h : A → B → EReal) : Prop := ∀ a b, ∃ r : ℝ, h a b = (r : EReal)

/-! ## Layers 1 and 2: the order of the three summands -/

/-- Adding the bias last or second gives the same convolution, on all of the extended reals. -/
theorem convPost_eq_convRef (G : Graph) (w : Fin 400000 → EReal) {Ci Co : Nat} (Wrel : Fin Co → Fin Ci → EReal)
    (b : Fin Co → EReal) (Wroot : Fin Co → Fin Ci → EReal) (h : Fin 50000 → Fin Ci → EReal) :
    convPost G w Wrel b Wroot h = convRef G w Wrel b Wroot h := by
  funext n o
  show (lin Wrel (agg G w h) n o + lin Wroot h n o) + b o = (lin Wrel (agg G w h) n o + b o) + lin Wroot h n o
  exact add_right_comm _ _ _

/-! ## The operators on real-valued arrays -/

section Real
variable (G : Graph) {w : Fin 400000 → EReal} {wr : Fin 400000 → ℝ}

/-- The aggregate of real features with real edge weights is the real aggregate. -/
theorem agg_coe {C : Nat} {h : Fin 50000 → Fin C → EReal} {f : Fin 50000 → Fin C → ℝ}
    (hw : ∀ e, w e = (wr e : EReal)) (hh : ∀ n k, h n k = (f n k : EReal)) (n : Fin 50000) (k : Fin C) :
    agg G w h n k = ((∑ e ∈ G.into n, f (G.src e) k * wr e : ℝ) : EReal) := by
  show ∑ e ∈ G.into n, h (G.src e) k * w e = _
  simp only [hh, hw, ← EReal.coe_mul, ← coe_finset_sum]

/-- The product of real features with a real weight matrix is the real product. -/
theorem lin_coe {Ci Co : Nat} {W : Fin Co → Fin Ci → EReal} {Wr : Fin Co → Fin Ci → ℝ}
    {h : Fin 50000 → Fin Ci → EReal} {f : Fin 50000 → Fin Ci → ℝ}
    (hW : ∀ o k, W o k = (Wr o k : EReal)) (hh : ∀ n k, h n k = (f n k : EReal)) (n : Fin 50000) (o : Fin Co) :
    lin W h n o = ((∑ k, f n k * Wr o k : ℝ) : EReal) := by
  show ∑ k, h n k * W o k = _
  simp only [hh, hW, ← EReal.coe_mul, ← coe_finset_sum]

theorem agg_real {C : Nat} {h : Fin 50000 → Fin C → EReal} (hw : R1 w) (hh : R2 h) : R2 (agg G w h) := by
  choose wr hw using hw
  choose f hf using hh
  exact fun n k => ⟨_, agg_coe G hw hf n k⟩

theorem lin_real {Ci Co : Nat} {W : Fin Co → Fin Ci → EReal} {h : Fin 50000 → Fin Ci → EReal}
    (hW : R2 W) (hh : R2 h) : R2 (lin W h) := by
  choose Wr hW using hW
  choose f hf using hh
  exact fun n o => ⟨_, lin_coe hW hf n o⟩

/-- The rectifier of a real is the real rectifier. -/
theorem coe_max_zero (r : ℝ) : max (r : EReal) 0 = ((max r 0 : ℝ) : EReal) :=
  (EReal.coe_strictMono.monotone.map_max (a := r) (b := 0)).symm

theorem relu_real {C : Nat} {h : Fin 50000 → Fin C → EReal} (hh : R2 h) : R2 (relu h) := by
  intro n k
  obtain ⟨r, hr⟩ := hh n k
  exact ⟨max r 0, by show max (h n k) 0 = _; rw [hr, coe_max_zero]⟩

theorem convRef_real {Ci Co : Nat} {Wrel : Fin Co → Fin Ci → EReal} {b : Fin Co → EReal}
    {Wroot : Fin Co → Fin Ci → EReal} {h : Fin 50000 → Fin Ci → EReal}
    (hw : R1 w) (hWrel : R2 Wrel) (hb : R1 b) (hWroot : R2 Wroot) (hh : R2 h) :
    R2 (convRef G w Wrel b Wroot h) := by
  intro n o
  obtain ⟨r1, h1⟩ := lin_real hWrel (agg_real G hw hh) n o
  obtain ⟨r2, h2⟩ := hb o
  obtain ⟨r3, h3⟩ := lin_real hWroot hh n o
  exact ⟨r1 + r2 + r3, by
    show (lin Wrel (agg G w h) n o + b o) + lin Wroot h n o = _
    rw [h1, h2, h3, EReal.coe_add, EReal.coe_add]⟩

/-! ## Layers 3 and 4: aggregation commutes with the relational weights -/

/-- Over the reals: a weighted sum over edges of rows contracted with a column is the contraction of the weighted sum. -/
theorem sum_edges_contract {E K : Type} [Fintype K] (s : Finset E) (a : E → K → ℝ) (c : K → ℝ) (u : E → ℝ) :
    ∑ e ∈ s, (∑ k, a e k * c k) * u e = ∑ k, (∑ e ∈ s, a e k * u e) * c k := by
  simp only [Finset.sum_mul]
  rw [Finset.sum_comm]
  exact Finset.sum_congr rfl fun k _ => Finset.sum_congr rfl fun e _ => by ring

/-- Aggregating after the relational weights is applying them after aggregating, for real arrays. -/
theorem agg_lin {Ci Co : Nat} {W : Fin Co → Fin Ci → EReal} {h : Fin 50000 → Fin Ci → EReal}
    (hw : R1 w) (hW : R2 W) (hh : R2 h) : agg G w (lin W h) = lin W (agg G w h) := by
  choose wr hw using hw
  choose Wr hW using hW
  choose f hf using hh
  funext n o
  rw [agg_coe G hw (fun n o => lin_coe hW hf n o) n o, lin_coe hW (fun n k => agg_coe G hw hf n k) n o,
    sum_edges_contract]

/-- The kernel's convolution with the relational weights first is the reference's, for real arrays. -/
theorem convPre_eq_convRef {Ci Co : Nat} {Wrel : Fin Co → Fin Ci → EReal} {b : Fin Co → EReal}
    {Wroot : Fin Co → Fin Ci → EReal} {h : Fin 50000 → Fin Ci → EReal}
    (hw : R1 w) (hWrel : R2 Wrel) (hh : R2 h) :
    convPre G w Wrel b Wroot h = convRef G w Wrel b Wroot h := by
  funext n o
  show (agg G w (lin Wrel h) n o + lin Wroot h n o) + b o = (lin Wrel (agg G w h) n o + b o) + lin Wroot h n o
  rw [agg_lin G hw hWrel hh]
  exact add_right_comm _ _ _

end Real

/-! ## The normalisation -/

/-- Over the reals: the sum of the squared deviations from any number `a`, expanded. -/
theorem sum_sq_sub {ι : Type} [Fintype ι] (f : ι → ℝ) (a : ℝ) :
    ∑ n, (f n - a) * (f n - a) = (∑ n, f n * f n) - 2 * a * (∑ n, f n) + (Fintype.card ι : ℝ) * (a * a) := by
  have h : ∀ n, (f n - a) * (f n - a) = f n * f n - 2 * a * f n + a * a := fun n => by ring
  simp only [h, Finset.sum_add_distrib, Finset.sum_sub_distrib, ← Finset.mul_sum, Finset.sum_const,
    Finset.card_univ, nsmul_eq_mul]
  ring

section Norm
variable {gw gb ms : Fin 256 → EReal} {h : Fin 50000 → Fin 256 → EReal}
variable {g b m : Fin 256 → ℝ} {f : Fin 50000 → Fin 256 → ℝ}

/-- The mean of a real feature is the real mean. -/
theorem mean_coe (hh : ∀ n k, h n k = (f n k : EReal)) (k : Fin 256) :
    mean h k = (((∑ n, f n k) * (1 / 50000) : ℝ) : EReal) := by
  show Ideal.div (∑ n : Fin 50000, h n k) nodes = _
  rw [nodes_eq, Ideal.div_coe (by norm_num)]
  simp only [hh, ← EReal.coe_mul, ← coe_finset_sum]

/-- The mean of the squares of a real feature is the real one. -/
theorem meanSq_coe (hh : ∀ n k, h n k = (f n k : EReal)) (k : Fin 256) :
    meanSq h k = (((∑ n, f n k * f n k) * (1 / 50000) : ℝ) : EReal) := by
  show Ideal.div (∑ n : Fin 50000, h n k * h n k) nodes = _
  rw [nodes_eq, Ideal.div_coe (by norm_num)]
  simp only [hh, ← EReal.coe_mul, ← coe_finset_sum]

/-- The centred real feature. -/
theorem centred_coe (hm : ∀ k, ms k = (m k : EReal)) (hh : ∀ n k, h n k = (f n k : EReal))
    (n : Fin 50000) (k : Fin 256) :
    centred ms h n k = ((f n k - m k * ((∑ n, f n k) * (1 / 50000)) : ℝ) : EReal) := by
  show h n k - ms k * mean h k = _
  rw [hh, hm, mean_coe hh, ← EReal.coe_mul, ← EReal.coe_sub]

/-- The reference's variance of a real feature. -/
theorem variance_coe (hm : ∀ k, ms k = (m k : EReal)) (hh : ∀ n k, h n k = (f n k : EReal)) (k : Fin 256) :
    variance ms h k = (((∑ n, (f n k - m k * ((∑ n, f n k) * (1 / 50000)))
      * (f n k - m k * ((∑ n, f n k) * (1 / 50000)))) * (1 / 50000) : ℝ) : EReal) := by
  show Ideal.div (∑ n : Fin 50000, centred ms h n k * centred ms h n k) nodes = _
  rw [nodes_eq, Ideal.div_coe (by norm_num)]
  simp only [centred_coe hm hh, ← EReal.coe_mul, ← coe_finset_sum]

/-- The kernel's variance of a real feature. -/
theorem varianceK_coe (hm : ∀ k, ms k = (m k : EReal)) (hh : ∀ n k, h n k = (f n k : EReal)) (k : Fin 256) :
    varianceK ms h k = (((∑ n, f n k * f n k) * (1 / 50000)
      - ((∑ n, f n k) * (1 / 50000)) * ((∑ n, f n k) * (1 / 50000)) * (2 * m k - m k * m k) : ℝ) : EReal) := by
  show meanSq h k - (mean h k * mean h k) * (two * ms k - ms k * ms k) = _
  rw [meanSq_coe hh, mean_coe hh, hm, two_eq]
  simp only [← EReal.coe_mul, ← EReal.coe_sub]

/-- The two variances are the same real number: with `μ` the mean and `a = ms · μ`,
    `(∑ (h − a)²)/N = (∑ h²)/N − 2 a μ + a² = (∑ h²)/N − μ² (2 ms − ms²)`, since `∑ h = N μ`. -/
theorem variance_real_eq (f : Fin 50000 → ℝ) (c : ℝ) :
    (∑ n, (f n - c * ((∑ n, f n) * (1 / 50000))) * (f n - c * ((∑ n, f n) * (1 / 50000)))) * (1 / 50000)
      = (∑ n, f n * f n) * (1 / 50000)
        - ((∑ n, f n) * (1 / 50000)) * ((∑ n, f n) * (1 / 50000)) * (2 * c - c * c) := by
  rw [sum_sq_sub, Fintype.card_fin]
  push_cast
  ring

/-- The reference's variance is a real number that is not negative. -/
theorem variance_nonneg (f : Fin 50000 → ℝ) (c : ℝ) :
    0 ≤ (∑ n, (f n - c * ((∑ n, f n) * (1 / 50000))) * (f n - c * ((∑ n, f n) * (1 / 50000)))) * (1 / 50000) :=
  mul_nonneg (Finset.sum_nonneg fun _ _ => mul_self_nonneg _) (by norm_num)

/-- The square root of a non-negative real plus epsilon is a positive real. -/
theorem sqrt_add_eps {v : ℝ} (hv : 0 ≤ v) :
    ∃ s : ℝ, 0 < s ∧ Ideal.sqrt ((v : EReal) + eps) = (s : EReal) := by
  obtain ⟨e, he, heps⟩ := eps_pos
  refine ⟨Real.sqrt (v + e), Real.sqrt_pos.mpr (by linarith), ?_⟩
  rw [heps, ← EReal.coe_add, Ideal.sqrt_coe, if_neg (not_lt.mpr (by linarith))]

/-- THE NORMALISATION. For real arrays the kernel's affine step followed by its rectifier is the rectifier of the
    reference's normalisation; and that normalisation is real-valued. -/
theorem normReluK_and_real (hg : R1 gw) (hb : R1 gb) (hm : R1 ms) (hh : R2 h) (n : Fin 50000) (k : Fin 256) :
    normReluK gw gb ms h n k = max (normRef gw gb ms h n k) 0 ∧ ∃ r : ℝ, normRef gw gb ms h n k = (r : EReal) := by
  choose g hg using hg
  choose b hb using hb
  choose m hm using hm
  choose f hf using hh
  obtain ⟨s, hs, hsq⟩ := sqrt_add_eps (variance_nonneg (fun n => f n k) (m k))
  have hsqK : Ideal.sqrt (varianceK ms h k + eps) = (s : EReal) := by
    rw [varianceK_coe hm hf, ← variance_real_eq (fun n => f n k) (m k)]; exact hsq
  have hsqR : Ideal.sqrt (variance ms h k + eps) = (s : EReal) := by
    rw [variance_coe hm hf]; exact hsq
  have hscale : scale gw ms h k = ((g k * (1 / s) : ℝ) : EReal) := by
    show Ideal.div (gw k) (Ideal.sqrt (varianceK ms h k + eps)) = _
    rw [hsqK, Ideal.div_coe hs.ne', hg, ← EReal.coe_mul]
  have hshift : shift gw gb ms h k
      = ((b k - (m k * ((∑ n, f n k) * (1 / 50000))) * (g k * (1 / s)) : ℝ) : EReal) := by
    show gb k - (ms k * mean h k) * scale gw ms h k = _
    rw [hscale, hb, hm, mean_coe hf]
    simp only [← EReal.coe_mul, ← EReal.coe_sub]
  have href : normRef gw gb ms h n k
      = (((f n k - m k * ((∑ n, f n k) * (1 / 50000))) * (1 / s) * g k + b k : ℝ) : EReal) := by
    show Ideal.div (centred ms h n k) (Ideal.sqrt (variance ms h k + eps)) * gw k + gb k = _
    rw [hsqR, Ideal.div_coe hs.ne', centred_coe hm hf, hg, hb]
    simp only [← EReal.coe_mul, ← EReal.coe_add]
  refine ⟨?_, _, href⟩
  show max (h n k * scale gw ms h k + shift gw gb ms h k) 0 = _
  rw [href, hscale, hshift, hf, ← EReal.coe_mul, ← EReal.coe_add]
  congr 2
  ring

theorem normReluK_eq (hg : R1 gw) (hb : R1 gb) (hm : R1 ms) (hh : R2 h) :
    normReluK gw gb ms h = relu (normRef gw gb ms h) := by
  funext n k
  exact (normReluK_and_real hg hb hm hh n k).1

theorem normRef_real (hg : R1 gw) (hb : R1 gb) (hm : R1 ms) (hh : R2 h) : R2 (normRef gw gb ms h) :=
  fun n k => (normReluK_and_real hg hb hm hh n k).2

end Norm

/-! ## The two networks -/

/-- For real parameters the kernel's network is the reference's. -/
theorem kerNet_eq_refNet (G : Graph) (P : Params) (hP : P.IsReal) : kerNet G P = refNet G P := by
  obtain ⟨hx, hw, hWrel1, hb1, hWroot1, hWrel2, hb2, hWroot2, hWrel3, hb3, hWroot3, hWrel4, hb4, hWroot4,
    hgw, hgb, hms⟩ := hP
  have r1 : R2 (relu (convRef G P.w P.Wrel1 P.b1 P.Wroot1 P.x)) :=
    relu_real (convRef_real G hw hWrel1 hb1 hWroot1 hx)
  have r2 : R2 (relu (convRef G P.w P.Wrel2 P.b2 P.Wroot2 (relu (convRef G P.w P.Wrel1 P.b1 P.Wroot1 P.x)))) :=
    relu_real (convRef_real G hw hWrel2 hb2 hWroot2 r1)
  have r3 := convRef_real G hw hWrel3 hb3 hWroot3 r2
  have r4 := relu_real (normRef_real hgw hgb hms r3)
  simp only [kerNet, refNet, convPost_eq_convRef]
  rw [convPre_eq_convRef G hw hWrel3 r2, normReluK_eq hgw hgb hms r3, convPre_eq_convRef G hw hWrel4 r4]

end Cert.Spec

end
-- ==== Proof.RefConv.lean ====
/-
  The pieces every graph convolution of the reference is read through, for any feature width.

  The aggregate of a convolution is a row scatter-add, into a zero array, of the gathered rows each scaled by its edge's
  weight: at (n, k) that is the sum over the edges arriving at node n of the feature k of the node the edge reads, times
  the edge's weight. Two indices of a rank-2 (rank-1) array are equal when their coordinates are.
-/
import proofs.«136480_j970662609200_2_alg».proof.Proof.Spec
import proofs.«136480_j970662609200_2_alg».proof.Proof.LibRowOps
import Idealize.ShloMosaic.Lib.ValueIdx

noncomputable section

open scoped BigOperators

namespace Cert.RefConv

open Idealize.ShloMosaic Idealize.ShloMosaic.ValueIdx Cert.LibRowOps

/-- Two rank-2 indices with equal coordinates are equal. -/
theorem idx2_ext {n0 n1 : Nat} (i j : (⟨2, ![n0, n1]⟩ : Shape).Idx) (h0 : (i 0).val = (j 0).val) (h1 : (i 1).val = (j 1).val) :
    i = j := by
  funext a
  apply Fin.ext
  match a with
  | ⟨0, _⟩ => exact h0
  | ⟨1, _⟩ => exact h1

/-- Two rank-1 indices with equal coordinates are equal. -/
theorem idx1_ext {n0 : Nat} (i j : (⟨1, ![n0]⟩ : Shape).Idx) (h0 : (i 0).val = (j 0).val) : i = j := by
  funext a
  apply Fin.ext
  match a with
  | ⟨0, _⟩ => exact h0

/-- THE AGGREGATE AT (n, k): a row scatter-add into a zero array of the gathered rows times the per-edge weight is the
    weighted sum, over the edges arriving at n, of feature k of the row each edge reads. -/
theorem aggregate {N E C : Nat} (hN : 0 < N)
    (wfs : ScatterDims.WF ⟨2, ![N, C]⟩ ⟨2, ![E, 1]⟩ ⟨2, ![E, C]⟩ [1] [0] [0] 1)
    (ds : ScatterDims ⟨2, ![N, C]⟩ ⟨2, ![E, 1]⟩ ⟨2, ![E, C]⟩) (hds : ds = rowScatterDims N E C wfs)
    (wfg : GatherDims.WF ⟨2, ![N, C]⟩ ⟨2, ![E, 1]⟩ ⟨2, ![E, C]⟩ [1] [0] [] [0] [] 1 ![1, C])
    (dg : GatherDims ⟨2, ![N, C]⟩ ⟨2, ![E, 1]⟩ ⟨2, ![E, C]⟩) (hdg : dg = rowGatherDims N E C wfg)
    (z : (⟨2, ![N, C]⟩ : Shape).Idx → EReal) (hz : ∀ i, z i = 0)
    (h : (⟨2, ![N, C]⟩ : Shape).Idx → EReal) (src dst : IVec ⟨2, ![E, 1]⟩ 32)
    (wv : (⟨2, ![E, C]⟩ : Shape).Idx → EReal) (w : Fin E → EReal) (hw : ∀ e k, wv (ix2 e k) = w e)
    (n : Fin N) (k : Fin C) :
    Host.scatterAdd (F := Ideal) (φ := .f32) ds z dst (mulf (F := Ideal) (φ := .f32) (Host.gather dg h src) wv) (ix2 n k)
      = ∑ e ∈ rowsInto dst n, h (ix2 (clampedRow hN src e) k) * w e := by
  rw [scatterAdd_rows wfs ds hds, hz, zero_add]
  refine Finset.sum_congr rfl fun e _ => ?_
  show Host.gather dg h src (ix2 e k) * wv (ix2 e k) = _
  rw [gather_rows hN wfg dg hdg, hw]

end Cert.RefConv

end
-- ==== Proof.RefLayer1.lean ====
/-
  The reference's first convolution and rectifier, read entry by entry: the aggregate %16, the two products %18 and
  %23 against the transposed weights, the bias, and the maximum against zero are the spec's convolution of the node
  features followed by its rectifier.
-/
import proofs.«136480_j970662609200_2_alg».proof.Proof.Args
import proofs.«136480_j970662609200_2_alg».proof.Proof.RefConv

noncomputable section

open scoped BigOperators

namespace Cert.RefSpec

open Idealize.ShloMosaic Idealize.ShloMosaic.ValueIdx Cert.ReferenceIdeal Cert.ReferenceIdeal.Read Cert.LibRowOps Cert.RefConv

/-- The aggregate of the first convolution at (n, k). -/
theorem agg1 (x0 : (⟨S50000x144, .f32⟩ : BufTy).Contents (Elt Ideal)) (x1 : (⟨S2x400000, .i32⟩ : BufTy).Contents (Elt Ideal)) (x2 : (⟨S400000, .f32⟩ : BufTy).Contents (Elt Ideal)) (n : Fin 50000) (k : Fin 144) :
    val_main_v16 (F := Ideal) x0 x1 x2 (ix2 n k)
      = Cert.Spec.agg (Cert.Args.graphOf x1) (fun e => x2 (ix1 e)) (fun n k => x0 (ix2 n k)) n k := by
  unfold val_main_v16 val_main_v13 val_main_v10
  exact aggregate (by norm_num) Facts₀.scatter_S50000x144_S400000x1_S400000x144_1_0_0_1_wf
    scatter_S50000x144_S400000x1_S400000x144_1_0_0_1 rfl
    Facts₀.gather_S50000x144_S400000x1_S400000x144_1_0_n_n_0_1_1144_wf
    gather_S50000x144_S400000x1_S400000x144_1_0_n_n_0_1_1144 rfl
    _ (fun i => by rw [val_main_v14_apply, val_main_cst_apply]; exact Ideal.ofBits_zero_f32)
    x0 _ _ _ (fun e => x2 (ix1 e))
    (fun e k => by rw [val_main_v12_apply, val_main_v11_apply]; exact congrArg x2 (idx1_ext _ _ rfl)) n k

/-- The first convolution at (n, o). -/
theorem conv1 (x0 : (⟨S50000x144, .f32⟩ : BufTy).Contents (Elt Ideal)) (x1 : (⟨S2x400000, .i32⟩ : BufTy).Contents (Elt Ideal)) (x2 : (⟨S400000, .f32⟩ : BufTy).Contents (Elt Ideal)) (x3 : (⟨S256x144, .f32⟩ : BufTy).Contents (Elt Ideal)) (x4 : (⟨S256, .f32⟩ : BufTy).Contents (Elt Ideal)) (x5 : (⟨S256x144, .f32⟩ : BufTy).Contents (Elt Ideal)) (n : Fin 50000) (o : Fin 256) :
    val_main_v24 (F := Ideal) x0 x1 x2 x3 x4 x5 (ix2 n o)
      = Cert.Spec.convRef (Cert.Args.graphOf x1) (fun e => x2 (ix1 e)) (fun o k => x3 (ix2 o k)) (fun o => x4 (ix1 o))
          (fun o k => x5 (ix2 o k)) (fun n k => x0 (ix2 n k)) n o := by
  rw [val_main_v24_apply, val_main_v21_apply, val_main_v18_apply, val_main_v20_apply, val_main_v19_apply, val_main_v23_apply]
  simp only [Ideal.addf_def]
  unfold Cert.Spec.convRef Cert.Spec.lin
  refine congr (congrArg _ (congr (congrArg _ ?_) ?_)) ?_
  · refine Finset.sum_congr rfl fun k _ => ?_
    rw [val_main_v17_apply, show lidx_main_v18 (ix2 n o) k = ix2 n k from idx2_ext _ _ rfl rfl,
      show idx_main_v17 (ridx_main_v18 (ix2 n o) k) = ix2 o k from idx2_ext _ _ rfl rfl, agg1]
  · exact congrArg x4 (idx1_ext _ _ rfl)
  · refine Finset.sum_congr rfl fun k _ => ?_
    rw [val_main_v22_apply, show lidx_main_v23 (ix2 n o) k = ix2 n k from idx2_ext _ _ rfl rfl,
      show idx_main_v22 (ridx_main_v23 (ix2 n o) k) = ix2 o k from idx2_ext _ _ rfl rfl]

/-- The first layer, rectified, at (n, o). -/
theorem layer1 (x0 : (⟨S50000x144, .f32⟩ : BufTy).Contents (Elt Ideal)) (x1 : (⟨S2x400000, .i32⟩ : BufTy).Contents (Elt Ideal)) (x2 : (⟨S400000, .f32⟩ : BufTy).Contents (Elt Ideal)) (x3 : (⟨S256x144, .f32⟩ : BufTy).Contents (Elt Ideal)) (x4 : (⟨S256, .f32⟩ : BufTy).Contents (Elt Ideal)) (x5 : (⟨S256x144, .f32⟩ : BufTy).Contents (Elt Ideal)) (n : Fin 50000) (o : Fin 256) :
    val_main_v25 (F := Ideal) x0 x1 x2 x3 x4 x5 (ix2 n o)
      = Cert.Spec.relu (Cert.Spec.convRef (Cert.Args.graphOf x1) (fun e => x2 (ix1 e)) (fun o k => x3 (ix2 o k))
          (fun o => x4 (ix1 o)) (fun o k => x5 (ix2 o k)) (fun n k => x0 (ix2 n k))) n o := by
  rw [val_main_v25_apply, val_main_call0_v0_apply, val_main_call0_cst_apply, conv1]
  show max _ (Ideal.ofBits .f32 0x00000000#32) = _
  rw [Ideal.ofBits_zero_f32]
  rfl

end Cert.RefSpec

end
-- ==== Proof.RefLayer2.lean ====
/-
  The reference's second convolution and rectifier, read entry by entry, as the spec's convolution of the first
  layer's output (entering as the function (n, k) ↦ %25[n, k]) followed by its rectifier. The row numbers the second
  gather and scatter use are recomputed by the program with the same operations as the first, so they are the same arrays.
-/
import proofs.«136480_j970662609200_2_alg».proof.Proof.Args
import proofs.«136480_j970662609200_2_alg».proof.Proof.RefConv

noncomputable section

open scoped BigOperators

namespace Cert.RefSpec

open Idealize.ShloMosaic Idealize.ShloMosaic.ValueIdx Cert.ReferenceIdeal Cert.ReferenceIdeal.Read Cert.LibRowOps Cert.RefConv

/-- The aggregate of convolution 2 at (n, k). -/
theorem agg2 (x0 : (⟨S50000x144, .f32⟩ : BufTy).Contents (Elt Ideal)) (x1 : (⟨S2x400000, .i32⟩ : BufTy).Contents (Elt Ideal)) (x2 : (⟨S400000, .f32⟩ : BufTy).Contents (Elt Ideal)) (x3 : (⟨S256x144, .f32⟩ : BufTy).Contents (Elt Ideal)) (x4 : (⟨S256, .f32⟩ : BufTy).Contents (Elt Ideal)) (x5 : (⟨S256x144, .f32⟩ : BufTy).Contents (Elt Ideal)) (n : Fin 50000) (k : Fin 256) :
    val_main_v38 (F := Ideal) x0 x1 x2 x3 x4 x5 (ix2 n k)
      = Cert.Spec.agg (Cert.Args.graphOf x1) (fun e => x2 (ix1 e)) (fun n k => val_main_v25 (F := Ideal) x0 x1 x2 x3 x4 x5 (ix2 n k)) n k := by
  unfold val_main_v38 val_main_v35 val_main_v32
  exact aggregate (by norm_num) Facts₀.scatter_S50000x256_S400000x1_S400000x256_1_0_0_1_wf scatter_S50000x256_S400000x1_S400000x256_1_0_0_1 rfl Facts₀.gather_S50000x256_S400000x1_S400000x256_1_0_n_n_0_1_1256_wf gather_S50000x256_S400000x1_S400000x256_1_0_n_n_0_1_1256 rfl
    _ (fun i => by rw [val_main_v36_apply, val_main_cst_3_apply]; exact Ideal.ofBits_zero_f32)
    (val_main_v25 (F := Ideal) x0 x1 x2 x3 x4 x5) _ _ _ (fun e => x2 (ix1 e))
    (fun e k => by rw [val_main_v34_apply, val_main_v33_apply]; exact congrArg x2 (idx1_ext _ _ rfl)) n k

/-- Convolution 2 at (n, o). -/
theorem conv2 (x0 : (⟨S50000x144, .f32⟩ : BufTy).Contents (Elt Ideal)) (x1 : (⟨S2x400000, .i32⟩ : BufTy).Contents (Elt Ideal)) (x2 : (⟨S400000, .f32⟩ : BufTy).Contents (Elt Ideal)) (x3 : (⟨S256x144, .f32⟩ : BufTy).Contents (Elt Ideal)) (x4 : (⟨S256, .f32⟩ : BufTy).Contents (Elt Ideal)) (x5 : (⟨S256x144, .f32⟩ : BufTy).Contents (Elt Ideal)) (x6 : (⟨S512x256, .f32⟩ : BufTy).Contents (Elt Ideal)) (x7 : (⟨S512, .f32⟩ : BufTy).Contents (Elt Ideal)) (x8 : (⟨S512x256, .f32⟩ : BufTy).Contents (Elt Ideal)) (n : Fin 50000) (o : Fin 512) :
    val_main_v46 (F := Ideal) x0 x1 x2 x3 x4 x5 x6 x7 x8 (ix2 n o)
      = Cert.Spec.convRef (Cert.Args.graphOf x1) (fun e => x2 (ix1 e)) (fun o k => x6 (ix2 o k)) (fun o => x7 (ix1 o))
          (fun o k => x8 (ix2 o k)) (fun n k => val_main_v25 (F := Ideal) x0 x1 x2 x3 x4 x5 (ix2 n k)) n o := by
  rw [val_main_v46_apply, val_main_v43_apply, val_main_v40_apply, val_main_v42_apply, val_main_v41_apply, val_main_v45_apply]
  simp only [Ideal.addf_def]
  unfold Cert.Spec.convRef Cert.Spec.lin
  refine congr (congrArg _ (congr (congrArg _ ?_) ?_)) ?_
  · refine Finset.sum_congr rfl fun k _ => ?_
    rw [val_main_v39_apply, show lidx_main_v40 (ix2 n o) k = ix2 n k from idx2_ext _ _ rfl rfl,
      show idx_main_v39 (ridx_main_v40 (ix2 n o) k) = ix2 o k from idx2_ext _ _ rfl rfl, agg2]
  · exact congrArg x7 (idx1_ext _ _ rfl)
  · refine Finset.sum_congr rfl fun k _ => ?_
    rw [val_main_v44_apply, show lidx_main_v45 (ix2 n o) k = ix2 n k from idx2_ext _ _ rfl rfl,
      show idx_main_v44 (ridx_main_v45 (ix2 n o) k) = ix2 o k from idx2_ext _ _ rfl rfl]

/-- Layer 2, rectified, at (n, o). -/
theorem layer2 (x0 : (⟨S50000x144, .f32⟩ : BufTy).Contents (Elt Ideal)) (x1 : (⟨S2x400000, .i32⟩ : BufTy).Contents (Elt Ideal)) (x2 : (⟨S400000, .f32⟩ : BufTy).Contents (Elt Ideal)) (x3 : (⟨S256x144, .f32⟩ : BufTy).Contents (Elt Ideal)) (x4 : (⟨S256, .f32⟩ : BufTy).Contents (Elt Ideal)) (x5 : (⟨S256x144, .f32⟩ : BufTy).Contents (Elt Ideal)) (x6 : (⟨S512x256, .f32⟩ : BufTy).Contents (Elt Ideal)) (x7 : (⟨S512, .f32⟩ : BufTy).Contents (Elt Ideal)) (x8 : (⟨S512x256, .f32⟩ : BufTy).Contents (Elt Ideal)) (n : Fin 50000) (o : Fin 512) :
    val_main_v47 (F := Ideal) x0 x1 x2 x3 x4 x5 x6 x7 x8 (ix2 n o)
      = Cert.Spec.relu (Cert.Spec.convRef (Cert.Args.graphOf x1) (fun e => x2 (ix1 e)) (fun o k => x6 (ix2 o k))
          (fun o => x7 (ix1 o)) (fun o k => x8 (ix2 o k)) (fun n k => val_main_v25 (F := Ideal) x0 x1 x2 x3 x4 x5 (ix2 n k))) n o := by
  rw [val_main_v47_apply, val_main_call1_v0_apply, val_main_call1_cst_apply, conv2]
  show max _ (Ideal.ofBits .f32 0x00000000#32) = _
  rw [Ideal.ofBits_zero_f32]
  rfl

end Cert.RefSpec

end
-- ==== Proof.RefLayer3.lean ====
/-
  The reference's third convolution (no rectifier), read entry by entry, as the spec's convolution of the second
  layer's output (entering as the function (n, k) ↦ %47[n, k]).
-/
import proofs.«136480_j970662609200_2_alg».proof.Proof.Args
import proofs.«136480_j970662609200_2_alg».proof.Proof.RefConv

noncomputable section

open scoped BigOperators

namespace Cert.RefSpec

open Idealize.ShloMosaic Idealize.ShloMosaic.ValueIdx Cert.ReferenceIdeal Cert.ReferenceIdeal.Read Cert.LibRowOps Cert.RefConv

/-- The aggregate of convolution 3 at (n, k). -/
theorem agg3 (x0 : (⟨S50000x144, .f32⟩ : BufTy).Contents (Elt Ideal)) (x1 : (⟨S2x400000, .i32⟩ : BufTy).Contents (Elt Ideal)) (x2 : (⟨S400000, .f32⟩ : BufTy).Contents (Elt Ideal)) (x3 : (⟨S256x144, .f32⟩ : BufTy).Contents (Elt Ideal)) (x4 : (⟨S256, .f32⟩ : BufTy).Contents (Elt Ideal)) (x5 : (⟨S256x144, .f32⟩ : BufTy).Contents (Elt Ideal)) (x6 : (⟨S512x256, .f32⟩ : BufTy).Contents (Elt Ideal)) (x7 : (⟨S512, .f32⟩ : BufTy).Contents (Elt Ideal)) (x8 : (⟨S512x256, .f32⟩ : BufTy).Contents (Elt Ideal)) (n : Fin 50000) (k : Fin 512) :
    val_main_v60 (F := Ideal) x0 x1 x2 x3 x4 x5 x6 x7 x8 (ix2 n k)
      = Cert.Spec.agg (Cert.Args.graphOf x1) (fun e => x2 (ix1 e)) (fun n k => val_main_v47 (F := Ideal) x0 x1 x2 x3 x4 x5 x6 x7 x8 (ix2 n k)) n k := by
  unfold val_main_v60 val_main_v57 val_main_v54
  exact aggregate (by norm_num) Facts₀.scatter_S50000x512_S400000x1_S400000x512_1_0_0_1_wf scatter_S50000x512_S400000x1_S400000x512_1_0_0_1 rfl Facts₀.gather_S50000x512_S400000x1_S400000x512_1_0_n_n_0_1_1512_wf gather_S50000x512_S400000x1_S400000x512_1_0_n_n_0_1_1512 rfl
    _ (fun i => by rw [val_main_v58_apply, val_main_cst_6_apply]; exact Ideal.ofBits_zero_f32)
    (val_main_v47 (F := Ideal) x0 x1 x2 x3 x4 x5 x6 x7 x8) _ _ _ (fun e => x2 (ix1 e))
    (fun e k => by rw [val_main_v56_apply, val_main_v55_apply]; exact congrArg x2 (idx1_ext _ _ rfl)) n k

/-- Convolution 3 at (n, o). -/
theorem conv3 (x0 : (⟨S50000x144, .f32⟩ : BufTy).Contents (Elt Ideal)) (x1 : (⟨S2x400000, .i32⟩ : BufTy).Contents (Elt Ideal)) (x2 : (⟨S400000, .f32⟩ : BufTy).Contents (Elt Ideal)) (x3 : (⟨S256x144, .f32⟩ : BufTy).Contents (Elt Ideal)) (x4 : (⟨S256, .f32⟩ : BufTy).Contents (Elt Ideal)) (x5 : (⟨S256x144, .f32⟩ : BufTy).Contents (Elt Ideal)) (x6 : (⟨S512x256, .f32⟩ : BufTy).Contents (Elt Ideal)) (x7 : (⟨S512, .f32⟩ : BufTy).Contents (Elt Ideal)) (x8 : (⟨S512x256, .f32⟩ : BufTy).Contents (Elt Ideal)) (x9 : (⟨S256x512, .f32⟩ : BufTy).Contents (Elt Ideal)) (x10 : (⟨S256, .f32⟩ : BufTy).Contents (Elt Ideal)) (x11 : (⟨S256x512, .f32⟩ : BufTy).Contents (Elt Ideal)) (n : Fin 50000) (o : Fin 256) :
    val_main_v68 (F := Ideal) x0 x1 x2 x3 x4 x5 x6 x7 x8 x9 x10 x11 (ix2 n o)
      = Cert.Spec.convRef (Cert.Args.graphOf x1) (fun e => x2 (ix1 e)) (fun o k => x9 (ix2 o k)) (fun o => x10 (ix1 o))
          (fun o k => x11 (ix2 o k)) (fun n k => val_main_v47 (F := Ideal) x0 x1 x2 x3 x4 x5 x6 x7 x8 (ix2 n k)) n o := by
  rw [val_main_v68_apply, val_main_v65_apply, val_main_v62_apply, val_main_v64_apply, val_main_v63_apply, val_main_v67_apply]
  simp only [Ideal.addf_def]
  unfold Cert.Spec.convRef Cert.Spec.lin
  refine congr (congrArg _ (congr (congrArg _ ?_) ?_)) ?_
  · refine Finset.sum_congr rfl fun k _ => ?_
    rw [val_main_v61_apply, show lidx_main_v62 (ix2 n o) k = ix2 n k from idx2_ext _ _ rfl rfl,
      show idx_main_v61 (ridx_main_v62 (ix2 n o) k) = ix2 o k from idx2_ext _ _ rfl rfl, agg3]
  · exact congrArg x10 (idx1_ext _ _ rfl)
  · refine Finset.sum_congr rfl fun k _ => ?_
    rw [val_main_v66_apply, show lidx_main_v67 (ix2 n o) k = ix2 n k from idx2_ext _ _ rfl rfl,
      show idx_main_v66 (ridx_main_v67 (ix2 n o) k) = ix2 o k from idx2_ext _ _ rfl rfl]

end Cert.RefSpec

end
-- ==== Proof.RefNorm.lean ====
/-
  The reference's normalisation over the node axis and the rectifier after it (%69 … %93), read entry by entry: the mean
  of a feature is the sum over the nodes divided by the number of nodes, the feature is centred by the scaled mean, the
  variance is the mean of the squared centred feature, and the result is the centred feature divided by the square root
  of the variance plus epsilon, scaled and shifted, then rectified. The third layer enters as the function (n, k) ↦ %68[n, k].
-/
import proofs.«136480_j970662609200_2_alg».proof.Proof.Args
import proofs.«136480_j970662609200_2_alg».proof.Proof.RefConv

noncomputable section

open scoped BigOperators

namespace Cert.RefSpec

open Idealize.ShloMosaic Idealize.ShloMosaic.ValueIdx Cert.ReferenceIdeal Cert.ReferenceIdeal.Read Cert.LibRowOps Cert.RefConv

/-- Equal dividends give equal quotients. -/
theorem div_congr {a b : EReal} (d : EReal) (h : a = b) : Ideal.div a d = Ideal.div b d := by rw [h]

/-- The mean of feature k over the nodes: %72 at (0, k). -/
theorem mean_eq (x0 : (⟨S50000x144, .f32⟩ : BufTy).Contents (Elt Ideal)) (x1 : (⟨S2x400000, .i32⟩ : BufTy).Contents (Elt Ideal)) (x2 : (⟨S400000, .f32⟩ : BufTy).Contents (Elt Ideal)) (x3 : (⟨S256x144, .f32⟩ : BufTy).Contents (Elt Ideal)) (x4 : (⟨S256, .f32⟩ : BufTy).Contents (Elt Ideal)) (x5 : (⟨S256x144, .f32⟩ : BufTy).Contents (Elt Ideal)) (x6 : (⟨S512x256, .f32⟩ : BufTy).Contents (Elt Ideal)) (x7 : (⟨S512, .f32⟩ : BufTy).Contents (Elt Ideal)) (x8 : (⟨S512x256, .f32⟩ : BufTy).Contents (Elt Ideal)) (x9 : (⟨S256x512, .f32⟩ : BufTy).Contents (Elt Ideal)) (x10 : (⟨S256, .f32⟩ : BufTy).Contents (Elt Ideal)) (x11 : (⟨S256x512, .f32⟩ : BufTy).Contents (Elt Ideal)) (k : Fin 256) :
    val_main_v72 (F := Ideal) x0 x1 x2 x3 x4 x5 x6 x7 x8 x9 x10 x11 (ix2 (0 : Fin 1) k) = Cert.Spec.mean (fun n k => val_main_v68 (F := Ideal) x0 x1 x2 x3 x4 x5 x6 x7 x8 x9 x10 x11 (ix2 n k)) k := by
  rw [val_main_v72_apply, val_main_v70_apply, val_main_v69_apply, val_main_v71_apply, val_main_cst_8_apply, val_main_cst_7_apply]
  simp only [Ideal.hostDivf_def, Ideal.ofBits_def, Ideal.ofBits_zero_f32, zero_add]
  unfold Cert.Spec.mean Cert.Spec.nodes
  refine div_congr _ ?_
  refine Finset.sum_congr rfl fun n _ => ?_
  rw [show idx_main_v69 (idx_main_v70 (ix2 (0 : Fin 1) k)) n = ix2 n k from idx2_ext _ _ rfl rfl]

/-- The centred feature: %76 at (n, k). -/
theorem centred_eq (x0 : (⟨S50000x144, .f32⟩ : BufTy).Contents (Elt Ideal)) (x1 : (⟨S2x400000, .i32⟩ : BufTy).Contents (Elt Ideal)) (x2 : (⟨S400000, .f32⟩ : BufTy).Contents (Elt Ideal)) (x3 : (⟨S256x144, .f32⟩ : BufTy).Contents (Elt Ideal)) (x4 : (⟨S256, .f32⟩ : BufTy).Contents (Elt Ideal)) (x5 : (⟨S256x144, .f32⟩ : BufTy).Contents (Elt Ideal)) (x6 : (⟨S512x256, .f32⟩ : BufTy).Contents (Elt Ideal)) (x7 : (⟨S512, .f32⟩ : BufTy).Contents (Elt Ideal)) (x8 : (⟨S512x256, .f32⟩ : BufTy).Contents (Elt Ideal)) (x9 : (⟨S256x512, .f32⟩ : BufTy).Contents (Elt Ideal)) (x10 : (⟨S256, .f32⟩ : BufTy).Contents (Elt Ideal)) (x11 : (⟨S256x512, .f32⟩ : BufTy).Contents (Elt Ideal)) (x17 : (⟨S256, .f32⟩ : BufTy).Contents (Elt Ideal)) (n : Fin 50000) (k : Fin 256) :
    val_main_v76 (F := Ideal) x0 x1 x2 x3 x4 x5 x6 x7 x8 x9 x10 x11 x17 (ix2 n k) = Cert.Spec.centred (fun k => x17 (ix1 k)) (fun n k => val_main_v68 (F := Ideal) x0 x1 x2 x3 x4 x5 x6 x7 x8 x9 x10 x11 (ix2 n k)) n k := by
  rw [val_main_v76_apply, val_main_v75_apply, val_main_v74_apply, val_main_v73_apply,
    show idx_main_v75 (ix2 n k) = ix2 (0 : Fin 1) k from idx2_ext _ _ rfl rfl, mean_eq]
  simp only [Ideal.subf_def, Ideal.mulf_def]
  unfold Cert.Spec.centred
  rw [show idx_main_v73 (ix2 (0 : Fin 1) k) = ix1 k from idx1_ext _ _ rfl]

/-- The mean of the squared centred feature: %81 at (0, k). -/
theorem variance_eq (x0 : (⟨S50000x144, .f32⟩ : BufTy).Contents (Elt Ideal)) (x1 : (⟨S2x400000, .i32⟩ : BufTy).Contents (Elt Ideal)) (x2 : (⟨S400000, .f32⟩ : BufTy).Contents (Elt Ideal)) (x3 : (⟨S256x144, .f32⟩ : BufTy).Contents (Elt Ideal)) (x4 : (⟨S256, .f32⟩ : BufTy).Contents (Elt Ideal)) (x5 : (⟨S256x144, .f32⟩ : BufTy).Contents (Elt Ideal)) (x6 : (⟨S512x256, .f32⟩ : BufTy).Contents (Elt Ideal)) (x7 : (⟨S512, .f32⟩ : BufTy).Contents (Elt Ideal)) (x8 : (⟨S512x256, .f32⟩ : BufTy).Contents (Elt Ideal)) (x9 : (⟨S256x512, .f32⟩ : BufTy).Contents (Elt Ideal)) (x10 : (⟨S256, .f32⟩ : BufTy).Contents (Elt Ideal)) (x11 : (⟨S256x512, .f32⟩ : BufTy).Contents (Elt Ideal)) (x17 : (⟨S256, .f32⟩ : BufTy).Contents (Elt Ideal)) (k : Fin 256) :
    val_main_v81 (F := Ideal) x0 x1 x2 x3 x4 x5 x6 x7 x8 x9 x10 x11 x17 (ix2 (0 : Fin 1) k) = Cert.Spec.variance (fun k => x17 (ix1 k)) (fun n k => val_main_v68 (F := Ideal) x0 x1 x2 x3 x4 x5 x6 x7 x8 x9 x10 x11 (ix2 n k)) k := by
  rw [val_main_v81_apply, val_main_v79_apply, val_main_v78_apply, val_main_v80_apply, val_main_cst_10_apply, val_main_cst_9_apply]
  simp only [Ideal.hostDivf_def, Ideal.ofBits_def, Ideal.ofBits_zero_f32, zero_add]
  unfold Cert.Spec.variance Cert.Spec.nodes
  refine div_congr _ ?_
  refine Finset.sum_congr rfl fun n _ => ?_
  rw [val_main_v77_apply, show idx_main_v78 (idx_main_v79 (ix2 (0 : Fin 1) k)) n = ix2 n k from idx2_ext _ _ rfl rfl, centred_eq]
  rfl

/-- The normalisation: %92 at (n, k). -/
theorem norm_eq (x0 : (⟨S50000x144, .f32⟩ : BufTy).Contents (Elt Ideal)) (x1 : (⟨S2x400000, .i32⟩ : BufTy).Contents (Elt Ideal)) (x2 : (⟨S400000, .f32⟩ : BufTy).Contents (Elt Ideal)) (x3 : (⟨S256x144, .f32⟩ : BufTy).Contents (Elt Ideal)) (x4 : (⟨S256, .f32⟩ : BufTy).Contents (Elt Ideal)) (x5 : (⟨S256x144, .f32⟩ : BufTy).Contents (Elt Ideal)) (x6 : (⟨S512x256, .f32⟩ : BufTy).Contents (Elt Ideal)) (x7 : (⟨S512, .f32⟩ : BufTy).Contents (Elt Ideal)) (x8 : (⟨S512x256, .f32⟩ : BufTy).Contents (Elt Ideal)) (x9 : (⟨S256x512, .f32⟩ : BufTy).Contents (Elt Ideal)) (x10 : (⟨S256, .f32⟩ : BufTy).Contents (Elt Ideal)) (x11 : (⟨S256x512, .f32⟩ : BufTy).Contents (Elt Ideal)) (x15 : (⟨S256, .f32⟩ : BufTy).Contents (Elt Ideal)) (x16 : (⟨S256, .f32⟩ : BufTy).Contents (Elt Ideal)) (x17 : (⟨S256, .f32⟩ : BufTy).Contents (Elt Ideal)) (n : Fin 50000) (k : Fin 256) :
    val_main_v92 (F := Ideal) x0 x1 x2 x3 x4 x5 x6 x7 x8 x9 x10 x11 x15 x16 x17 (ix2 n k) = Cert.Spec.normRef (fun k => x15 (ix1 k)) (fun k => x16 (ix1 k)) (fun k => x17 (ix1 k)) (fun n k => val_main_v68 (F := Ideal) x0 x1 x2 x3 x4 x5 x6 x7 x8 x9 x10 x11 (ix2 n k)) n k := by
  rw [val_main_v92_apply, val_main_v89_apply, val_main_v86_apply, val_main_v85_apply, val_main_v84_apply, val_main_v83_apply,
    val_main_v82_apply, val_main_cst_11_apply, val_main_v88_apply, val_main_v87_apply, val_main_v91_apply, val_main_v90_apply,
    show idx_main_v85 (ix2 n k) = ix2 (0 : Fin 1) k from idx2_ext _ _ rfl rfl, variance_eq, centred_eq,
    show idx_main_v87 (idx_main_v88 (ix2 n k)) = ix1 k from idx1_ext _ _ rfl,
    show idx_main_v90 (idx_main_v91 (ix2 n k)) = ix1 k from idx1_ext _ _ rfl]
  simp only [Ideal.addf_def, Ideal.mulf_def, Ideal.hostDivf_def, Ideal.hostUnary_sqrt_def, Ideal.ofBits_def]
  rfl

/-- The normalised third layer, rectified: %93 at (n, k). -/
theorem layerN (x0 : (⟨S50000x144, .f32⟩ : BufTy).Contents (Elt Ideal)) (x1 : (⟨S2x400000, .i32⟩ : BufTy).Contents (Elt Ideal)) (x2 : (⟨S400000, .f32⟩ : BufTy).Contents (Elt Ideal)) (x3 : (⟨S256x144, .f32⟩ : BufTy).Contents (Elt Ideal)) (x4 : (⟨S256, .f32⟩ : BufTy).Contents (Elt Ideal)) (x5 : (⟨S256x144, .f32⟩ : BufTy).Contents (Elt Ideal)) (x6 : (⟨S512x256, .f32⟩ : BufTy).Contents (Elt Ideal)) (x7 : (⟨S512, .f32⟩ : BufTy).Contents (Elt Ideal)) (x8 : (⟨S512x256, .f32⟩ : BufTy).Contents (Elt Ideal)) (x9 : (⟨S256x512, .f32⟩ : BufTy).Contents (Elt Ideal)) (x10 : (⟨S256, .f32⟩ : BufTy).Contents (Elt Ideal)) (x11 : (⟨S256x512, .f32⟩ : BufTy).Contents (Elt Ideal)) (x15 : (⟨S256, .f32⟩ : BufTy).Contents (Elt Ideal)) (x16 : (⟨S256, .f32⟩ : BufTy).Contents (Elt Ideal)) (x17 : (⟨S256, .f32⟩ : BufTy).Contents (Elt Ideal)) (n : Fin 50000) (k : Fin 256) :
    val_main_v93 (F := Ideal) x0 x1 x2 x3 x4 x5 x6 x7 x8 x9 x10 x11 x15 x16 x17 (ix2 n k)
      = Cert.Spec.relu (Cert.Spec.normRef (fun k => x15 (ix1 k)) (fun k => x16 (ix1 k)) (fun k => x17 (ix1 k)) (fun n k => val_main_v68 (F := Ideal) x0 x1 x2 x3 x4 x5 x6 x7 x8 x9 x10 x11 (ix2 n k))) n k := by
  rw [val_main_v93_apply, val_main_call2_v0_apply, val_main_call2_cst_apply, norm_eq]
  show max _ (Ideal.ofBits .f32 0x00000000#32) = _
  rw [Ideal.ofBits_zero_f32]
  rfl

end Cert.RefSpec

end
-- ==== Proof.RefLayer4.lean ====
/-
  The reference's fourth convolution, read entry by entry, as the spec's convolution of the normalised and rectified
  third layer (entering as the function (n, k) ↦ %93[n, k]).
-/
import proofs.«136480_j970662609200_2_alg».proof.Proof.Args
import proofs.«136480_j970662609200_2_alg».proof.Proof.RefConv

noncomputable section

open scoped BigOperators

namespace Cert.RefSpec

open Idealize.ShloMosaic Idealize.ShloMosaic.ValueIdx Cert.ReferenceIdeal Cert.ReferenceIdeal.Read Cert.LibRowOps Cert.RefConv

/-- The aggregate of convolution 4 at (n, k). -/
theorem agg4 (x0 : (⟨S50000x144, .f32⟩ : BufTy).Contents (Elt Ideal)) (x1 : (⟨S2x400000, .i32⟩ : BufTy).Contents (Elt Ideal)) (x2 : (⟨S400000, .f32⟩ : BufTy).Contents (Elt Ideal)) (x3 : (⟨S256x144, .f32⟩ : BufTy).Contents (Elt Ideal)) (x4 : (⟨S256, .f32⟩ : BufTy).Contents (Elt Ideal)) (x5 : (⟨S256x144, .f32⟩ : BufTy).Contents (Elt Ideal)) (x6 : (⟨S512x256, .f32⟩ : BufTy).Contents (Elt Ideal)) (x7 : (⟨S512, .f32⟩ : BufTy).Contents (Elt Ideal)) (x8 : (⟨S512x256, .f32⟩ : BufTy).Contents (Elt Ideal)) (x9 : (⟨S256x512, .f32⟩ : BufTy).Contents (Elt Ideal)) (x10 : (⟨S256, .f32⟩ : BufTy).Contents (Elt Ideal)) (x11 : (⟨S256x512, .f32⟩ : BufTy).Contents (Elt Ideal)) (x15 : (⟨S256, .f32⟩ : BufTy).Contents (Elt Ideal)) (x16 : (⟨S256, .f32⟩ : BufTy).Contents (Elt Ideal)) (x17 : (⟨S256, .f32⟩ : BufTy).Contents (Elt Ideal)) (n : Fin 50000) (k : Fin 256) :
    val_main_v106 (F := Ideal) x0 x1 x2 x3 x4 x5 x6 x7 x8 x9 x10 x11 x15 x16 x17 (ix2 n k)
      = Cert.Spec.agg (Cert.Args.graphOf x1) (fun e => x2 (ix1 e)) (fun n k => val_main_v93 (F := Ideal) x0 x1 x2 x3 x4 x5 x6 x7 x8 x9 x10 x11 x15 x16 x17 (ix2 n k)) n k := by
  unfold val_main_v106 val_main_v103 val_main_v100
  exact aggregate (by norm_num) Facts₀.scatter_S50000x256_S400000x1_S400000x256_1_0_0_1_wf scatter_S50000x256_S400000x1_S400000x256_1_0_0_1 rfl Facts₀.gather_S50000x256_S400000x1_S400000x256_1_0_n_n_0_1_1256_wf gather_S50000x256_S400000x1_S400000x256_1_0_n_n_0_1_1256 rfl
    _ (fun i => by rw [val_main_v104_apply, val_main_cst_14_apply]; exact Ideal.ofBits_zero_f32)
    (val_main_v93 (F := Ideal) x0 x1 x2 x3 x4 x5 x6 x7 x8 x9 x10 x11 x15 x16 x17) _ _ _ (fun e => x2 (ix1 e))
    (fun e k => by rw [val_main_v102_apply, val_main_v101_apply]; exact congrArg x2 (idx1_ext _ _ rfl)) n k

/-- Convolution 4 at (n, o). -/
theorem conv4 (x0 : (⟨S50000x144, .f32⟩ : BufTy).Contents (Elt Ideal)) (x1 : (⟨S2x400000, .i32⟩ : BufTy).Contents (Elt Ideal)) (x2 : (⟨S400000, .f32⟩ : BufTy).Contents (Elt Ideal)) (x3 : (⟨S256x144, .f32⟩ : BufTy).Contents (Elt Ideal)) (x4 : (⟨S256, .f32⟩ : BufTy).Contents (Elt Ideal)) (x5 : (⟨S256x144, .f32⟩ : BufTy).Contents (Elt Ideal)) (x6 : (⟨S512x256, .f32⟩ : BufTy).Contents (Elt Ideal)) (x7 : (⟨S512, .f32⟩ : BufTy).Contents (Elt Ideal)) (x8 : (⟨S512x256, .f32⟩ : BufTy).Contents (Elt Ideal)) (x9 : (⟨S256x512, .f32⟩ : BufTy).Contents (Elt Ideal)) (x10 : (⟨S256, .f32⟩ : BufTy).Contents (Elt Ideal)) (x11 : (⟨S256x512, .f32⟩ : BufTy).Contents (Elt Ideal)) (x12 : (⟨S128x256, .f32⟩ : BufTy).Contents (Elt Ideal)) (x13 : (⟨S128, .f32⟩ : BufTy).Contents (Elt Ideal)) (x14 : (⟨S128x256, .f32⟩ : BufTy).Contents (Elt Ideal)) (x15 : (⟨S256, .f32⟩ : BufTy).Contents (Elt Ideal)) (x16 : (⟨S256, .f32⟩ : BufTy).Contents (Elt Ideal)) (x17 : (⟨S256, .f32⟩ : BufTy).Contents (Elt Ideal)) (n : Fin 50000) (o : Fin 128) :
    val_main_v114 (F := Ideal) x0 x1 x2 x3 x4 x5 x6 x7 x8 x9 x10 x11 x12 x13 x14 x15 x16 x17 (ix2 n o)
      = Cert.Spec.convRef (Cert.Args.graphOf x1) (fun e => x2 (ix1 e)) (fun o k => x12 (ix2 o k)) (fun o => x13 (ix1 o))
          (fun o k => x14 (ix2 o k)) (fun n k => val_main_v93 (F := Ideal) x0 x1 x2 x3 x4 x5 x6 x7 x8 x9 x10 x11 x15 x16 x17 (ix2 n k)) n o := by
  rw [val_main_v114_apply, val_main_v111_apply, val_main_v108_apply, val_main_v110_apply, val_main_v109_apply, val_main_v113_apply]
  simp only [Ideal.addf_def]
  unfold Cert.Spec.convRef Cert.Spec.lin
  refine congr (congrArg _ (congr (congrArg _ ?_) ?_)) ?_
  · refine Finset.sum_congr rfl fun k _ => ?_
    rw [val_main_v107_apply, show lidx_main_v108 (ix2 n o) k = ix2 n k from idx2_ext _ _ rfl rfl,
      show idx_main_v107 (ridx_main_v108 (ix2 n o) k) = ix2 o k from idx2_ext _ _ rfl rfl, agg4]
  · exact congrArg x13 (idx1_ext _ _ rfl)
  · refine Finset.sum_congr rfl fun k _ => ?_
    rw [val_main_v112_apply, show lidx_main_v113 (ix2 n o) k = ix2 n k from idx2_ext _ _ rfl rfl,
      show idx_main_v112 (ridx_main_v113 (ix2 n o) k) = ix2 o k from idx2_ext _ _ rfl rfl]

end Cert.RefSpec

end
-- ==== Proof.RefIsSpec.lean ====
/-
  The reference's result is the spec's network. Each layer of the reference was read entry by entry with the previous
  layer entering as a function of (node, feature); here the four convolutions, the two rectifiers and the normalisation
  are composed, and the composite is the spec's reference network at the graph and the parameters the arguments describe.
-/
import proofs.«136480_j970662609200_2_alg».proof.Proof.RefLayer1
import proofs.«136480_j970662609200_2_alg».proof.Proof.RefLayer2
import proofs.«136480_j970662609200_2_alg».proof.Proof.RefLayer3
import proofs.«136480_j970662609200_2_alg».proof.Proof.RefNorm
import proofs.«136480_j970662609200_2_alg».proof.Proof.RefLayer4

noncomputable section

open scoped BigOperators

namespace Cert.RefSpec

open Idealize.ShloMosaic Idealize.ShloMosaic.ValueIdx Cert.ReferenceIdeal Cert.ReferenceIdeal.Read

/-- THE REFERENCE IS THE SPEC'S NETWORK, entry by entry. -/
theorem ref_is_refNet (x0 : (⟨S50000x144, .f32⟩ : BufTy).Contents (Elt Ideal)) (x1 : (⟨S2x400000, .i32⟩ : BufTy).Contents (Elt Ideal)) (x2 : (⟨S400000, .f32⟩ : BufTy).Contents (Elt Ideal)) (x3 : (⟨S256x144, .f32⟩ : BufTy).Contents (Elt Ideal)) (x4 : (⟨S256, .f32⟩ : BufTy).Contents (Elt Ideal)) (x5 : (⟨S256x144, .f32⟩ : BufTy).Contents (Elt Ideal)) (x6 : (⟨S512x256, .f32⟩ : BufTy).Contents (Elt Ideal)) (x7 : (⟨S512, .f32⟩ : BufTy).Contents (Elt Ideal)) (x8 : (⟨S512x256, .f32⟩ : BufTy).Contents (Elt Ideal)) (x9 : (⟨S256x512, .f32⟩ : BufTy).Contents (Elt Ideal)) (x10 : (⟨S256, .f32⟩ : BufTy).Contents (Elt Ideal)) (x11 : (⟨S256x512, .f32⟩ : BufTy).Contents (Elt Ideal)) (x12 : (⟨S128x256, .f32⟩ : BufTy).Contents (Elt Ideal)) (x13 : (⟨S128, .f32⟩ : BufTy).Contents (Elt Ideal)) (x14 : (⟨S128x256, .f32⟩ : BufTy).Contents (Elt Ideal)) (x15 : (⟨S256, .f32⟩ : BufTy).Contents (Elt Ideal)) (x16 : (⟨S256, .f32⟩ : BufTy).Contents (Elt Ideal)) (x17 : (⟨S256, .f32⟩ : BufTy).Contents (Elt Ideal)) (n : Fin 50000) (o : Fin 128) :
    Cert.ReferenceIdeal.Read.val_main_v114 (F := Ideal) x0 x1 x2 x3 x4 x5 x6 x7 x8 x9 x10 x11 x12 x13 x14 x15 x16 x17 (ValueIdx.ix2 n o)
      = Cert.Spec.refNet (Cert.Args.graphOf x1) (Cert.Args.paramsOf x0 x2 x3 x4 x5 x6 x7 x8 x9 x10 x11 x12 x13 x14 x15 x16 x17) n o := by
  have e1 : (fun n k => val_main_v25 (F := Ideal) x0 x1 x2 x3 x4 x5 (ix2 n k)) = Cert.Spec.relu (Cert.Spec.convRef (Cert.Args.graphOf x1) (fun e => x2 (ix1 e)) (fun o k => x3 (ix2 o k)) (fun o => x4 (ix1 o)) (fun o k => x5 (ix2 o k)) (fun n k => x0 (ix2 n k))) :=
    funext fun n => funext fun k => layer1 x0 x1 x2 x3 x4 x5 n k
  have e2 : (fun n k => val_main_v47 (F := Ideal) x0 x1 x2 x3 x4 x5 x6 x7 x8 (ix2 n k)) = Cert.Spec.relu (Cert.Spec.convRef (Cert.Args.graphOf x1) (fun e => x2 (ix1 e)) (fun o k => x6 (ix2 o k)) (fun o => x7 (ix1 o)) (fun o k => x8 (ix2 o k)) (fun n k => val_main_v25 (F := Ideal) x0 x1 x2 x3 x4 x5 (ix2 n k))) :=
    funext fun n => funext fun k => layer2 x0 x1 x2 x3 x4 x5 x6 x7 x8 n k
  have e3 : (fun n k => val_main_v68 (F := Ideal) x0 x1 x2 x3 x4 x5 x6 x7 x8 x9 x10 x11 (ix2 n k)) = (Cert.Spec.convRef (Cert.Args.graphOf x1) (fun e => x2 (ix1 e)) (fun o k => x9 (ix2 o k)) (fun o => x10 (ix1 o)) (fun o k => x11 (ix2 o k)) (fun n k => val_main_v47 (F := Ideal) x0 x1 x2 x3 x4 x5 x6 x7 x8 (ix2 n k))) :=
    funext fun n => funext fun k => conv3 x0 x1 x2 x3 x4 x5 x6 x7 x8 x9 x10 x11 n k
  have e4 : (fun n k => val_main_v93 (F := Ideal) x0 x1 x2 x3 x4 x5 x6 x7 x8 x9 x10 x11 x15 x16 x17 (ix2 n k)) = Cert.Spec.relu (Cert.Spec.normRef (fun k => x15 (ix1 k)) (fun k => x16 (ix1 k)) (fun k => x17 (ix1 k)) (fun n k => val_main_v68 (F := Ideal) x0 x1 x2 x3 x4 x5 x6 x7 x8 x9 x10 x11 (ix2 n k))) :=
    funext fun n => funext fun k => layerN x0 x1 x2 x3 x4 x5 x6 x7 x8 x9 x10 x11 x15 x16 x17 n k
  rw [conv4, e4, e3, e2, e1]
  rfl

end Cert.RefSpec

end
-- ==== Proof.Bridge.lean ====
/-
  The bridge between the two runs.

  The precondition makes every float argument of the kernel real-valued, so the parameters it describes are real and the
  kernel's network equals the reference's network there.  The reference's result array is the reference's network of the
  graph and parameters its own arguments describe; the two memories agree on the arguments, so these are the kernel's
  graph and parameters; hence the reference's result array is the kernel's, entry by entry.
-/
import proofs.«136480_j970662609200_2_alg».proof.Defs
import proofs.«136480_j970662609200_2_alg».proof.Proof.Gen.Pre_finite_inputs
import proofs.«136480_j970662609200_2_alg».proof.Proof.Finite
import proofs.«136480_j970662609200_2_alg».proof.Proof.SpecLaws
import proofs.«136480_j970662609200_2_alg».proof.Proof.RefIsSpec
import proofs.«136480_j970662609200_2_alg».proof.Proof.ChainBase

set_option maxRecDepth 16384

noncomputable section

namespace Cert.Bridge

open Idealize.ShloMosaic Idealize.ShloMosaic.ValueIdx Idealize.SL.Sem

/-- THE KERNEL'S PARAMETERS ARE REAL: each of the seventeen float arguments is real-valued entry by entry, which is the
    same fact about the parameter it is read as, coordinate by coordinate. -/
theorem pa_real (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m)
    (c : Dev Cert.KernelIdeal.nD) : (Cert.KernelIdeal.Chain.Pa m c).IsReal := by
  obtain ⟨h0, h2, h3, h4, h5, h6, h7, h8, h9, h10, h11, h12, h13, h14, h15, h16, h17⟩ :=
    Cert.Finite.all_real _ _ _ _ _ _ _ _ _ _ _ _ _ _ _ _ _ _ (hpre c)
  exact ⟨fun a b => h0 (ix2 a b),
    fun a => h2 (ix1 a),
    fun a b => h3 (ix2 a b),
    fun a => h4 (ix1 a),
    fun a b => h5 (ix2 a b),
    fun a b => h6 (ix2 a b),
    fun a => h7 (ix1 a),
    fun a b => h8 (ix2 a b),
    fun a b => h9 (ix2 a b),
    fun a => h10 (ix1 a),
    fun a b => h11 (ix2 a b),
    fun a b => h12 (ix2 a b),
    fun a => h13 (ix1 a),
    fun a b => h14 (ix2 a b),
    fun a => h15 (ix1 a),
    fun a => h16 (ix1 a),
    fun a => h17 (ix1 a)⟩

/-- THE REFERENCE'S RESULT IS THE KERNEL'S, given that the kernel's result is the kernel's network of its graph and
    parameters: the reference's result is the reference's network of the same graph and parameters, and the two networks
    agree on real parameters. -/
theorem result_eq (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (hpre : Cert.Pre_KernelIdeal (hPre_finite_inputs := Cert.Pre_finite_inputs.Gen.facts) m)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (hker : Cert.KernelIdeal.Chain.cur2 (Cert.KernelIdeal.Chain.Out m ρ c) = Cert.Spec.kerNet (Cert.KernelIdeal.Chain.Gr m c) (Cert.KernelIdeal.Chain.Pa m c)) :
    Cert.ReferenceIdeal.Value.res_main_v114 (F := Ideal) m' c = Cert.KernelIdeal.Chain.Out m ρ c := by
  obtain ⟨a0, a1, a2, a3, a4, a5, a6, a7, a8, a9, a10, a11, a12, a13, a14, a15, a16, a17⟩ := hagree
  rw [Cert.ReferenceIdeal.Read.val_main_v114_eq, a0, a1, a2, a3, a4, a5, a6, a7, a8, a9, a10, a11, a12, a13, a14, a15, a16, a17]
  refine funext fun (j : Cert.KernelIdeal.S50000x128.Idx) => ?_
  obtain ⟨n, o, rfl⟩ : ∃ (n : Fin 50000) (o : Fin 128), j = ix2 n o := ⟨j 0, j 1, eq_ix2 j⟩
  rw [Cert.RefSpec.ref_is_refNet]
  exact (congrFun (congrFun (Cert.Spec.kerNet_eq_refNet (Cert.KernelIdeal.Chain.Gr m c) (Cert.KernelIdeal.Chain.Pa m c) (pa_real m hpre c)) n) o).symm.trans
    (congrFun (congrFun hker n) o).symm

end Cert.Bridge

end
-- ==== Proof.lean ====
/-
  The certificate: a four-layer graph network computed two ways is one function of its inputs.

  The reference aggregates each layer's features over the edges and then applies the relational weights; the kernel does
  the same for the first two layers, and for the last two applies the relational weights first, so that the narrower
  product is what travels over the edges.  Between the third and the fourth layer the reference centres each feature by
  its scaled mean, divides by the deviation, scales, shifts and rectifies; the kernel accumulates each feature's sum and
  sum of squares over blocks of nodes and folds them into one multiplier and one offset per feature.

  On finite inputs every intermediate is a real number, and over the reals the two are the same function: a weighted sum
  over edges commutes with a product by a fixed matrix (the two sums exchange, the products distribute), the mean of the
  squared centred features is the mean of the squares minus the squared mean times (2·s − s²) for the mean scale s, and
  (h − s·μ)/σ·w + b = h·(w/σ) + (b − s·μ·(w/σ)) with σ > 0 because the variance is not negative and epsilon is positive.
  Finiteness is used exactly there: the exchange and the expansions fail at the infinities.

  The three programs run without a fault and leave their arguments unchanged (the generated frames; the reference's is its
  generated run with the result dropped); the ideal pass rewrote nothing, so the kernel's idealization is its own text.
-/
import proofs.«136480_j970662609200_2_alg».proof.Defs
import proofs.«136480_j970662609200_2_alg».proof.Proof.Gen.Kernel
import proofs.«136480_j970662609200_2_alg».proof.Proof.Gen.Kernel.Skeleton
import proofs.«136480_j970662609200_2_alg».proof.Proof.Gen.Kernel.Launch
import proofs.«136480_j970662609200_2_alg».proof.Proof.Gen.Kernel.Points
import proofs.«136480_j970662609200_2_alg».proof.Proof.Gen.Kernel.Frame
import proofs.«136480_j970662609200_2_alg».proof.Proof.Gen.KernelIdeal
import proofs.«136480_j970662609200_2_alg».proof.Proof.Gen.KernelIdeal.Skeleton
import proofs.«136480_j970662609200_2_alg».proof.Proof.Gen.KernelIdeal.Launch
import proofs.«136480_j970662609200_2_alg».proof.Proof.Gen.KernelIdeal.Points
import proofs.«136480_j970662609200_2_alg».proof.Proof.Gen.KernelIdeal.Frame
import proofs.«136480_j970662609200_2_alg».proof.Proof.Gen.ReferenceIdeal
import proofs.«136480_j970662609200_2_alg».proof.Proof.Gen.ReferenceIdeal.Run
import proofs.«136480_j970662609200_2_alg».proof.Proof.Gen.ReferenceIdeal.Read
import proofs.«136480_j970662609200_2_alg».proof.Proof.Gen.Pre_finite_inputs
import proofs.«136480_j970662609200_2_alg».proof.Proof.KernelRun
import proofs.«136480_j970662609200_2_alg».proof.Proof.KernelIsSpec
import proofs.«136480_j970662609200_2_alg».proof.Proof.Bridge
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel (hKernel := Cert.Kernel.Gen.facts) (hPre_finite_inputs := Cert.Pre_finite_inputs.Gen.facts) :=
  fun m ρ _ => Cert.Kernel.Gen.frame m ρ

/-- The idealized kernel runs and keeps its arguments. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The idealized reference runs and keeps its arguments: its run, the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the arguments, finite, both idealized programs end with the same result array: the
    kernel's is the kernel network of the arguments, the reference's the reference network, and on real parameters the two
    networks are one function. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Chain.Out m ρ c, Cert.KernelIdeal.RunValue.run_result (F := Ideal) m ρ, ?_⟩
  refine (θ_run Cert.ReferenceIdeal.defs _ _).mono (fun _ h c => ⟨(h c).1.trans ?_, (h c).2⟩)
    (Cert.ReferenceIdeal.Value.run (F := Ideal) m' ρ')
  exact Cert.Bridge.result_eq m ρ m' c hpre (hagree c) (Cert.KernelIdeal.Chain.out_is_kerNet m ρ c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
